-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x3x3 : Shape := ⟨3, ![128, 3, 3]⟩
abbrev S128x256 : Shape := ⟨2, ![128, 256]⟩
abbrev S256 : Shape := ⟨1, ![256]⟩
abbrev S256x256 : Shape := ⟨2, ![256, 256]⟩
abbrev S9x256 : Shape := ⟨2, ![9, 256]⟩
abbrev S512x256 : Shape := ⟨2, ![512, 256]⟩
abbrev S256x32 : Shape := ⟨2, ![256, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x3x3 : S_.BroadcastsInDim S128x3x3 (![] : Fin 0 → Fin S128x3x3.rank)
  reducesTo_S128x3x3_S_d0_1_2 : S128x3x3.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S9x256 : S_.BroadcastsInDim S9x256 (![] : Fin 0 → Fin S9x256.rank)
  reducesTo_S9x256_S_d0_1 : S9x256.ReducesTo [0, 1] S_
  bcast_S_S512x256 : S_.BroadcastsInDim S512x256 (![] : Fin 0 → Fin S512x256.rank)
  reducesTo_S512x256_S_d0_1 : S512x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part8 {F : FTy → Type} [FloatOps F] (main_v133 : IVec S_ 1) (main_v136 : IVec S32 1) : IVec S_ 1 :=
  let main_c_53 : IVec S_ 1 := constantI S_ 1 1#1
  let main_v137 : IVec S_ 1 := (fun x v => Host.reduce IntOp.andi x v reducesTo_S32_S_d0 h_S_) main_v136 main_c_53
  let main_v138 : IVec S_ 1 := andi main_v133 main_v137
  main_v138

def fn_part7 {F : FTy → Type} [FloatOps F] (main_arg27 : FVec F S256 .f32) (main_arg28 : FVec F S256x32 .f32) (main_arg29 : FVec F S32 .f32) (main_v118 : IVec S_ 1) (main_v119 : FVec F S512x256 .f32) : IVec S_ 1 :=
  let main_cst_46 : FVec F S_ .f32 := constant S_ .f32 0x7F800000#32
  let main_v120 : FVec F S512x256 .f32 := broadcastInDim S512x256 ![] bcast_S_S512x256 main_cst_46
  let main_v121 : IVec S512x256 1 := cmpf .olt main_v119 main_v120
  let main_c_47 : IVec S_ 1 := constantI S_ 1 1#1
  let main_v122 : IVec S_ 1 := (fun x v => Host.reduce IntOp.andi x v reducesTo_S512x256_S_d0_1 h_S_) main_v121 main_c_47
  let main_v123 : IVec S_ 1 := andi main_v118 main_v122
  let main_v124 : FVec F S256 .f32 := Host.absf main_arg27
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256x32 .f32 := Host.absf main_arg28
  let main_cst_50 : FVec F S_ .f32 := constant S_ .f32 0x7F800000#32
  let main_v130 : FVec F S256x32 .f32 := broadcastInDim S256x32 ![] bcast_S_S256x32 main_cst_50
  let main_v131 : IVec S256x32 1 := cmpf .olt main_v129 main_v130
  let main_c_51 : IVec S_ 1 := constantI S_ 1 1#1
  let main_v132 : IVec S_ 1 := (fun x v => Host.reduce IntOp.andi x v reducesTo_S256x32_S_d0_1 h_S_) main_v131 main_c_51
  let main_v133 : IVec S_ 1 := andi main_v128 main_v132
  let main_v134 : FVec F S32 .f32 := Host.absf main_arg29
  let main_cst_52 : FVec F S_ .f32 := constant S_ .f32 0x7F800000#32
  let main_v135 : FVec F S32 .f32 := broadcastInDim S32 ![] bcast_S_S32 main_cst_52
  let main_v136 : IVec S32 1 := cmpf .olt main_v134 main_v135
  fn_part8 (F := F) main_v133 main_v136

def fn_part6 {F : FTy → Type} [FloatOps F] (main_arg23 : FVec F S256 .f32) (main_arg24 : FVec F S256x256 .f32) (main_arg25 : FVec F S256 .f32) (main_arg26 : FVec F S512x256 .f32) (main_arg27 : FVec F S256 .f32) (main_arg28 : FVec F S256x32 .f32) (main_arg29 : FVec F S32 .f32) (main_v98 : IVec S_ 1) (main_v101 : IVec S9x256 1) (main_c_39 : IVec S_ 1) : IVec S_ 1 :=
  let main_v102 : IVec S_ 1 := (fun x v => Host.reduce IntOp.andi x v reducesTo_S9x256_S_d0_1 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x256 .f32 := Host.absf main_arg24
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg25
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S512x256 .f32 := Host.absf main_arg26
  fn_part7 (F := F) main_arg27 main_arg28 main_arg29 main_v118 main_v119

def fn_part5 {F : FTy → Type} [FloatOps F] (main_arg20 : FVec F S256 .f32) (main_arg21 : FVec F S256 .f32) (main_arg22 : FVec F S9x256 .f32) (main_arg23 : FVec F S256 .f32) (main_arg24 : FVec F S256x256 .f32) (main_arg25 : FVec F S256 .f32) (main_arg26 : FVec F S512x256 .f32) (main_arg27 : FVec F S256 .f32) (main_arg28 : FVec F S256x32 .f32) (main_arg29 : FVec F S32 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S9x256 .f32 := Host.absf main_arg22
  let main_cst_38 : FVec F S_ .f32 := constant S_ .f32 0x7F800000#32
  let main_v100 : FVec F S9x256 .f32 := broadcastInDim S9x256 ![] bcast_S_S9x256 main_cst_38
  let main_v101 : IVec S9x256 1 := cmpf .olt main_v99 main_v100
  let main_c_39 : IVec S_ 1 := constantI S_ 1 1#1
  fn_part6 (F := F) main_arg23 main_arg24 main_arg25 main_arg26 main_arg27 main_arg28 main_arg29 main_v98 main_v101 main_c_39

def fn_part4 {F : FTy → Type} [FloatOps F] (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S9x256 .f32) (main_arg23 : FVec F S256 .f32) (main_arg24 : FVec F S256x256 .f32) (main_arg25 : FVec F S256 .f32) (main_arg26 : FVec F S512x256 .f32) (main_arg27 : FVec F S256 .f32) (main_arg28 : FVec F S256x32 .f32) (main_arg29 : FVec F S32 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg18
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_v83 main_v84 main_cst_32

def fn_part3 {F : FTy → Type} [FloatOps F] (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S9x256 .f32) (main_arg23 : FVec F S256 .f32) (main_arg24 : FVec F S256x256 .f32) (main_arg25 : FVec F S256 .f32) (main_arg26 : FVec F S512x256 .f32) (main_arg27 : FVec F S256 .f32) (main_arg28 : FVec F S256x32 .f32) (main_arg29 : FVec F S32 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_arg26 main_arg27 main_arg28 main_arg29 main_v63 main_v67

def fn_part2 {F : FTy → Type} [FloatOps F] (main_arg9 : FVec F S256 .f32) (main_arg10 : FVec F S256x256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S9x256 .f32) (main_arg23 : FVec F S256 .f32) (main_arg24 : FVec F S256x256 .f32) (main_arg25 : FVec F S256 .f32) (main_arg26 : FVec F S512x256 .f32) (main_arg27 : FVec F S256 .f32) (main_arg28 : FVec F S256x32 .f32) (main_arg29 : FVec F S32 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S9x256 .f32) (main_arg23 : FVec F S256 .f32) (main_arg24 : FVec F S256x256 .f32) (main_arg25 : FVec F S256 .f32) (main_arg26 : FVec F S512x256 .f32) (main_arg27 : FVec F S256 .f32) (main_arg28 : FVec F S256x32 .f32) (main_arg29 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x128 .f32) (main_arg1 : IVec S2x800000 32) (main_arg2 : IVec S50000 32) (main_arg3 : FVec F S128x3x3 .f32) (main_arg4 : FVec F S128x256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S9x256 .f32) (main_arg23 : FVec F S256 .f32) (main_arg24 : FVec F S256x256 .f32) (main_arg25 : FVec F S256 .f32) (main_arg26 : FVec F S512x256 .f32) (main_arg27 : FVec F S256 .f32) (main_arg28 : FVec F S256x32 .f32) (main_arg29 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x3x3 .f32 := Host.absf main_arg3
  let main_cst_0 : FVec F S_ .f32 := constant S_ .f32 0x7F800000#32
  let main_v5 : FVec F S128x3x3 .f32 := broadcastInDim S128x3x3 ![] bcast_S_S128x3x3 main_cst_0
  let main_v6 : IVec S128x3x3 1 := cmpf .olt main_v4 main_v5
  let main_c_1 : IVec S_ 1 := constantI S_ 1 1#1
  let main_v7 : IVec S_ 1 := (fun x v => Host.reduce IntOp.andi x v reducesTo_S128x3x3_S_d0_1_2 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x3x3 : Shape := ⟨3, ![128, 3, 3]⟩
abbrev S128x256 : Shape := ⟨2, ![128, 256]⟩
abbrev S256 : Shape := ⟨1, ![256]⟩
abbrev S256x256 : Shape := ⟨2, ![256, 256]⟩
abbrev S9x256 : Shape := ⟨2, ![9, 256]⟩
abbrev S512x256 : Shape := ⟨2, ![512, 256]⟩
abbrev S256x32 : Shape := ⟨2, ![256, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S50000x1 : Shape := ⟨2, ![50000, 1]⟩
abbrev S128 : Shape := ⟨1, ![128]⟩
abbrev S128x1 : Shape := ⟨2, ![128, 1]⟩
abbrev S128x9 : Shape := ⟨2, ![128, 9]⟩
abbrev S1x32 : Shape := ⟨2, ![1, 32]⟩
abbrev S128x32 : Shape := ⟨2, ![128, 32]⟩
abbrev S128x512 : Shape := ⟨2, ![128, 512]⟩

abbrev nBuf : Space → Nat
  | .hbm => 176
  | .vmem => 65
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x3x3, .f32⟩
  | 4 => ⟨S128x256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256, .f32⟩
  | 21 => ⟨S256, .f32⟩
  | 22 => ⟨S9x256, .f32⟩
  | 23 => ⟨S256, .f32⟩
  | 24 => ⟨S256x256, .f32⟩
  | 25 => ⟨S256, .f32⟩
  | 26 => ⟨S512x256, .f32⟩
  | 27 => ⟨S256, .f32⟩
  | 28 => ⟨S256x32, .f32⟩
  | 29 => ⟨S32, .f32⟩
  | 30 => ⟨S1x800000, .i32⟩
  | 31 => ⟨S800000, .i32⟩
  | 32 => ⟨S1x800000, .i32⟩
  | 33 => ⟨S800000, .i32⟩
  | 34 => ⟨S50000x128, .bf16⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .bf16⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S1x256, .f32⟩
  | 50 => ⟨S1x256, .f32⟩
  | 51 => ⟨S50000x256, .f32⟩
  | 52 => ⟨S_, .f32⟩
  | 53 => ⟨S256, .f32⟩
  | 54 => ⟨S_, .f32⟩
  | 55 => ⟨S256, .f32⟩
  | 56 => ⟨S256, .f32⟩
  | 57 => ⟨S1x256, .f32⟩
  | 58 => ⟨S50000x256, .f32⟩
  | 59 => ⟨S50000x256, .f32⟩
  | 60 => ⟨S50000x256, .f32⟩
  | 61 => ⟨S_, .f32⟩
  | 62 => ⟨S256, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S1x256, .f32⟩
  | 70 => ⟨S1x256, .f32⟩
  | 71 => ⟨S1x256, .f32⟩
  | 72 => ⟨S1x256, .f32⟩
  | 73 => ⟨S50000x256, .f32⟩
  | 74 => ⟨S50000x256, .bf16⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .bf16⟩
  | 84 => ⟨S800000x256, .f32⟩
  | 85 => ⟨S_, .f32⟩
  | 86 => ⟨S50000x256, .f32⟩
  | 87 => ⟨S800000x1, .i32⟩
  | 88 => ⟨S50000x256, .f32⟩
  | 89 => ⟨S1x256, .f32⟩
  | 90 => ⟨S1x256, .f32⟩
  | 91 => ⟨S50000x256, .f32⟩
  | 92 => ⟨S_, .f32⟩
  | 93 => ⟨S256, .f32⟩
  | 94 => ⟨S_, .f32⟩
  | 95 => ⟨S256, .f32⟩
  | 96 => ⟨S256, .f32⟩
  | 97 => ⟨S1x256, .f32⟩
  | 98 => ⟨S50000x256, .f32⟩
  | 99 => ⟨S50000x256, .f32⟩
  | 100 => ⟨S50000x256, .f32⟩
  | 101 => ⟨S_, .f32⟩
  | 102 => ⟨S256, .f32⟩
  | 103 => ⟨S_, .f32⟩
  | 104 => ⟨S256, .f32⟩
  | 105 => ⟨S256, .f32⟩
  | 106 => ⟨S_, .f32⟩
  | 107 => ⟨S256, .f32⟩
  | 108 => ⟨S256, .f32⟩
  | 109 => ⟨S1x256, .f32⟩
  | 110 => ⟨S1x256, .f32⟩
  | 111 => ⟨S1x256, .f32⟩
  | 112 => ⟨S1x256, .f32⟩
  | 113 => ⟨S50000x256, .f32⟩
  | 114 => ⟨S50000x256, .bf16⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x256, .bf16⟩
  | 124 => ⟨S800000x256, .f32⟩
  | 125 => ⟨S_, .f32⟩
  | 126 => ⟨S50000x256, .f32⟩
  | 127 => ⟨S800000x1, .i32⟩
  | _ => ⟨S50000x128, .f32⟩

abbrev hbmTy0_1 (i : Nat) : BufTy := match i % 128 with
  | 0 => ⟨S50000x256, .f32⟩
  | 1 => ⟨S1x256, .f32⟩
  | 2 => ⟨S1x256, .f32⟩
  | 3 => ⟨S50000x256, .f32⟩
  | 4 => ⟨S_, .f32⟩
  | 5 => ⟨S256, .f32⟩
  | 6 => ⟨S_, .f32⟩
  | 7 => ⟨S256, .f32⟩
  | 8 => ⟨S256, .f32⟩
  | 9 => ⟨S1x256, .f32⟩
  | 10 => ⟨S50000x256, .f32⟩
  | 11 => ⟨S50000x256, .f32⟩
  | 12 => ⟨S50000x256, .f32⟩
  | 13 => ⟨S_, .f32⟩
  | 14 => ⟨S256, .f32⟩
  | 15 => ⟨S_, .f32⟩
  | 16 => ⟨S256, .f32⟩
  | 17 => ⟨S256, .f32⟩
  | 18 => ⟨S_, .f32⟩
  | 19 => ⟨S256, .f32⟩
  | 20 => ⟨S256, .f32⟩
  | 21 => ⟨S1x256, .f32⟩
  | 22 => ⟨S1x256, .f32⟩
  | 23 => ⟨S1x256, .f32⟩
  | 24 => ⟨S1x256, .f32⟩
  | 25 => ⟨S50000x256, .f32⟩
  | 26 => ⟨S_, .f32⟩
  | 27 => ⟨S128x256, .f32⟩
  | 28 => ⟨S50000x1, .i32⟩
  | 29 => ⟨S128x256, .f32⟩
  | 30 => ⟨S_, .f32⟩
  | 31 => ⟨S50000, .f32⟩
  | 32 => ⟨S_, .f32⟩
  | 33 => ⟨S128, .f32⟩
  | 34 => ⟨S50000x1, .i32⟩
  | 35 => ⟨S128, .f32⟩
  | 36 => ⟨S_, .f32⟩
  | 37 => ⟨S128, .f32⟩
  | 38 => ⟨S128, .f32⟩
  | 39 => ⟨S128x1, .f32⟩
  | 40 => ⟨S128x256, .f32⟩
  | 41 => ⟨S128x256, .f32⟩
  | 42 => ⟨S128x9, .f32⟩
  | 43 => ⟨S1x256, .f32⟩
  | 44 => ⟨S1x256, .f32⟩
  | 45 => ⟨S1x256, .f32⟩
  | 46 => ⟨S1x32, .f32⟩
  | 47 => ⟨S128x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S1x256, .f32⟩
  | .local _ .vmem, ⟨42, _⟩ => ⟨S256x256, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S128x256, .f32⟩
  | .local _ .vmem, ⟨55, _⟩ => ⟨S128x9, .f32⟩
  | .local _ .vmem, ⟨56, _⟩ => ⟨S9x256, .f32⟩
  | .local _ .vmem, ⟨57, _⟩ => ⟨S1x256, .f32⟩
  | .local _ .vmem, ⟨58, _⟩ => ⟨S256x256, .f32⟩
  | .local _ .vmem, ⟨59, _⟩ => ⟨S1x256, .f32⟩
  | .local _ .vmem, ⟨60, _⟩ => ⟨S512x256, .f32⟩
  | .local _ .vmem, ⟨61, _⟩ => ⟨S1x256, .f32⟩
  | .local _ .vmem, ⟨62, _⟩ => ⟨S256x32, .f32⟩
  | .local _ .vmem, ⟨63, _⟩ => ⟨S1x32, .f32⟩
  | .local _ .vmem, ⟨64, _⟩ => ⟨S128x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_c : Ref sig .tc := ⟨.hbm, 35, rfl⟩
abbrev main_v5 : Ref sig .tc := ⟨.hbm, 36, rfl⟩
abbrev main_v6 : Ref sig .tc := ⟨.hbm, 37, rfl⟩
abbrev main_c_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_1 : Ref sig .tc := ⟨.hbm, 52, rfl⟩
abbrev main_v19 : Ref sig .tc := ⟨.hbm, 53, rfl⟩
abbrev main_cst_2 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_3 : Ref sig .tc := ⟨.hbm, 61, rfl⟩
abbrev main_v26 : Ref sig .tc := ⟨.hbm, 62, rfl⟩
abbrev main_cst_4 : Ref sig .tc := ⟨.hbm, 63, rfl⟩
abbrev main_v27 : Ref sig .tc := ⟨.hbm, 64, rfl⟩
abbrev main_v28 : Ref sig .tc := ⟨.hbm, 65, rfl⟩
abbrev main_cst_5 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_6 : Ref sig .tc := ⟨.hbm, 75, rfl⟩
abbrev main_v37 : Ref sig .tc := ⟨.hbm, 76, rfl⟩
abbrev main_v38 : Ref sig .tc := ⟨.hbm, 77, rfl⟩
abbrev main_c_7 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_8 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_9 : Ref sig .tc := ⟨.hbm, 92, rfl⟩
abbrev main_v51 : Ref sig .tc := ⟨.hbm, 93, rfl⟩
abbrev main_cst_10 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_11 : Ref sig .tc := ⟨.hbm, 101, rfl⟩
abbrev main_v58 : Ref sig .tc := ⟨.hbm, 102, rfl⟩
abbrev main_cst_12 : Ref sig .tc := ⟨.hbm, 103, rfl⟩
abbrev main_v59 : Ref sig .tc := ⟨.hbm, 104, rfl⟩
abbrev main_v60 : Ref sig .tc := ⟨.hbm, 105, rfl⟩
abbrev main_cst_13 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_14 : Ref sig .tc := ⟨.hbm, 115, rfl⟩
abbrev main_v69 : Ref sig .tc := ⟨.hbm, 116, rfl⟩
abbrev main_v70 : Ref sig .tc := ⟨.hbm, 117, rfl⟩
abbrev main_c_15 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_16 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_17 : Ref sig .tc := ⟨.hbm, 132, rfl⟩
abbrev main_v83 : Ref sig .tc := ⟨.hbm, 133, rfl⟩
abbrev main_cst_18 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_19 : Ref sig .tc := ⟨.hbm, 141, rfl⟩
abbrev main_v90 : Ref sig .tc := ⟨.hbm, 142, rfl⟩
abbrev main_cst_20 : Ref sig .tc := ⟨.hbm, 143, rfl⟩
abbrev main_v91 : Ref sig .tc := ⟨.hbm, 144, rfl⟩
abbrev main_v92 : Ref sig .tc := ⟨.hbm, 145, rfl⟩
abbrev main_cst_21 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_22 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_23 : Ref sig .tc := ⟨.hbm, 158, rfl⟩
abbrev main_v103 : Ref sig .tc := ⟨.hbm, 159, rfl⟩
abbrev main_cst_24 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_cst_25 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg7_0 : Ref sig .tc := ⟨.vmem, 61, rfl⟩
abbrev cc6_stg8_0 : Ref sig .tc := ⟨.vmem, 62, rfl⟩
abbrev cc6_stg9_0 : Ref sig .tc := ⟨.vmem, 63, rfl⟩
abbrev cc6_stg10_0 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem7_0 : DmaSem sig := 61
abbrev cc6_sem8_0 : DmaSem sig := 62
abbrev cc6_sem9_0 : DmaSem sig := 63
abbrev cc6_sem10_0 : DmaSem sig := 64

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x9 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S9x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S512x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S256x32 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x32 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S128x32 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  bcast_S_S50000x256 : S_.BroadcastsInDim S50000x256 (![] : Fin 0 → Fin S50000x256.rank)
  bcast_S_S128x256 : S_.BroadcastsInDim S128x256 (![] : Fin 0 → Fin S128x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S128x3x3_S128x9 : S128x3x3.ShapeCasts S128x9
  shapeCasts_S32_S1x32 : S32.ShapeCasts S1x32
  inb_S128x9_S128x9_0_0 : ∀ a, (![0, 0] : Fin 2 → Nat) a + S128x9.size a ≤ S128x9.size a
  h_S128x9 : 0 < S128x9.numel
  shapeCasts_S128x9_S128x9 : S128x9.ShapeCasts S128x9
  inb_S9x256_S9x256_0_0 : ∀ a, (![0, 0] : Fin 2 → Nat) a + S9x256.size a ≤ S9x256.size a
  h_S9x256 : 0 < S9x256.numel
  broadcasts_S1x256_S128x256 : S1x256.Broadcasts S128x256
  shapeCasts_S128x256_S128x256 : S128x256.ShapeCasts S128x256
  concatenates_S128x256_S128x256_S128x512_d1 : Shape.Concatenates [S128x256, S128x256] S128x512 1
  inb_S512x256_S512x256_0_0 : ∀ a, (![0, 0] : Fin 2 → Nat) a + S512x256.size a ≤ S512x256.size a
  h_S512x256 : 0 < S512x256.numel
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x9_S9x256_S128x256_1_0_0_1_n_n_wf : DotDims.WF S128x9 S9x256 S128x256 [1] [0] [0] [1] [] []
  dot_S128x256_S256x256_S128x256_1_0_0_1_n_n_wf : DotDims.WF S128x256 S256x256 S128x256 [1] [0] [0] [1] [] []
  dot_S128x512_S512x256_S128x256_1_0_0_1_n_n_wf : DotDims.WF S128x512 S512x256 S128x256 [1] [0] [0] [1] [] []
  dot_S128x256_S256x32_S128x32_1_0_0_1_n_n_wf : DotDims.WF S128x256 S256x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S50000x256.size a
  hwx4_6 : ∀ i : grid4.Coords, EltTy.bits .f32 = 32 ∨ (Rect.block (s := S50000x256) S2000x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x256.size a ≤ S128x256.size a
  hwx6_0 : ∀ i : grid6.Coords, EltTy.bits .f32 = 32 ∨ (Rect.block (s := S128x256) S128x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x9.size a ≤ S128x9.size a
  hwx6_1 : ∀ i : grid6.Coords, EltTy.bits .f32 = 32 ∨ (Rect.block (s := S128x9) S128x9.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S9x256.size a ≤ S9x256.size a
  hwx6_2 : ∀ i : grid6.Coords, EltTy.bits .f32 = 32 ∨ (Rect.block (s := S9x256) S9x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S512x256.size a ≤ S512x256.size a
  hwx6_6 : ∀ i : grid6.Coords, EltTy.bits .f32 = 32 ∨ (Rect.block (s := S512x256) S512x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S256x32.size a ≤ S256x32.size a
  hwx6_8 : ∀ i : grid6.Coords, EltTy.bits .f32 = 32 ∨ (Rect.block (s := S256x32) S256x32.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x32.size a ≤ S1x32.size a
  hwx6_9 : ∀ i : grid6.Coords, EltTy.bits .f32 = 32 ∨ (Rect.block (s := S1x32) S1x32.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S128x32.size a ≤ S128x32.size a
  hwx6_10 : ∀ i : grid6.Coords, EltTy.bits .f32 = 32 ∨ (Rect.block (s := S128x32) S128x32.size (cc6_transform_10 i) (hinb6_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x9_S9x256_S128x256_1_0_0_1_n_n : DotDims S128x9 S9x256 S128x256 where
  lhsContracting := [1]
  rhsContracting := [0]
  lhsNonContracting := [0]
  rhsNonContracting := [1]
  lhsBatch := []
  rhsBatch := []
  wf := dot_S128x9_S9x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x32_S128x32_1_0_0_1_n_n : DotDims S128x256 S256x32 S128x32 where
  lhsContracting := [1]
  rhsContracting := [0]
  lhsNonContracting := [0]
  rhsNonContracting := [1]
  lhsBatch := []
  rhsBatch := []
  wf := dot_S128x256_S256x32_S128x32_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v82) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v82) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v96) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v99) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v111) S128x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v112) S128x9.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg22) S9x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v113) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg24) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v114) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg26) S512x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v115) S1x256.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg28) S256x32.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v116) S1x32.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v117) S128x32.size cc6_transform_10 reads6_10 true true 1 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x3x3 : Shape := ⟨3, ![128, 3, 3]⟩
abbrev S128x256 : Shape := ⟨2, ![128, 256]⟩
abbrev S256 : Shape := ⟨1, ![256]⟩
abbrev S256x256 : Shape := ⟨2, ![256, 256]⟩
abbrev S9x256 : Shape := ⟨2, ![9, 256]⟩
abbrev S512x256 : Shape := ⟨2, ![512, 256]⟩
abbrev S256x32 : Shape := ⟨2, ![256, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x1 : Shape := ⟨2, ![50000, 1]⟩
abbrev S128 : Shape := ⟨1, ![128]⟩
abbrev S128x1 : Shape := ⟨2, ![128, 1]⟩
abbrev S128x9 : Shape := ⟨2, ![128, 9]⟩
abbrev S128x512 : Shape := ⟨2, ![128, 512]⟩
abbrev S128x32 : Shape := ⟨2, ![128, 32]⟩
abbrev S1x32 : Shape := ⟨2, ![1, 32]⟩

abbrev nBuf : Space → Nat
  | .hbm => 258
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x3x3, .f32⟩
  | 4 => ⟨S128x256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256, .f32⟩
  | 21 => ⟨S256, .f32⟩
  | 22 => ⟨S9x256, .f32⟩
  | 23 => ⟨S256, .f32⟩
  | 24 => ⟨S256x256, .f32⟩
  | 25 => ⟨S256, .f32⟩
  | 26 => ⟨S512x256, .f32⟩
  | 27 => ⟨S256, .f32⟩
  | 28 => ⟨S256x32, .f32⟩
  | 29 => ⟨S32, .f32⟩
  | 30 => ⟨S1x800000, .i32⟩
  | 31 => ⟨S800000, .i32⟩
  | 32 => ⟨S1x800000, .i32⟩
  | 33 => ⟨S800000, .i32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x128, .f32⟩
  | 48 => ⟨S50000x256, .f32⟩
  | 49 => ⟨S1x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S256, .f32⟩
  | 61 => ⟨S_, .f32⟩
  | 62 => ⟨S256, .f32⟩
  | 63 => ⟨S256, .f32⟩
  | 64 => ⟨S1x256, .f32⟩
  | 65 => ⟨S50000x256, .f32⟩
  | 66 => ⟨S50000x256, .f32⟩
  | 67 => ⟨S50000x256, .f32⟩
  | 68 => ⟨S_, .f32⟩
  | 69 => ⟨S256, .f32⟩
  | 70 => ⟨S_, .f32⟩
  | 71 => ⟨S256, .f32⟩
  | 72 => ⟨S256, .f32⟩
  | 73 => ⟨S1x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S_, .f32⟩
  | 80 => ⟨S256, .f32⟩
  | 81 => ⟨S256, .f32⟩
  | 82 => ⟨S256, .f32⟩
  | 83 => ⟨S1x256, .f32⟩
  | 84 => ⟨S50000x256, .f32⟩
  | 85 => ⟨S50000x256, .f32⟩
  | 86 => ⟨S1x256, .f32⟩
  | 87 => ⟨S50000x256, .f32⟩
  | 88 => ⟨S50000x256, .f32⟩
  | 89 => ⟨S_, .f32⟩
  | 90 => ⟨S50000x256, .f32⟩
  | 91 => ⟨S50000x256, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S_, .f32⟩
  | 111 => ⟨S50000x256, .f32⟩
  | 112 => ⟨S50000x256, .f32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S256, .f32⟩
  | 119 => ⟨S_, .f32⟩
  | 120 => ⟨S256, .f32⟩
  | 121 => ⟨S256, .f32⟩
  | 122 => ⟨S1x256, .f32⟩
  | 123 => ⟨S50000x256, .f32⟩
  | 124 => ⟨S50000x256, .f32⟩
  | 125 => ⟨S50000x256, .f32⟩
  | 126 => ⟨S_, .f32⟩
  | 127 => ⟨S256, .f32⟩
  | _ => ⟨S50000x128, .f32⟩

abbrev hbmTy0_1 (i : Nat) : BufTy := match i % 128 with
  | 0 => ⟨S_, .f32⟩
  | 1 => ⟨S256, .f32⟩
  | 2 => ⟨S256, .f32⟩
  | 3 => ⟨S1x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | 9 => ⟨S_, .f32⟩
  | 10 => ⟨S256, .f32⟩
  | 11 => ⟨S256, .f32⟩
  | 12 => ⟨S256, .f32⟩
  | 13 => ⟨S1x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x256, .f32⟩
  | 31 => ⟨S_, .f32⟩
  | 32 => ⟨S50000x256, .f32⟩
  | 33 => ⟨S800000x1, .i32⟩
  | 34 => ⟨S50000x256, .f32⟩
  | 35 => ⟨S50000x256, .f32⟩
  | 36 => ⟨S50000x256, .f32⟩
  | 37 => ⟨S1x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S50000x256, .f32⟩
  | 44 => ⟨S1x256, .f32⟩
  | 45 => ⟨S50000x256, .f32⟩
  | 46 => ⟨S50000x256, .f32⟩
  | 47 => ⟨S_, .f32⟩
  | 48 => ⟨S256, .f32⟩
  | 49 => ⟨S_, .f32⟩
  | 50 => ⟨S256, .f32⟩
  | 51 => ⟨S256, .f32⟩
  | 52 => ⟨S1x256, .f32⟩
  | 53 => ⟨S50000x256, .f32⟩
  | 54 => ⟨S50000x256, .f32⟩
  | 55 => ⟨S50000x256, .f32⟩
  | 56 => ⟨S_, .f32⟩
  | 57 => ⟨S256, .f32⟩
  | 58 => ⟨S_, .f32⟩
  | 59 => ⟨S256, .f32⟩
  | 60 => ⟨S256, .f32⟩
  | 61 => ⟨S1x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S256, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S_, .f32⟩
  | 81 => ⟨S128x256, .f32⟩
  | 82 => ⟨S50000x1, .i32⟩
  | 83 => ⟨S128x256, .f32⟩
  | 84 => ⟨S_, .f32⟩
  | 85 => ⟨S50000, .f32⟩
  | 86 => ⟨S_, .f32⟩
  | 87 => ⟨S128, .f32⟩
  | 88 => ⟨S50000x1, .i32⟩
  | 89 => ⟨S128, .f32⟩
  | 90 => ⟨S_, .f32⟩
  | 91 => ⟨S128, .f32⟩
  | 92 => ⟨S128, .f32⟩
  | 93 => ⟨S128x1, .f32⟩
  | 94 => ⟨S128x256, .f32⟩
  | 95 => ⟨S128x256, .f32⟩
  | 96 => ⟨S128x9, .f32⟩
  | 97 => ⟨S128x256, .f32⟩
  | 98 => ⟨S1x256, .f32⟩
  | 99 => ⟨S128x256, .f32⟩
  | 100 => ⟨S128x256, .f32⟩
  | 101 => ⟨S_, .f32⟩
  | 102 => ⟨S128x256, .f32⟩
  | 103 => ⟨S128x256, .f32⟩
  | 104 => ⟨S128x256, .f32⟩
  | 105 => ⟨S1x256, .f32⟩
  | 106 => ⟨S128x256, .f32⟩
  | 107 => ⟨S128x256, .f32⟩
  | 108 => ⟨S_, .f32⟩
  | 109 => ⟨S128x256, .f32⟩
  | 110 => ⟨S128x256, .f32⟩
  | 111 => ⟨S128x512, .f32⟩
  | 112 => ⟨S128x256, .f32⟩
  | 113 => ⟨S1x256, .f32⟩
  | 114 => ⟨S128x256, .f32⟩
  | 115 => ⟨S128x256, .f32⟩
  | 116 => ⟨S_, .f32⟩
  | 117 => ⟨S128x256, .f32⟩
  | 118 => ⟨S128x256, .f32⟩
  | 119 => ⟨S128x32, .f32⟩
  | 120 => ⟨S1x32, .f32⟩
  | 121 => ⟨S128x32, .f32⟩
  | 122 => ⟨S128x32, .f32⟩
  | 123 => ⟨S128x32, .f32⟩
  | 124 => ⟨S_, .f32⟩
  | 125 => ⟨S128x32, .f32⟩
  | 126 => ⟨S128x32, .f32⟩
  | 127 => ⟨S_, .f32⟩
  | _ => ⟨S50000x128, .f32⟩

abbrev hbmTy0_2 (i : Nat) : BufTy := match i % 128 with
  | 0 => ⟨S128x32, .f32⟩
  | 1 => ⟨S128x32, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_1 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_cst_3 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_6 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_7 : Ref sig .tc := ⟨.hbm, 89, rfl⟩
abbrev main_v50 : Ref sig .tc := ⟨.hbm, 90, rfl⟩
abbrev main_v51 : Ref sig .tc := ⟨.hbm, 91, rfl⟩
abbrev main_c_8 : Ref sig .tc := ⟨.hbm, 92, rfl⟩
abbrev main_v52 : Ref sig .tc := ⟨.hbm, 93, rfl⟩
abbrev main_v53 : Ref sig .tc := ⟨.hbm, 94, rfl⟩
abbrev main_c_9 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_10 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_11 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_12 : Ref sig .tc := ⟨.hbm, 117, rfl⟩
abbrev main_v73 : Ref sig .tc := ⟨.hbm, 118, rfl⟩
abbrev main_cst_13 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_14 : Ref sig .tc := ⟨.hbm, 126, rfl⟩
abbrev main_v80 : Ref sig .tc := ⟨.hbm, 127, rfl⟩
abbrev main_cst_15 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_16 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_17 : Ref sig .tc := ⟨.hbm, 147, rfl⟩
abbrev main_v98 : Ref sig .tc := ⟨.hbm, 148, rfl⟩
abbrev main_v99 : Ref sig .tc := ⟨.hbm, 149, rfl⟩
abbrev main_c_18 : Ref sig .tc := ⟨.hbm, 150, rfl⟩
abbrev main_v100 : Ref sig .tc := ⟨.hbm, 151, rfl⟩
abbrev main_v101 : Ref sig .tc := ⟨.hbm, 152, rfl⟩
abbrev main_c_19 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_20 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_21 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_22 : Ref sig .tc := ⟨.hbm, 175, rfl⟩
abbrev main_v121 : Ref sig .tc := ⟨.hbm, 176, rfl⟩
abbrev main_cst_23 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_24 : Ref sig .tc := ⟨.hbm, 184, rfl⟩
abbrev main_v128 : Ref sig .tc := ⟨.hbm, 185, rfl⟩
abbrev main_cst_25 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_26 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_27 : Ref sig .tc := ⟨.hbm, 205, rfl⟩
abbrev main_v146 : Ref sig .tc := ⟨.hbm, 206, rfl⟩
abbrev main_v147 : Ref sig .tc := ⟨.hbm, 207, rfl⟩
abbrev main_cst_28 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_29 : Ref sig .tc := ⟨.hbm, 212, rfl⟩
abbrev main_v151 : Ref sig .tc := ⟨.hbm, 213, rfl⟩
abbrev main_cst_30 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_cst_31 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_32 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_cst_33 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_34 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_cst_35 : Ref sig .tc := ⟨.hbm, 252, rfl⟩
abbrev main_v185 : Ref sig .tc := ⟨.hbm, 253, rfl⟩
abbrev main_v186 : Ref sig .tc := ⟨.hbm, 254, rfl⟩
abbrev main_cst_36 : Ref sig .tc := ⟨.hbm, 255, rfl⟩
abbrev main_v187 : Ref sig .tc := ⟨.hbm, 256, rfl⟩
abbrev main_v188 : Ref sig .tc := ⟨.hbm, 257, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S128x256 : S_.BroadcastsInDim S128x256 (![] : Fin 0 → Fin S128x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S128x3x3_S128x9 : S128x3x3.ShapeCasts S128x9
  bcast_S1x256_S128x256_0_1 : S1x256.BroadcastsInDim S128x256 (![0, 1] : Fin 2 → Fin S128x256.rank)
  concatenates_S128x256_S128x256_S128x512_d1 : Shape.Concatenates [S128x256, S128x256] S128x512 1
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x9_S9x256_S128x256_1_0_0_1_n_n_wf : DotDims.WF S128x9 S9x256 S128x256 [1] [0] [0] [1] [] []
  dot_S128x256_S256x256_S128x256_1_0_0_1_n_n_wf : DotDims.WF S128x256 S256x256 S128x256 [1] [0] [0] [1] [] []
  dot_S128x512_S512x256_S128x256_1_0_0_1_n_n_wf : DotDims.WF S128x512 S512x256 S128x256 [1] [0] [0] [1] [] []
  dot_S128x256_S256x32_S128x32_1_0_0_1_n_n_wf : DotDims.WF S128x256 S256x32 S128x32 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x9_S9x256_S128x256_1_0_0_1_n_n : DotDims S128x9 S9x256 S128x256 where
  lhsContracting := [1]
  rhsContracting := [0]
  lhsNonContracting := [0]
  rhsNonContracting := [1]
  lhsBatch := []
  rhsBatch := []
  wf := dot_S128x9_S9x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x32_S128x32_1_0_0_1_n_n : DotDims S128x256 S256x32 S128x32 where
  lhsContracting := [1]
  rhsContracting := [0]
  lhsNonContracting := [0]
  rhsNonContracting := [1]
  lhsBatch := []
  rhsBatch := []
  wf := dot_S128x256_S256x32_S128x32_1_0_0_1_n_n_wf

class Facts : Prop extends Facts₀ where

variable [Facts]
-- ==== Proof.KRun.lean ====
/-
  The idealized kernel's run, with every buffer of the program named at the end.

  @main is fourteen segments: seven stretches of host operations, each followed by one pipelined kernel call. The
  buffer contents at the boundaries are a fold through those segments (the frame module's `W0` … `W14`): a host
  stretch applies its operations to the contents it finds, a kernel call replaces each of its arrays by what its
  write-backs leave. Every weakly fair execution terminates without a fault, and every buffer that outlives a kernel
  scope then holds its `W14` contents. The frame statement keeps of this only the argument arrays; the value
  statement below keeps all of it, so that the result buffer can be read.
-/
import proofs.«101660_j22883585753798_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and each buffer that is not scoped to a kernel
    call ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The same run, keeping the result buffer at the last boundary's contents and the argument arrays at their
    launch contents. -/
theorem run_value : θ_run defs (onTc (τ := τ) (main (F := F))) ⟨m, fun _ => 0, ρ⟩ (fun r => ∀ c : Dev nD,
      r.2.mem ((c.tc : Thread nD τ).loc main_v117) = W14 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨h c _ (mem_uc main_v117 (by decide)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c),
      (h c _ (mem_uc main_arg12 (by decide))).trans (W14_main_arg12 m ρ c),
      (h c _ (mem_uc main_arg13 (by decide))).trans (W14_main_arg13 m ρ c),
      (h c _ (mem_uc main_arg14 (by decide))).trans (W14_main_arg14 m ρ c),
      (h c _ (mem_uc main_arg15 (by decide))).trans (W14_main_arg15 m ρ c),
      (h c _ (mem_uc main_arg16 (by decide))).trans (W14_main_arg16 m ρ c),
      (h c _ (mem_uc main_arg17 (by decide))).trans (W14_main_arg17 m ρ c),
      (h c _ (mem_uc main_arg18 (by decide))).trans (W14_main_arg18 m ρ c),
      (h c _ (mem_uc main_arg19 (by decide))).trans (W14_main_arg19 m ρ c),
      (h c _ (mem_uc main_arg20 (by decide))).trans (W14_main_arg20 m ρ c),
      (h c _ (mem_uc main_arg21 (by decide))).trans (W14_main_arg21 m ρ c),
      (h c _ (mem_uc main_arg22 (by decide))).trans (W14_main_arg22 m ρ c),
      (h c _ (mem_uc main_arg23 (by decide))).trans (W14_main_arg23 m ρ c),
      (h c _ (mem_uc main_arg24 (by decide))).trans (W14_main_arg24 m ρ c),
      (h c _ (mem_uc main_arg25 (by decide))).trans (W14_main_arg25 m ρ c),
      (h c _ (mem_uc main_arg26 (by decide))).trans (W14_main_arg26 m ρ c),
      (h c _ (mem_uc main_arg27 (by decide))).trans (W14_main_arg27 m ρ c),
      (h c _ (mem_uc main_arg28 (by decide))).trans (W14_main_arg28 m ρ c),
      (h c _ (mem_uc main_arg29 (by decide))).trans (W14_main_arg29 m ρ c)⟩) (run_all m ρ)

end Cert.KernelIdeal.KRun

end
-- ==== Proof.Keep.lean ====
/-
  Which buffers each segment of the idealized kernel's @main leaves alone.

  A stretch of host operations changes only the buffers its operations write; a kernel call changes only its output
  array (its input arrays end as they were found, and a buffer that is not one of its arrays is not touched). So a
  buffer can be read at a later boundary where it was last written: an argument array at the launch memory, an
  intermediate at the stretch or the call that produced it.
-/
import proofs.«101660_j22883585753798_2_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The buffers host stretch 0 writes. -/
abbrev written0 : List (Ref sig .tc) := [main_v0, main_v1, main_v2, main_v3, main_v4, main_c, main_v5, main_v6, main_c_0, main_v7, main_v8, main_v9, main_v10, main_v11, main_v12, main_cst, main_v13, main_v14, main_v15, main_v16, main_v17]

theorem writes0 : (hostOps0 : List (HloOp τ sig (Elt F))).Forall fun op => op.writes ⊆ (written0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer host stretch 0 does not write holds after it what it held before. -/
theorem keepH0 (c : Dev nD) (r : Ref sig .tc) (h : r ∉ written0) :
    W1 m ρ c (Proc.devRef .tc r) = W0 m ρ c (Proc.devRef .tc r) :=
  StableHlo.after_of_writes_sub hostOps0 _ writes0 h

/-- Every array of kernel call 0 but its output is an input window's. -/
theorem inputs0 : ∀ w : Fin cfg0.W, Pipeline.arrRef spec0 w ≠ main_v18 → (cfg0.win w).isOut = false := by decide

/-- A buffer other than kernel call 0's output array holds after the call what it held before. -/
theorem keepR0 (c : Dev nD) (r : Ref sig .tc) (h : r ≠ main_v18) :
    W2 m ρ c (Proc.devRef .tc r) = W1 m ρ c (Proc.devRef .tc r) := by
  by_cases hw : ∃ w, Pipeline.arrRef spec0 w = r
  · obtain ⟨w, rfl⟩ := hw
    exact (W2_arr m ρ c w).trans (((dat0 (V1 m ρ) c).arrAt_in w (inputs0 w h) _).trans (A_eq0 (V1 m ρ) c w))
  · exact W2_of_ne m ρ c r (fun w e => hw ⟨w, e⟩)

/-- The buffers host stretch 1 writes. -/
abbrev written1 : List (Ref sig .tc) := [main_cst_1, main_v19, main_cst_2, main_v20, main_v21, main_v22, main_v23, main_v24, main_v25, main_cst_3, main_v26, main_cst_4, main_v27, main_v28, main_cst_5, main_v29, main_v30, main_v31, main_v32, main_v33, main_v34]

theorem writes1 : (hostOps1 : List (HloOp τ sig (Elt F))).Forall fun op => op.writes ⊆ (written1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer host stretch 1 does not write holds after it what it held before. -/
theorem keepH1 (c : Dev nD) (r : Ref sig .tc) (h : r ∉ written1) :
    W3 m ρ c (Proc.devRef .tc r) = W2 m ρ c (Proc.devRef .tc r) :=
  StableHlo.after_of_writes_sub hostOps1 _ writes1 h

/-- Every array of kernel call 1 but its output is an input window's. -/
theorem inputs1 : ∀ w : Fin cfg1.W, Pipeline.arrRef spec1 w ≠ main_v35 → (cfg1.win w).isOut = false := by decide

/-- A buffer other than kernel call 1's output array holds after the call what it held before. -/
theorem keepR1 (c : Dev nD) (r : Ref sig .tc) (h : r ≠ main_v35) :
    W4 m ρ c (Proc.devRef .tc r) = W3 m ρ c (Proc.devRef .tc r) := by
  by_cases hw : ∃ w, Pipeline.arrRef spec1 w = r
  · obtain ⟨w, rfl⟩ := hw
    exact (W4_arr m ρ c w).trans (((dat1 (V3 m ρ) c).arrAt_in w (inputs1 w h) _).trans (A_eq1 (V3 m ρ) c w))
  · exact W4_of_ne m ρ c r (fun w e => hw ⟨w, e⟩)

/-- The buffers host stretch 2 writes. -/
abbrev written2 : List (Ref sig .tc) := [main_v36, main_c_6, main_v37, main_v38, main_c_7, main_v39, main_v40, main_v41, main_v42, main_v43, main_v44, main_cst_8, main_v45, main_v46, main_v47, main_v48, main_v49]

theorem writes2 : (hostOps2 : List (HloOp τ sig (Elt F))).Forall fun op => op.writes ⊆ (written2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer host stretch 2 does not write holds after it what it held before. -/
theorem keepH2 (c : Dev nD) (r : Ref sig .tc) (h : r ∉ written2) :
    W5 m ρ c (Proc.devRef .tc r) = W4 m ρ c (Proc.devRef .tc r) :=
  StableHlo.after_of_writes_sub hostOps2 _ writes2 h

/-- Every array of kernel call 2 but its output is an input window's. -/
theorem inputs2 : ∀ w : Fin cfg2.W, Pipeline.arrRef spec2 w ≠ main_v50 → (cfg2.win w).isOut = false := by decide

/-- A buffer other than kernel call 2's output array holds after the call what it held before. -/
theorem keepR2 (c : Dev nD) (r : Ref sig .tc) (h : r ≠ main_v50) :
    W6 m ρ c (Proc.devRef .tc r) = W5 m ρ c (Proc.devRef .tc r) := by
  by_cases hw : ∃ w, Pipeline.arrRef spec2 w = r
  · obtain ⟨w, rfl⟩ := hw
    exact (W6_arr m ρ c w).trans (((dat2 (V5 m ρ) c).arrAt_in w (inputs2 w h) _).trans (A_eq2 (V5 m ρ) c w))
  · exact W6_of_ne m ρ c r (fun w e => hw ⟨w, e⟩)

/-- The buffers host stretch 3 writes. -/
abbrev written3 : List (Ref sig .tc) := [main_cst_9, main_v51, main_cst_10, main_v52, main_v53, main_v54, main_v55, main_v56, main_v57, main_cst_11, main_v58, main_cst_12, main_v59, main_v60, main_cst_13, main_v61, main_v62, main_v63, main_v64, main_v65, main_v66]

theorem writes3 : (hostOps3 : List (HloOp τ sig (Elt F))).Forall fun op => op.writes ⊆ (written3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer host stretch 3 does not write holds after it what it held before. -/
theorem keepH3 (c : Dev nD) (r : Ref sig .tc) (h : r ∉ written3) :
    W7 m ρ c (Proc.devRef .tc r) = W6 m ρ c (Proc.devRef .tc r) :=
  StableHlo.after_of_writes_sub hostOps3 _ writes3 h

/-- Every array of kernel call 3 but its output is an input window's. -/
theorem inputs3 : ∀ w : Fin cfg3.W, Pipeline.arrRef spec3 w ≠ main_v67 → (cfg3.win w).isOut = false := by decide

/-- A buffer other than kernel call 3's output array holds after the call what it held before. -/
theorem keepR3 (c : Dev nD) (r : Ref sig .tc) (h : r ≠ main_v67) :
    W8 m ρ c (Proc.devRef .tc r) = W7 m ρ c (Proc.devRef .tc r) := by
  by_cases hw : ∃ w, Pipeline.arrRef spec3 w = r
  · obtain ⟨w, rfl⟩ := hw
    exact (W8_arr m ρ c w).trans (((dat3 (V7 m ρ) c).arrAt_in w (inputs3 w h) _).trans (A_eq3 (V7 m ρ) c w))
  · exact W8_of_ne m ρ c r (fun w e => hw ⟨w, e⟩)

/-- The buffers host stretch 4 writes. -/
abbrev written4 : List (Ref sig .tc) := [main_v68, main_c_14, main_v69, main_v70, main_c_15, main_v71, main_v72, main_v73, main_v74, main_v75, main_v76, main_cst_16, main_v77, main_v78, main_v79, main_v80, main_v81]

theorem writes4 : (hostOps4 : List (HloOp τ sig (Elt F))).Forall fun op => op.writes ⊆ (written4.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer host stretch 4 does not write holds after it what it held before. -/
theorem keepH4 (c : Dev nD) (r : Ref sig .tc) (h : r ∉ written4) :
    W9 m ρ c (Proc.devRef .tc r) = W8 m ρ c (Proc.devRef .tc r) :=
  StableHlo.after_of_writes_sub hostOps4 _ writes4 h

/-- Every array of kernel call 4 but its output is an input window's. -/
theorem inputs4 : ∀ w : Fin cfg4.W, Pipeline.arrRef spec4 w ≠ main_v82 → (cfg4.win w).isOut = false := by decide

/-- A buffer other than kernel call 4's output array holds after the call what it held before. -/
theorem keepR4 (c : Dev nD) (r : Ref sig .tc) (h : r ≠ main_v82) :
    W10 m ρ c (Proc.devRef .tc r) = W9 m ρ c (Proc.devRef .tc r) := by
  by_cases hw : ∃ w, Pipeline.arrRef spec4 w = r
  · obtain ⟨w, rfl⟩ := hw
    exact (W10_arr m ρ c w).trans (((dat4 (V9 m ρ) c).arrAt_in w (inputs4 w h) _).trans (A_eq4 (V9 m ρ) c w))
  · exact W10_of_ne m ρ c r (fun w e => hw ⟨w, e⟩)

/-- The buffers host stretch 5 writes. -/
abbrev written5 : List (Ref sig .tc) := [main_cst_17, main_v83, main_cst_18, main_v84, main_v85, main_v86, main_v87, main_v88, main_v89, main_cst_19, main_v90, main_cst_20, main_v91, main_v92, main_cst_21, main_v93, main_v94, main_v95, main_v96, main_v97, main_v98]

theorem writes5 : (hostOps5 : List (HloOp τ sig (Elt F))).Forall fun op => op.writes ⊆ (written5.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer host stretch 5 does not write holds after it what it held before. -/
theorem keepH5 (c : Dev nD) (r : Ref sig .tc) (h : r ∉ written5) :
    W11 m ρ c (Proc.devRef .tc r) = W10 m ρ c (Proc.devRef .tc r) :=
  StableHlo.after_of_writes_sub hostOps5 _ writes5 h

/-- Every array of kernel call 5 but its output is an input window's. -/
theorem inputs5 : ∀ w : Fin cfg5.W, Pipeline.arrRef spec5 w ≠ main_v99 → (cfg5.win w).isOut = false := by decide

/-- A buffer other than kernel call 5's output array holds after the call what it held before. -/
theorem keepR5 (c : Dev nD) (r : Ref sig .tc) (h : r ≠ main_v99) :
    W12 m ρ c (Proc.devRef .tc r) = W11 m ρ c (Proc.devRef .tc r) := by
  by_cases hw : ∃ w, Pipeline.arrRef spec5 w = r
  · obtain ⟨w, rfl⟩ := hw
    exact (W12_arr m ρ c w).trans (((dat5 (V11 m ρ) c).arrAt_in w (inputs5 w h) _).trans (A_eq5 (V11 m ρ) c w))
  · exact W12_of_ne m ρ c r (fun w e => hw ⟨w, e⟩)

/-- The buffers host stretch 6 writes. -/
abbrev written6 : List (Ref sig .tc) := [main_cst_22, main_v100, main_v101, main_v102, main_cst_23, main_v103, main_cst_24, main_v104, main_v105, main_v106, main_cst_25, main_v107, main_v108, main_v109, main_v110, main_v111, main_v112, main_v113, main_v114, main_v115, main_v116]

theorem writes6 : (hostOps6 : List (HloOp τ sig (Elt F))).Forall fun op => op.writes ⊆ (written6.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer host stretch 6 does not write holds after it what it held before. -/
theorem keepH6 (c : Dev nD) (r : Ref sig .tc) (h : r ∉ written6) :
    W13 m ρ c (Proc.devRef .tc r) = W12 m ρ c (Proc.devRef .tc r) :=
  StableHlo.after_of_writes_sub hostOps6 _ writes6 h

/-- Every array of kernel call 6 but its output is an input window's. -/
theorem inputs6 : ∀ w : Fin cfg6.W, Pipeline.arrRef spec6 w ≠ main_v117 → (cfg6.win w).isOut = false := by decide

/-- A buffer other than kernel call 6's output array holds after the call what it held before. -/
theorem keepR6 (c : Dev nD) (r : Ref sig .tc) (h : r ≠ main_v117) :
    W14 m ρ c (Proc.devRef .tc r) = W13 m ρ c (Proc.devRef .tc r) := by
  by_cases hw : ∃ w, Pipeline.arrRef spec6 w = r
  · obtain ⟨w, rfl⟩ := hw
    exact (W14_arr m ρ c w).trans (((dat6 (V13 m ρ) c).arrAt_in w (inputs6 w h) _).trans (A_eq6 (V13 m ρ) c w))
  · exact W14_of_ne m ρ c r (fun w e => hw ⟨w, e⟩)

/-! ## A buffer nothing has written yet holds its launch contents -/

theorem launch1 (c : Dev nD) (r : Ref sig .tc) (hH0 : r ∉ written0 := by decide) :
    W1 m ρ c (Proc.devRef .tc r) = m ((c : Thread nD τ).loc r) :=
  (keepH0 m ρ c r hH0).trans (rfl)
theorem launch2 (c : Dev nD) (r : Ref sig .tc) (hH0 : r ∉ written0 := by decide) (hR0 : r ≠ main_v18 := by decide) :
    W2 m ρ c (Proc.devRef .tc r) = m ((c : Thread nD τ).loc r) :=
  (keepR0 m ρ c r hR0).trans (launch1 m ρ c r hH0)
theorem launch3 (c : Dev nD) (r : Ref sig .tc) (hH0 : r ∉ written0 := by decide) (hR0 : r ≠ main_v18 := by decide) (hH1 : r ∉ written1 := by decide) :
    W3 m ρ c (Proc.devRef .tc r) = m ((c : Thread nD τ).loc r) :=
  (keepH1 m ρ c r hH1).trans (launch2 m ρ c r hH0 hR0)
theorem launch4 (c : Dev nD) (r : Ref sig .tc) (hH0 : r ∉ written0 := by decide) (hR0 : r ≠ main_v18 := by decide) (hH1 : r ∉ written1 := by decide) (hR1 : r ≠ main_v35 := by decide) :
    W4 m ρ c (Proc.devRef .tc r) = m ((c : Thread nD τ).loc r) :=
  (keepR1 m ρ c r hR1).trans (launch3 m ρ c r hH0 hR0 hH1)
theorem launch5 (c : Dev nD) (r : Ref sig .tc) (hH0 : r ∉ written0 := by decide) (hR0 : r ≠ main_v18 := by decide) (hH1 : r ∉ written1 := by decide) (hR1 : r ≠ main_v35 := by decide) (hH2 : r ∉ written2 := by decide) :
    W5 m ρ c (Proc.devRef .tc r) = m ((c : Thread nD τ).loc r) :=
  (keepH2 m ρ c r hH2).trans (launch4 m ρ c r hH0 hR0 hH1 hR1)
theorem launch6 (c : Dev nD) (r : Ref sig .tc) (hH0 : r ∉ written0 := by decide) (hR0 : r ≠ main_v18 := by decide) (hH1 : r ∉ written1 := by decide) (hR1 : r ≠ main_v35 := by decide) (hH2 : r ∉ written2 := by decide) (hR2 : r ≠ main_v50 := by decide) :
    W6 m ρ c (Proc.devRef .tc r) = m ((c : Thread nD τ).loc r) :=
  (keepR2 m ρ c r hR2).trans (launch5 m ρ c r hH0 hR0 hH1 hR1 hH2)
theorem launch7 (c : Dev nD) (r : Ref sig .tc) (hH0 : r ∉ written0 := by decide) (hR0 : r ≠ main_v18 := by decide) (hH1 : r ∉ written1 := by decide) (hR1 : r ≠ main_v35 := by decide) (hH2 : r ∉ written2 := by decide) (hR2 : r ≠ main_v50 := by decide) (hH3 : r ∉ written3 := by decide) :
    W7 m ρ c (Proc.devRef .tc r) = m ((c : Thread nD τ).loc r) :=
  (keepH3 m ρ c r hH3).trans (launch6 m ρ c r hH0 hR0 hH1 hR1 hH2 hR2)
theorem launch8 (c : Dev nD) (r : Ref sig .tc) (hH0 : r ∉ written0 := by decide) (hR0 : r ≠ main_v18 := by decide) (hH1 : r ∉ written1 := by decide) (hR1 : r ≠ main_v35 := by decide) (hH2 : r ∉ written2 := by decide) (hR2 : r ≠ main_v50 := by decide) (hH3 : r ∉ written3 := by decide) (hR3 : r ≠ main_v67 := by decide) :
    W8 m ρ c (Proc.devRef .tc r) = m ((c : Thread nD τ).loc r) :=
  (keepR3 m ρ c r hR3).trans (launch7 m ρ c r hH0 hR0 hH1 hR1 hH2 hR2 hH3)
theorem launch9 (c : Dev nD) (r : Ref sig .tc) (hH0 : r ∉ written0 := by decide) (hR0 : r ≠ main_v18 := by decide) (hH1 : r ∉ written1 := by decide) (hR1 : r ≠ main_v35 := by decide) (hH2 : r ∉ written2 := by decide) (hR2 : r ≠ main_v50 := by decide) (hH3 : r ∉ written3 := by decide) (hR3 : r ≠ main_v67 := by decide) (hH4 : r ∉ written4 := by decide) :
    W9 m ρ c (Proc.devRef .tc r) = m ((c : Thread nD τ).loc r) :=
  (keepH4 m ρ c r hH4).trans (launch8 m ρ c r hH0 hR0 hH1 hR1 hH2 hR2 hH3 hR3)
theorem launch10 (c : Dev nD) (r : Ref sig .tc) (hH0 : r ∉ written0 := by decide) (hR0 : r ≠ main_v18 := by decide) (hH1 : r ∉ written1 := by decide) (hR1 : r ≠ main_v35 := by decide) (hH2 : r ∉ written2 := by decide) (hR2 : r ≠ main_v50 := by decide) (hH3 : r ∉ written3 := by decide) (hR3 : r ≠ main_v67 := by decide) (hH4 : r ∉ written4 := by decide) (hR4 : r ≠ main_v82 := by decide) :
    W10 m ρ c (Proc.devRef .tc r) = m ((c : Thread nD τ).loc r) :=
  (keepR4 m ρ c r hR4).trans (launch9 m ρ c r hH0 hR0 hH1 hR1 hH2 hR2 hH3 hR3 hH4)
theorem launch11 (c : Dev nD) (r : Ref sig .tc) (hH0 : r ∉ written0 := by decide) (hR0 : r ≠ main_v18 := by decide) (hH1 : r ∉ written1 := by decide) (hR1 : r ≠ main_v35 := by decide) (hH2 : r ∉ written2 := by decide) (hR2 : r ≠ main_v50 := by decide) (hH3 : r ∉ written3 := by decide) (hR3 : r ≠ main_v67 := by decide) (hH4 : r ∉ written4 := by decide) (hR4 : r ≠ main_v82 := by decide) (hH5 : r ∉ written5 := by decide) :
    W11 m ρ c (Proc.devRef .tc r) = m ((c : Thread nD τ).loc r) :=
  (keepH5 m ρ c r hH5).trans (launch10 m ρ c r hH0 hR0 hH1 hR1 hH2 hR2 hH3 hR3 hH4 hR4)
theorem launch12 (c : Dev nD) (r : Ref sig .tc) (hH0 : r ∉ written0 := by decide) (hR0 : r ≠ main_v18 := by decide) (hH1 : r ∉ written1 := by decide) (hR1 : r ≠ main_v35 := by decide) (hH2 : r ∉ written2 := by decide) (hR2 : r ≠ main_v50 := by decide) (hH3 : r ∉ written3 := by decide) (hR3 : r ≠ main_v67 := by decide) (hH4 : r ∉ written4 := by decide) (hR4 : r ≠ main_v82 := by decide) (hH5 : r ∉ written5 := by decide) (hR5 : r ≠ main_v99 := by decide) :
    W12 m ρ c (Proc.devRef .tc r) = m ((c : Thread nD τ).loc r) :=
  (keepR5 m ρ c r hR5).trans (launch11 m ρ c r hH0 hR0 hH1 hR1 hH2 hR2 hH3 hR3 hH4 hR4 hH5)
theorem launch13 (c : Dev nD) (r : Ref sig .tc) (hH0 : r ∉ written0 := by decide) (hR0 : r ≠ main_v18 := by decide) (hH1 : r ∉ written1 := by decide) (hR1 : r ≠ main_v35 := by decide) (hH2 : r ∉ written2 := by decide) (hR2 : r ≠ main_v50 := by decide) (hH3 : r ∉ written3 := by decide) (hR3 : r ≠ main_v67 := by decide) (hH4 : r ∉ written4 := by decide) (hR4 : r ≠ main_v82 := by decide) (hH5 : r ∉ written5 := by decide) (hR5 : r ≠ main_v99 := by decide) (hH6 : r ∉ written6 := by decide) :
    W13 m ρ c (Proc.devRef .tc r) = m ((c : Thread nD τ).loc r) :=
  (keepH6 m ρ c r hH6).trans (launch12 m ρ c r hH0 hR0 hH1 hR1 hH2 hR2 hH3 hR3 hH4 hR4 hH5 hR5)

end Cert.KernelIdeal.Keep

end
-- ==== Proof.Spec.lean ====
/-
  The network both programs compute, as whole-array functions at the exact values.

  Three graph layers, each: neighbour sums (gather the source rows of every edge, scatter-add them at the targets),
  a two-layer perceptron on `h + agg` row by row, then batch normalisation over the 50000 rows and a clamp at zero;
  after them a mean pool per graph, a small perceptron on the lattice, and a head ending in `tanh(·)/2 + 1/2`.
  Every function here is spelled with the host operations of the reference program, so that the reference's composed
  term unfolds to them. Parameters that a kernel call receives as one-row matrices are taken here as one-row matrices.
-/
import proofs.«101660_j22883585753798_2_alg».proof.Defs
import proofs.«101660_j22883585753798_2_alg».proof.Proof.Gen.ReferenceIdeal

noncomputable section

namespace Cert.Spec

open Cert.ReferenceIdeal Cert.ReferenceIdeal.Facts₀ Cert.ReferenceIdeal.Facts Idealize.ShloMosaic

/-- A vector of 256 as a one-row matrix. -/
def row (v : FVec Ideal S256 .f32) : FVec Ideal S1x256 .f32 := broadcastInDim S1x256 ![1] bcast_S256_S1x256_1 v
/-- A vector of 32 as a one-row matrix. -/
def row32 (v : FVec Ideal S32 .f32) : FVec Ideal S1x32 .f32 := broadcastInDim S1x32 ![1] bcast_S32_S1x32_1 v
/-- A one-row matrix laid along each of the 50000 rows. -/
def rows (v : FVec Ideal S1x256 .f32) : FVec Ideal S50000x256 .f32 := broadcastInDim S50000x256 ![0, 1] bcast_S1x256_S50000x256_0_1 v
/-- The zero matrix the clamps compare with. -/
def zeros : FVec Ideal S50000x256 .f32 := broadcastInDim S50000x256 ![] bcast_S_S50000x256 (constant S_ .f32 0x00000000#32)

/-- Edge sources: row 0 of the edge list. -/
def src (e : IVec S2x800000 32) : IVec S800000 32 :=
  shapeCast _ (extractStridedSlice S1x800000 ![0, 0] e slices_S2x800000_S1x800000_0_0) shapeCasts_S1x800000_S800000
/-- Edge targets: row 1 of the edge list. -/
def dst (e : IVec S2x800000 32) : IVec S800000 32 :=
  shapeCast _ (extractStridedSlice S1x800000 ![1, 0] e slices_S2x800000_S1x800000_1_0) shapeCasts_S1x800000_S800000
/-- The gather's index column: a negative source counts from the end. -/
def srcCol (s : IVec S800000 32) : IVec S800000x1 32 :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)
/-- The scatter's index column. -/
def dstCol (d : IVec S800000 32) : IVec S800000x1 32 := broadcastInDim S800000x1 ![0] bcast_S800000_S800000x1_0 d

/-- Neighbour sums of 128-wide rows, from the edges' sources and targets. -/
def aggOf128 (h : FVec Ideal S50000x128 .f32) (s d : IVec S800000 32) : FVec Ideal S50000x128 .f32 :=
  Host.scatterAdd scatter_S50000x128_S800000x1_S800000x128_1_0_0_1 (broadcastInDim S50000x128 ![] bcast_S_S50000x128 (constant S_ .f32 0x00000000#32)) (dstCol d) (Host.gather gather_S50000x128_S800000x1_S800000x128_1_0_n_n_0_1_1128 h (srcCol s))
/-- Neighbour sums of 256-wide rows, from the edges' sources and targets. -/
def aggOf256 (h : FVec Ideal S50000x256 .f32) (s d : IVec S800000 32) : FVec Ideal S50000x256 .f32 :=
  Host.scatterAdd scatter_S50000x256_S800000x1_S800000x256_1_0_0_1 (broadcastInDim S50000x256 ![] bcast_S_S50000x256 (constant S_ .f32 0x00000000#32)) (dstCol d) (Host.gather gather_S50000x256_S800000x1_S800000x256_1_0_n_n_0_1_1256 h (srcCol s))
/-- Neighbour sums from the edge list. -/
def agg128 (h : FVec Ideal S50000x128 .f32) (e : IVec S2x800000 32) : FVec Ideal S50000x128 .f32 := aggOf128 h (src e) (dst e)
def agg256 (h : FVec Ideal S50000x256 .f32) (e : IVec S2x800000 32) : FVec Ideal S50000x256 .f32 := aggOf256 h (src e) (dst e)

/-- The perceptron of the first layer: `max((h + agg)·w1 + b1, 0)·w2 + b2`. -/
def mlp128 (h agg : FVec Ideal S50000x128 .f32) (w1 : FVec Ideal S128x256 .f32) (b1 : FVec Ideal S1x256 .f32) (w2 : FVec Ideal S256x256 .f32) (b2 : FVec Ideal S1x256 .f32) : FVec Ideal S50000x256 .f32 :=
  addf (Host.dotGeneral dot_S50000x256_S256x256_S50000x256_1_0_0_1_n_n none (maximumf (addf (Host.dotGeneral dot_S50000x128_S128x256_S50000x256_1_0_0_1_n_n none (addf h agg) w1) (rows b1)) zeros) w2) (rows b2)
/-- The perceptron of the later layers. -/
def mlp256 (h agg : FVec Ideal S50000x256 .f32) (w1 : FVec Ideal S256x256 .f32) (b1 : FVec Ideal S1x256 .f32) (w2 : FVec Ideal S256x256 .f32) (b2 : FVec Ideal S1x256 .f32) : FVec Ideal S50000x256 .f32 :=
  addf (Host.dotGeneral dot_S50000x256_S256x256_S50000x256_1_0_0_1_n_n none (maximumf (addf (Host.dotGeneral dot_S50000x256_S256x256_S50000x256_1_0_0_1_n_n none (addf h agg) w1) (rows b1)) zeros) w2) (rows b2)

/-- Column means over the 50000 rows. -/
def mean (h : FVec Ideal S50000x256 .f32) : FVec Ideal S256 .f32 :=
  Host.divf (Host.reduceAdd h (constant S_ .f32 0x00000000#32) reducesTo_S50000x256_S256_d0 h_S_) (broadcastInDim S256 ![] bcast_S_S256 (constant S_ .f32 0x47435000#32))
/-- The rows with the column means taken off. -/
def centered (h : FVec Ideal S50000x256 .f32) : FVec Ideal S50000x256 .f32 := subf h (rows (row (mean h)))
/-- Column variances: the mean of the squared centred rows. -/
def var (h : FVec Ideal S50000x256 .f32) : FVec Ideal S256 .f32 :=
  Host.divf (Host.reduceAdd (mulf (centered h) (centered h)) (constant S_ .f32 0x00000000#32) reducesTo_S50000x256_S256_d0 h_S_) (broadcastInDim S256 ![] bcast_S_S256 (constant S_ .f32 0x47435000#32))
/-- The small constant added to a variance before the inverse square root. -/
def eps : FVec Ideal S256 .f32 := broadcastInDim S256 ![] bcast_S_S256 (constant S_ .f32 0x3727C5AC#32)

/-- Batch normalisation and clamp as the reference spells it: `max(γ·(h − μ)·rsqrt(σ² + ε) + β, 0)`. -/
def bn (h : FVec Ideal S50000x256 .f32) (g b : FVec Ideal S256 .f32) : FVec Ideal S50000x256 .f32 :=
  maximumf (addf (mulf (mulf (rows (row g)) (subf h (rows (row (mean h))))) (rows (row (Host.rsqrt (addf (var h) eps))))) (rows (row b))) zeros

/-- The same with the statistics given, in the order a kernel call multiplies: `max((h − μ)·rsqrt(v + ε)·γ + β, 0)`. -/
def bnWith (h : FVec Ideal S50000x256 .f32) (g b mu v : FVec Ideal S1x256 .f32) : FVec Ideal S50000x256 .f32 :=
  maximumf (addf (mulf (mulf (subf h (rows mu)) (rows (Host.rsqrt (addf v (row eps))))) (rows g)) (rows b)) zeros

/-- Mean pool: per graph, the sum of its nodes' rows over the number of its nodes (at least one). -/
def pooled (h : FVec Ideal S50000x256 .f32) (batch : IVec S50000 32) : FVec Ideal S128x256 .f32 :=
  (Host.divf (Host.scatterAdd scatter_S128x256_S50000x1_S50000x256_1_0_0_1 (broadcastInDim S128x256 ![] bcast_S_S128x256 (constant S_ .f32 0x00000000#32)) (broadcastInDim S50000x1 ![0] bcast_S50000_S50000x1_0 batch) h) (broadcastInDim S128x256 ![0, 1] bcast_S128x1_S128x256_0_1 (broadcastInDim S128x1 ![0] bcast_S128_S128x1_0 (maximumf (Host.scatterAdd scatter_S128_S50000x1_S50000_n_0_0_1 (broadcastInDim S128 ![] bcast_S_S128 (constant S_ .f32 0x00000000#32)) (broadcastInDim S50000x1 ![0] bcast_S50000_S50000x1_0 batch) (broadcastInDim S50000 ![] bcast_S_S50000 (constant S_ .f32 0x3F800000#32))) (broadcastInDim S128 ![] bcast_S_S128 (constant S_ .f32 0x3F800000#32))))))

/-- The lattice's nine entries per graph as a row. -/
def lat9 (lattice : FVec Ideal S128x3x3 .f32) : FVec Ideal S128x9 .f32 := shapeCast _ lattice shapeCasts_S128x3x3_S128x9

/-- The head: lattice perceptron, concatenation with the pooled features, two more layers, `tanh(·)/2 + 1/2`. -/
def head (pooled : FVec Ideal S128x256 .f32) (lat : FVec Ideal S128x9 .f32) (lw1 : FVec Ideal S9x256 .f32) (lb1 : FVec Ideal S1x256 .f32) (lw2 : FVec Ideal S256x256 .f32) (lb2 : FVec Ideal S1x256 .f32)
    (fc1w : FVec Ideal S512x256 .f32) (fc1b : FVec Ideal S1x256 .f32) (fc2w : FVec Ideal S256x32 .f32) (fc2b : FVec Ideal S1x32 .f32) : FVec Ideal S128x32 .f32 :=
  addf (mulf (Host.tanh (addf (Host.dotGeneral dot_S128x256_S256x32_S128x32_1_0_0_1_n_n none (maximumf (addf (Host.dotGeneral dot_S128x512_S512x256_S128x256_1_0_0_1_n_n none (concatenate S128x512 1 [⟨S128x256, pooled⟩, ⟨S128x256, (maximumf (addf (Host.dotGeneral dot_S128x256_S256x256_S128x256_1_0_0_1_n_n none (maximumf (addf (Host.dotGeneral dot_S128x9_S9x256_S128x256_1_0_0_1_n_n none lat lw1) (broadcastInDim S128x256 ![0, 1] bcast_S1x256_S128x256_0_1 lb1)) (broadcastInDim S128x256 ![] bcast_S_S128x256 (constant S_ .f32 0x00000000#32))) lw2) (broadcastInDim S128x256 ![0, 1] bcast_S1x256_S128x256_0_1 lb2)) (broadcastInDim S128x256 ![] bcast_S_S128x256 (constant S_ .f32 0x00000000#32)))⟩] concatenates_S128x256_S128x256_S128x512_d1) fc1w) (broadcastInDim S128x256 ![0, 1] bcast_S1x256_S128x256_0_1 fc1b)) (broadcastInDim S128x256 ![] bcast_S_S128x256 (constant S_ .f32 0x00000000#32))) fc2w) (broadcastInDim S128x32 ![0, 1] bcast_S1x32_S128x32_0_1 fc2b))) (broadcastInDim S128x32 ![] bcast_S_S128x32 (constant S_ .f32 0x3F000000#32))) (broadcastInDim S128x32 ![] bcast_S_S128x32 (constant S_ .f32 0x3F000000#32))

/-- One graph layer. -/
def layer128 (h : FVec Ideal S50000x128 .f32) (e : IVec S2x800000 32) (w1 : FVec Ideal S128x256 .f32) (b1 : FVec Ideal S256 .f32) (w2 : FVec Ideal S256x256 .f32) (b2 g b : FVec Ideal S256 .f32) : FVec Ideal S50000x256 .f32 :=
  bn (mlp128 h (agg128 h e) w1 (row b1) w2 (row b2)) g b
def layer256 (h : FVec Ideal S50000x256 .f32) (e : IVec S2x800000 32) (w1 : FVec Ideal S256x256 .f32) (b1 : FVec Ideal S256 .f32) (w2 : FVec Ideal S256x256 .f32) (b2 g b : FVec Ideal S256 .f32) : FVec Ideal S50000x256 .f32 :=
  bn (mlp256 h (agg256 h e) w1 (row b1) w2 (row b2)) g b

/-- The thirty argument arrays. -/
structure Args where
  a0 : FVec Ideal S50000x128 .f32
  a1 : IVec S2x800000 32
  a2 : IVec S50000 32
  a3 : FVec Ideal S128x3x3 .f32
  a4 : FVec Ideal S128x256 .f32
  a5 : FVec Ideal S256 .f32
  a6 : FVec Ideal S256x256 .f32
  a7 : FVec Ideal S256 .f32
  a8 : FVec Ideal S256 .f32
  a9 : FVec Ideal S256 .f32
  a10 : FVec Ideal S256x256 .f32
  a11 : FVec Ideal S256 .f32
  a12 : FVec Ideal S256x256 .f32
  a13 : FVec Ideal S256 .f32
  a14 : FVec Ideal S256 .f32
  a15 : FVec Ideal S256 .f32
  a16 : FVec Ideal S256x256 .f32
  a17 : FVec Ideal S256 .f32
  a18 : FVec Ideal S256x256 .f32
  a19 : FVec Ideal S256 .f32
  a20 : FVec Ideal S256 .f32
  a21 : FVec Ideal S256 .f32
  a22 : FVec Ideal S9x256 .f32
  a23 : FVec Ideal S256 .f32
  a24 : FVec Ideal S256x256 .f32
  a25 : FVec Ideal S256 .f32
  a26 : FVec Ideal S512x256 .f32
  a27 : FVec Ideal S256 .f32
  a28 : FVec Ideal S256x32 .f32
  a29 : FVec Ideal S32 .f32

/-- Node features after the first, second and third graph layer. -/
def h1 (a : Args) : FVec Ideal S50000x256 .f32 := layer128 a.a0 a.a1 a.a4 a.a5 a.a6 a.a7 a.a8 a.a9
def h2 (a : Args) : FVec Ideal S50000x256 .f32 := layer256 (h1 a) a.a1 a.a10 a.a11 a.a12 a.a13 a.a14 a.a15
def h3 (a : Args) : FVec Ideal S50000x256 .f32 := layer256 (h2 a) a.a1 a.a16 a.a17 a.a18 a.a19 a.a20 a.a21

/-- The whole network. -/
def net (a : Args) : FVec Ideal S128x32 .f32 :=
  head (pooled (h3 a) a.a2) (lat9 a.a3) a.a22 (row a.a23) a.a24 (row a.a25) a.a26 (row a.a27) a.a28 (row32 a.a29)

end Cert.Spec

end
-- ==== Proof.HostReadsA.lean ====
/-
  What the host stretches before kernel calls 0 to 3 leave in the buffers those calls read, as functions of the
  contents the stretch finds. A reshape of a vector to one row stays a reshape here; format changes are the identity.
-/
import proofs.«101660_j22883585753798_2_alg».proof.Proof.Gen.KernelIdeal.Frame
import proofs.«101660_j22883585753798_2_alg».proof.Proof.Spec
import Idealize.ShloMosaic.Lib.StableHlo.Run

set_option maxRecDepth 16384

noncomputable section

namespace Cert.KernelIdeal.HostReadsA

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.StableHlo

variable (m : (ℓ : Loc nD τ sig) → Buf (Elt Ideal) ℓ) (ρ : Dev nD → PrngReg)

set_option maxHeartbeats 2000000 in
theorem h0_v1 (c : Dev nD) : W1 m ρ c (Proc.devRef .tc main_v1) = Cert.Spec.src (W0 m ρ c (Proc.devRef .tc main_arg1)) := by
  show StableHlo.after hostOps0 (W0 m ρ c) (Proc.devRef .tc main_v1) = _
  simp only [hostOps0]
  after_results
  rfl

set_option maxHeartbeats 2000000 in
theorem h0_v3 (c : Dev nD) : W1 m ρ c (Proc.devRef .tc main_v3) = Cert.Spec.dst (W0 m ρ c (Proc.devRef .tc main_arg1)) := by
  show StableHlo.after hostOps0 (W0 m ρ c) (Proc.devRef .tc main_v3) = _
  simp only [hostOps0]
  after_results
  rfl

set_option maxHeartbeats 2000000 in
theorem h0_v15 (c : Dev nD) : W1 m ρ c (Proc.devRef .tc main_v15) = Cert.Spec.agg128 (W0 m ρ c (Proc.devRef .tc main_arg0)) (W0 m ρ c (Proc.devRef .tc main_arg1)) := by
  show StableHlo.after hostOps0 (W0 m ρ c) (Proc.devRef .tc main_v15) = _
  simp only [hostOps0]
  after_results
  rfl

set_option maxHeartbeats 2000000 in
theorem h0_v16 (c : Dev nD) : W1 m ρ c (Proc.devRef .tc main_v16) = (shapeCast S1x256 (W0 m ρ c (Proc.devRef .tc main_arg5)) shapeCasts_S256_S1x256) := by
  show StableHlo.after hostOps0 (W0 m ρ c) (Proc.devRef .tc main_v16) = _
  simp only [hostOps0]
  after_results
  rfl

set_option maxHeartbeats 2000000 in
theorem h0_v17 (c : Dev nD) : W1 m ρ c (Proc.devRef .tc main_v17) = (shapeCast S1x256 (W0 m ρ c (Proc.devRef .tc main_arg7)) shapeCasts_S256_S1x256) := by
  show StableHlo.after hostOps0 (W0 m ρ c) (Proc.devRef .tc main_v17) = _
  simp only [hostOps0]
  after_results
  rfl

set_option maxHeartbeats 2000000 in
theorem h1_v31 (c : Dev nD) : W3 m ρ c (Proc.devRef .tc main_v31) = (shapeCast S1x256 (W2 m ρ c (Proc.devRef .tc main_arg8)) shapeCasts_S256_S1x256) := by
  show StableHlo.after hostOps1 (W2 m ρ c) (Proc.devRef .tc main_v31) = _
  simp only [hostOps1]
  after_results
  rfl

set_option maxHeartbeats 2000000 in
theorem h1_v32 (c : Dev nD) : W3 m ρ c (Proc.devRef .tc main_v32) = (shapeCast S1x256 (W2 m ρ c (Proc.devRef .tc main_arg9)) shapeCasts_S256_S1x256) := by
  show StableHlo.after hostOps1 (W2 m ρ c) (Proc.devRef .tc main_v32) = _
  simp only [hostOps1]
  after_results
  rfl

set_option maxHeartbeats 2000000 in
theorem h1_v33 (c : Dev nD) : W3 m ρ c (Proc.devRef .tc main_v33) = (shapeCast S1x256 (Cert.Spec.mean (W2 m ρ c (Proc.devRef .tc main_v18))) shapeCasts_S256_S1x256) := by
  show StableHlo.after hostOps1 (W2 m ρ c) (Proc.devRef .tc main_v33) = _
  simp only [hostOps1]
  after_results
  rfl

set_option maxHeartbeats 2000000 in
theorem h1_v34 (c : Dev nD) : W3 m ρ c (Proc.devRef .tc main_v34) = (shapeCast S1x256 (maximumf (Cert.Spec.var (W2 m ρ c (Proc.devRef .tc main_v18))) (broadcastInDim S256 ![] bcast_S_S256 (constant (F := Ideal) S_ .f32 0x00000000#32))) shapeCasts_S256_S1x256) := by
  show StableHlo.after hostOps1 (W2 m ρ c) (Proc.devRef .tc main_v34) = _
  simp only [hostOps1]
  after_results
  rfl

set_option maxHeartbeats 2000000 in
theorem h2_v47 (c : Dev nD) : W5 m ρ c (Proc.devRef .tc main_v47) = Cert.Spec.aggOf256 (W4 m ρ c (Proc.devRef .tc main_v35)) (W4 m ρ c (Proc.devRef .tc main_v1)) (W4 m ρ c (Proc.devRef .tc main_v3)) := by
  show StableHlo.after hostOps2 (W4 m ρ c) (Proc.devRef .tc main_v47) = _
  simp only [hostOps2]
  after_results
  rfl

set_option maxHeartbeats 2000000 in
theorem h2_v48 (c : Dev nD) : W5 m ρ c (Proc.devRef .tc main_v48) = (shapeCast S1x256 (W4 m ρ c (Proc.devRef .tc main_arg11)) shapeCasts_S256_S1x256) := by
  show StableHlo.after hostOps2 (W4 m ρ c) (Proc.devRef .tc main_v48) = _
  simp only [hostOps2]
  after_results
  rfl

set_option maxHeartbeats 2000000 in
theorem h2_v49 (c : Dev nD) : W5 m ρ c (Proc.devRef .tc main_v49) = (shapeCast S1x256 (W4 m ρ c (Proc.devRef .tc main_arg13)) shapeCasts_S256_S1x256) := by
  show StableHlo.after hostOps2 (W4 m ρ c) (Proc.devRef .tc main_v49) = _
  simp only [hostOps2]
  after_results
  rfl

set_option maxHeartbeats 2000000 in
theorem h3_v63 (c : Dev nD) : W7 m ρ c (Proc.devRef .tc main_v63) = (shapeCast S1x256 (W6 m ρ c (Proc.devRef .tc main_arg14)) shapeCasts_S256_S1x256) := by
  show StableHlo.after hostOps3 (W6 m ρ c) (Proc.devRef .tc main_v63) = _
  simp only [hostOps3]
  after_results
  rfl

set_option maxHeartbeats 2000000 in
theorem h3_v64 (c : Dev nD) : W7 m ρ c (Proc.devRef .tc main_v64) = (shapeCast S1x256 (W6 m ρ c (Proc.devRef .tc main_arg15)) shapeCasts_S256_S1x256) := by
  show StableHlo.after hostOps3 (W6 m ρ c) (Proc.devRef .tc main_v64) = _
  simp only [hostOps3]
  after_results
  rfl

set_option maxHeartbeats 2000000 in
theorem h3_v65 (c : Dev nD) : W7 m ρ c (Proc.devRef .tc main_v65) = (shapeCast S1x256 (Cert.Spec.mean (W6 m ρ c (Proc.devRef .tc main_v50))) shapeCasts_S256_S1x256) := by
  show StableHlo.after hostOps3 (W6 m ρ c) (Proc.devRef .tc main_v65) = _
  simp only [hostOps3]
  after_results
  rfl

set_option maxHeartbeats 2000000 in
theorem h3_v66 (c : Dev nD) : W7 m ρ c (Proc.devRef .tc main_v66) = (shapeCast S1x256 (maximumf (Cert.Spec.var (W6 m ρ c (Proc.devRef .tc main_v50))) (broadcastInDim S256 ![] bcast_S_S256 (constant (F := Ideal) S_ .f32 0x00000000#32))) shapeCasts_S256_S1x256) := by
  show StableHlo.after hostOps3 (W6 m ρ c) (Proc.devRef .tc main_v66) = _
  simp only [hostOps3]
  after_results
  rfl

end Cert.KernelIdeal.HostReadsA

end
-- ==== Proof.HostReadsB.lean ====
/-
  What the host stretches before kernel calls 4 to 6 leave in the buffers those calls read, as functions of the
  contents the stretch finds.
-/
import proofs.«101660_j22883585753798_2_alg».proof.Proof.Gen.KernelIdeal.Frame
import proofs.«101660_j22883585753798_2_alg».proof.Proof.Spec
import Idealize.ShloMosaic.Lib.StableHlo.Run

set_option maxRecDepth 16384

noncomputable section

namespace Cert.KernelIdeal.HostReadsB

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.StableHlo

variable (m : (ℓ : Loc nD τ sig) → Buf (Elt Ideal) ℓ) (ρ : Dev nD → PrngReg)

set_option maxHeartbeats 2000000 in
theorem h4_v79 (c : Dev nD) : W9 m ρ c (Proc.devRef .tc main_v79) = Cert.Spec.aggOf256 (W8 m ρ c (Proc.devRef .tc main_v67)) (W8 m ρ c (Proc.devRef .tc main_v1)) (W8 m ρ c (Proc.devRef .tc main_v3)) := by
  show StableHlo.after hostOps4 (W8 m ρ c) (Proc.devRef .tc main_v79) = _
  simp only [hostOps4]
  after_results
  rfl

set_option maxHeartbeats 2000000 in
theorem h4_v80 (c : Dev nD) : W9 m ρ c (Proc.devRef .tc main_v80) = (shapeCast S1x256 (W8 m ρ c (Proc.devRef .tc main_arg17)) shapeCasts_S256_S1x256) := by
  show StableHlo.after hostOps4 (W8 m ρ c) (Proc.devRef .tc main_v80) = _
  simp only [hostOps4]
  after_results
  rfl

set_option maxHeartbeats 2000000 in
theorem h4_v81 (c : Dev nD) : W9 m ρ c (Proc.devRef .tc main_v81) = (shapeCast S1x256 (W8 m ρ c (Proc.devRef .tc main_arg19)) shapeCasts_S256_S1x256) := by
  show StableHlo.after hostOps4 (W8 m ρ c) (Proc.devRef .tc main_v81) = _
  simp only [hostOps4]
  after_results
  rfl

set_option maxHeartbeats 2000000 in
theorem h5_v95 (c : Dev nD) : W11 m ρ c (Proc.devRef .tc main_v95) = (shapeCast S1x256 (W10 m ρ c (Proc.devRef .tc main_arg20)) shapeCasts_S256_S1x256) := by
  show StableHlo.after hostOps5 (W10 m ρ c) (Proc.devRef .tc main_v95) = _
  simp only [hostOps5]
  after_results
  rfl

set_option maxHeartbeats 2000000 in
theorem h5_v96 (c : Dev nD) : W11 m ρ c (Proc.devRef .tc main_v96) = (shapeCast S1x256 (W10 m ρ c (Proc.devRef .tc main_arg21)) shapeCasts_S256_S1x256) := by
  show StableHlo.after hostOps5 (W10 m ρ c) (Proc.devRef .tc main_v96) = _
  simp only [hostOps5]
  after_results
  rfl

set_option maxHeartbeats 2000000 in
theorem h5_v97 (c : Dev nD) : W11 m ρ c (Proc.devRef .tc main_v97) = (shapeCast S1x256 (Cert.Spec.mean (W10 m ρ c (Proc.devRef .tc main_v82))) shapeCasts_S256_S1x256) := by
  show StableHlo.after hostOps5 (W10 m ρ c) (Proc.devRef .tc main_v97) = _
  simp only [hostOps5]
  after_results
  rfl

set_option maxHeartbeats 2000000 in
theorem h5_v98 (c : Dev nD) : W11 m ρ c (Proc.devRef .tc main_v98) = (shapeCast S1x256 (maximumf (Cert.Spec.var (W10 m ρ c (Proc.devRef .tc main_v82))) (broadcastInDim S256 ![] bcast_S_S256 (constant (F := Ideal) S_ .f32 0x00000000#32))) shapeCasts_S256_S1x256) := by
  show StableHlo.after hostOps5 (W10 m ρ c) (Proc.devRef .tc main_v98) = _
  simp only [hostOps5]
  after_results
  rfl

set_option maxHeartbeats 2000000 in
theorem h6_v111 (c : Dev nD) : W13 m ρ c (Proc.devRef .tc main_v111) = Cert.Spec.pooled (W12 m ρ c (Proc.devRef .tc main_v99)) (W12 m ρ c (Proc.devRef .tc main_arg2)) := by
  show StableHlo.after hostOps6 (W12 m ρ c) (Proc.devRef .tc main_v111) = _
  simp only [hostOps6]
  after_results
  rfl

set_option maxHeartbeats 2000000 in
theorem h6_v112 (c : Dev nD) : W13 m ρ c (Proc.devRef .tc main_v112) = Cert.Spec.lat9 (W12 m ρ c (Proc.devRef .tc main_arg3)) := by
  show StableHlo.after hostOps6 (W12 m ρ c) (Proc.devRef .tc main_v112) = _
  simp only [hostOps6]
  after_results
  rfl

set_option maxHeartbeats 2000000 in
theorem h6_v113 (c : Dev nD) : W13 m ρ c (Proc.devRef .tc main_v113) = (shapeCast S1x256 (W12 m ρ c (Proc.devRef .tc main_arg23)) shapeCasts_S256_S1x256) := by
  show StableHlo.after hostOps6 (W12 m ρ c) (Proc.devRef .tc main_v113) = _
  simp only [hostOps6]
  after_results
  rfl

set_option maxHeartbeats 2000000 in
theorem h6_v114 (c : Dev nD) : W13 m ρ c (Proc.devRef .tc main_v114) = (shapeCast S1x256 (W12 m ρ c (Proc.devRef .tc main_arg25)) shapeCasts_S256_S1x256) := by
  show StableHlo.after hostOps6 (W12 m ρ c) (Proc.devRef .tc main_v114) = _
  simp only [hostOps6]
  after_results
  rfl

set_option maxHeartbeats 2000000 in
theorem h6_v115 (c : Dev nD) : W13 m ρ c (Proc.devRef .tc main_v115) = (shapeCast S1x256 (W12 m ρ c (Proc.devRef .tc main_arg27)) shapeCasts_S256_S1x256) := by
  show StableHlo.after hostOps6 (W12 m ρ c) (Proc.devRef .tc main_v115) = _
  simp only [hostOps6]
  after_results
  rfl

set_option maxHeartbeats 2000000 in
theorem h6_v116 (c : Dev nD) : W13 m ρ c (Proc.devRef .tc main_v116) = (shapeCast S1x32 (W12 m ρ c (Proc.devRef .tc main_arg29)) shapeCasts_S32_S1x32) := by
  show StableHlo.after hostOps6 (W12 m ρ c) (Proc.devRef .tc main_v116) = _
  simp only [hostOps6]
  after_results
  rfl

end Cert.KernelIdeal.HostReadsB

end
-- ==== Proof.BnRegion.lean ====
/-
  The three batch-normalisation calls. Each call walks the 25 blocks of 2000 rows of a 50000 × 256 matrix and
  writes, at every entry (p, q), max(((h(p,q) − μ(0,q)) · rsqrt(v(0,q) + ε)) · γ(0,q) + β(0,q), 0), the four
  parameters being one-row matrices broadcast down the block. The array the call leaves is the whole-array
  function of the specification with the same five operands.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«101660_j22883585753798_2_alg».proof.Proof.Gen.KernelIdeal.Frame
import proofs.«101660_j22883585753798_2_alg».proof.Proof.Spec

set_option maxRecDepth 16384

noncomputable section

namespace Cert.KernelIdeal.BnRegion

open Cert.KernelIdeal Cert.KernelIdeal.Gen Idealize.ShloMosaic Idealize.ShloMosaic.TcCoe Idealize.SL.Sem
open Idealize.ShloMosaic.Pipeline (Dat)
open Idealize.ShloMosaic.ValueIdx

/-- One entry of the normalised and clamped matrix, from the entry of the input and the four parameters of its column. -/
def bnAt (h g b mu v : EReal) : EReal :=
  max (((h - mu) * Ideal.rsqrt (v + Ideal.ofBits .f32 0x3727C5AC#32)) * g + b) (Ideal.ofBits .f32 0x00000000#32)

/-! ## The block a call computes, entry by entry -/

/-- The block's payload at (p, q): the input block at (p, q) with the parameters' one row at q. -/
theorem pay_ix (mu v g b : Vec Ideal S1x256 .f32) (h : Vec Ideal S2000x256 .f32) (p : Fin 2000) (q : Fin 256) :
    k1_pay1 mu v g b h (ix2 p q)
      = bnAt (h (ix2 p q)) (g (ix2 (0 : Fin 1) q)) (b (ix2 (0 : Fin 1) q)) (mu (ix2 (0 : Fin 1) q)) (v (ix2 (0 : Fin 1) q)) := by
  unfold k1_pay1
  simp only [shapeCast_self]
  have e1 : broadcastTo S2000x256 mu broadcasts_S1x256_S2000x256 (ix2 p q) = mu (ix2 (0 : Fin 1) q) :=
    broadcastTo_1b_ab_apply mu broadcasts_S1x256_S2000x256 p q
  have e2 : broadcastTo S2000x256 (rsqrt (F := Ideal) (addf (F := Ideal) v (broadcast S1x256 (Scalar.ofBits (F := Ideal) .f32 0x3727C5AC#32)))) broadcasts_S1x256_S2000x256 (ix2 p q)
      = Ideal.rsqrt (v (ix2 (0 : Fin 1) q) + Ideal.ofBits .f32 0x3727C5AC#32) :=
    broadcastTo_1b_ab_apply (rsqrt (F := Ideal) (addf (F := Ideal) v (broadcast S1x256 (Scalar.ofBits (F := Ideal) .f32 0x3727C5AC#32)))) broadcasts_S1x256_S2000x256 p q
  have e3 : broadcastTo S2000x256 g broadcasts_S1x256_S2000x256 (ix2 p q) = g (ix2 (0 : Fin 1) q) :=
    broadcastTo_1b_ab_apply g broadcasts_S1x256_S2000x256 p q
  have e4 : broadcastTo S2000x256 b broadcasts_S1x256_S2000x256 (ix2 p q) = b (ix2 (0 : Fin 1) q) :=
    broadcastTo_1b_ab_apply b broadcasts_S1x256_S2000x256 p q
  show max (((h (ix2 p q) - broadcastTo S2000x256 mu broadcasts_S1x256_S2000x256 (ix2 p q))
        * broadcastTo S2000x256 (rsqrt (F := Ideal) (addf (F := Ideal) v (broadcast S1x256 (Scalar.ofBits (F := Ideal) .f32 0x3727C5AC#32)))) broadcasts_S1x256_S2000x256 (ix2 p q))
        * broadcastTo S2000x256 g broadcasts_S1x256_S2000x256 (ix2 p q)
        + broadcastTo S2000x256 b broadcasts_S1x256_S2000x256 (ix2 p q)) (Ideal.ofBits .f32 0x00000000#32) = _
  rw [e1, e2, e3, e4]
  rfl

/-- The same at any index of the block. -/
theorem pay_apply (mu v g b : Vec Ideal S1x256 .f32) (h : Vec Ideal S2000x256 .f32) (j : S2000x256.Idx) :
    k1_pay1 mu v g b h j
      = bnAt (h j) (g (ix2 (0 : Fin 1) (j 1))) (b (ix2 (0 : Fin 1) (j 1))) (mu (ix2 (0 : Fin 1) (j 1))) (v (ix2 (0 : Fin 1) (j 1))) := by
  have ej : ix2 (n0 := 2000) (n1 := 256) (j 0) (j 1) = j := (eq_ix2 j).symm
  have e := pay_ix mu v g b h (j 0) (j 1)
  rw [ej] at e
  exact e

/-- Call 3's payload is the same tree of operations. -/
theorem pay_apply3 (mu v g b : Vec Ideal S1x256 .f32) (h : Vec Ideal S2000x256 .f32) (j : S2000x256.Idx) :
    k3_pay1 mu v g b h j
      = bnAt (h j) (g (ix2 (0 : Fin 1) (j 1))) (b (ix2 (0 : Fin 1) (j 1))) (mu (ix2 (0 : Fin 1) (j 1))) (v (ix2 (0 : Fin 1) (j 1))) :=
  pay_apply mu v g b h j

/-- Call 5's payload is the same tree of operations. -/
theorem pay_apply5 (mu v g b : Vec Ideal S1x256 .f32) (h : Vec Ideal S2000x256 .f32) (j : S2000x256.Idx) :
    k5_pay1 mu v g b h j
      = bnAt (h j) (g (ix2 (0 : Fin 1) (j 1))) (b (ix2 (0 : Fin 1) (j 1))) (mu (ix2 (0 : Fin 1) (j 1))) (v (ix2 (0 : Fin 1) (j 1))) :=
  pay_apply mu v g b h j

/-! ## The specification's matrix, entry by entry -/

/-- A one-row matrix laid along the 50000 rows reads, at any entry, the row at the entry's column. -/
theorem rows_apply (x : FVec Ideal S1x256 .f32) (i : S50000x256.Idx) :
    Cert.Spec.rows x i = x (ix2 (0 : Fin 1) (i 1)) := by
  unfold Cert.Spec.rows
  refine broadcastInDim_apply ![0, 1] _ x i (ix2 (0 : Fin 1) (i 1)) ?_
  intro a
  match a with
  | ⟨0, _⟩ => rfl
  | ⟨1, _⟩ => rfl

/-- The specification's matrix at an entry. -/
theorem bnWith_apply (h : FVec Ideal S50000x256 .f32) (g b mu v : FVec Ideal S1x256 .f32) (i : S50000x256.Idx) :
    Cert.Spec.bnWith h g b mu v i
      = bnAt (h i) (g (ix2 (0 : Fin 1) (i 1))) (b (ix2 (0 : Fin 1) (i 1))) (mu (ix2 (0 : Fin 1) (i 1))) (v (ix2 (0 : Fin 1) (i 1))) := by
  unfold Cert.Spec.bnWith
  show max (((h i - Cert.Spec.rows mu i) * Cert.Spec.rows (Host.rsqrt (F := Ideal) (addf (F := Ideal) v (Cert.Spec.row Cert.Spec.eps))) i) * Cert.Spec.rows g i + Cert.Spec.rows b i) (Cert.Spec.zeros i) = _
  rw [rows_apply, rows_apply, rows_apply, rows_apply]
  rfl

/-- Equal arguments, equal entries. -/
theorem bnAt_congr {h h' g g' b b' mu mu' v v' : EReal} (e0 : h = h') (e1 : g = g') (e2 : b = b') (e3 : mu = mu') (e4 : v = v') :
    bnAt h g b mu v = bnAt h' g' b' mu' v' := by
  subst e0 e1 e2 e3 e4; rfl

/-- The zero offsets of a whole-block access. -/
theorem hz : (![0, 0] : Fin 2 → Nat) = fun _ => 0 := funext fun a => by fin_cases a <;> rfl

variable (V : (c : Dev nD) → (b : Ref sig .tc) → Buf (Elt Ideal) ((c : Thread nD τ).loc b))

/-! ## Call 1 -/

/-- The index maps of call 1, decided over its 25 points: the input's block moves with the output's, down the rows;
    each parameter's one block stays at the origin; point t handles block t. -/
theorem idx_facts1 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the specification's matrix of the five operand arrays. -/
theorem flushed1_eq (c : Dev nD) (t : Fin cfg1.N) :
    (dat1 (F := Ideal) V c).flushed 5 t
      = ((cfg1.win 5).blk t).view.read (Elt Ideal) (Cert.Spec.bnWith (V c main_v18) (V c main_v31) (V c main_v32) (V c main_v33) (V c main_v34)) := by
  show (cfg1.win 5).cut (grid1.coords t) ((dat1 V c).after 5 t) = _
  rw [after1_5]
  unfold out1_5
  rw [View.canon_unit_zero hz]
  simp only [View.ld_unit_zero (S := S1x256) hz, View.ld_unit_zero (S := S2000x256) hz]
  obtain ⟨e0, e1, e2, e3, e4, e5, e6, e7, e8, e9, e10, e11⟩ := idx_facts1 t
  funext j
  show k1_pay1 (iblk1 V c 3 t) (iblk1 V c 4 t) (iblk1 V c 1 t) (iblk1 V c 2 t) (iblk1 V c 0 t) j
    = Cert.Spec.bnWith (V c main_v18) (V c main_v31) (V c main_v32) (V c main_v33) (V c main_v34) (((cfg1.win 5).blk t).view.emb j)
  refine (pay_apply (iblk1 V c 3 t) (iblk1 V c 4 t) (iblk1 V c 1 t) (iblk1 V c 2 t) (iblk1 V c 0 t) j).trans ?_
  refine Eq.trans ?_ (bnWith_apply (V c main_v18) (V c main_v31) (V c main_v32) (V c main_v33) (V c main_v34) (((cfg1.win 5).blk t).view.emb j)).symm
  have hj0 : (j 0).val < 2000 := (j 0).isLt
  have hj1 : (j 1).val < 256 := (j 1).isLt
  -- the input block's entry is the array's entry at the output's place
  have h0 : iblk1 V c 0 t j = V c main_v18 (((cfg1.win 5).blk t).view.emb j) := by
    show V c main_v18 (((cfg1.win 0).blk t).view.emb j) = V c main_v18 (((cfg1.win 5).blk t).view.emb j)
    refine congrArg (V c main_v18) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * (j 1).val = win1_5.index t (1 : Fin 2) * 256 + 1 * (j 1).val; omega
  -- each parameter's block is its whole one-row array, read at the output entry's column
  have h1 : iblk1 V c 1 t (ix2 (0 : Fin 1) (j 1)) = V c main_v31 (ix2 (0 : Fin 1) ((((cfg1.win 5).blk t).view.emb j) 1)) := by
    show V c main_v31 (((cfg1.win 1).blk t).view.emb (ix2 (0 : Fin 1) (j 1))) = V c main_v31 (ix2 (0 : Fin 1) ((((cfg1.win 5).blk t).view.emb j) 1))
    refine congrArg (V c main_v31) (funext fun a => Fin.ext ?_)
    match a with
    | ⟨0, _⟩ => show win1_1.index t (0 : Fin 2) * 1 + 1 * 0 = 0; omega
    | ⟨1, _⟩ => show win1_1.index t (1 : Fin 2) * 256 + 1 * (j 1).val = win1_5.index t (1 : Fin 2) * 256 + 1 * (j 1).val; omega
  have h2 : iblk1 V c 2 t (ix2 (0 : Fin 1) (j 1)) = V c main_v32 (ix2 (0 : Fin 1) ((((cfg1.win 5).blk t).view.emb j) 1)) := by
    show V c main_v32 (((cfg1.win 2).blk t).view.emb (ix2 (0 : Fin 1) (j 1))) = V c main_v32 (ix2 (0 : Fin 1) ((((cfg1.win 5).blk t).view.emb j) 1))
    refine congrArg (V c main_v32) (funext fun a => Fin.ext ?_)
    match a with
    | ⟨0, _⟩ => show win1_2.index t (0 : Fin 2) * 1 + 1 * 0 = 0; omega
    | ⟨1, _⟩ => show win1_2.index t (1 : Fin 2) * 256 + 1 * (j 1).val = win1_5.index t (1 : Fin 2) * 256 + 1 * (j 1).val; omega
  have h3 : iblk1 V c 3 t (ix2 (0 : Fin 1) (j 1)) = V c main_v33 (ix2 (0 : Fin 1) ((((cfg1.win 5).blk t).view.emb j) 1)) := by
    show V c main_v33 (((cfg1.win 3).blk t).view.emb (ix2 (0 : Fin 1) (j 1))) = V c main_v33 (ix2 (0 : Fin 1) ((((cfg1.win 5).blk t).view.emb j) 1))
    refine congrArg (V c main_v33) (funext fun a => Fin.ext ?_)
    match a with
    | ⟨0, _⟩ => show win1_3.index t (0 : Fin 2) * 1 + 1 * 0 = 0; omega
    | ⟨1, _⟩ => show win1_3.index t (1 : Fin 2) * 256 + 1 * (j 1).val = win1_5.index t (1 : Fin 2) * 256 + 1 * (j 1).val; omega
  have h4 : iblk1 V c 4 t (ix2 (0 : Fin 1) (j 1)) = V c main_v34 (ix2 (0 : Fin 1) ((((cfg1.win 5).blk t).view.emb j) 1)) := by
    show V c main_v34 (((cfg1.win 4).blk t).view.emb (ix2 (0 : Fin 1) (j 1))) = V c main_v34 (ix2 (0 : Fin 1) ((((cfg1.win 5).blk t).view.emb j) 1))
    refine congrArg (V c main_v34) (funext fun a => Fin.ext ?_)
    match a with
    | ⟨0, _⟩ => show win1_4.index t (0 : Fin 2) * 1 + 1 * 0 = 0; omega
    | ⟨1, _⟩ => show win1_4.index t (1 : Fin 2) * 256 + 1 * (j 1).val = win1_5.index t (1 : Fin 2) * 256 + 1 * (j 1).val; omega
  exact bnAt_congr h0 h1 h2 h3 h4

/-- An index of the output array is in point t's block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v35).slice (win1_5.rect t)).set ↔ _
  rw [View.set_slice_whole, Rect.mem_set_unit]
  exact Iff.rfl

/-- Every entry of the output array lies in some point's block: row p in the block of point p / 2000. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨e0, e1, e2, e3, e4, e5, e6, e7, e8, e9, e10, e11⟩ := idx_facts1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The array call 1 leaves is the specification's matrix of its five operand arrays. -/
theorem arr1 (c : Dev nD) :
    (dat1 (F := Ideal) V c).arrAt 5 cfg1.N
      = Cert.Spec.bnWith (V c main_v18) (V c main_v31) (V c main_v32) (V c main_v33) (V c main_v34) :=
  (dat1 (F := Ideal) V c).arrAt_eq_of_cover 5 (Cert.Spec.bnWith (V c main_v18) (V c main_v31) (V c main_v32) (V c main_v33) (V c main_v34))
    (fun t _ => flushed1_eq V c t) (cover1)

/-! ## Call 3 -/

/-- The index maps of call 3, decided over its 25 points: the input's block moves with the output's, down the rows;
    each parameter's one block stays at the origin; point t handles block t. -/
theorem idx_facts3 : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point t writes back is block t of the specification's matrix of the five operand arrays. -/
theorem flushed3_eq (c : Dev nD) (t : Fin cfg3.N) :
    (dat3 (F := Ideal) V c).flushed 5 t
      = ((cfg3.win 5).blk t).view.read (Elt Ideal) (Cert.Spec.bnWith (V c main_v50) (V c main_v63) (V c main_v64) (V c main_v65) (V c main_v66)) := by
  show (cfg3.win 5).cut (grid3.coords t) ((dat3 V c).after 5 t) = _
  rw [after3_5]
  unfold out3_5
  rw [View.canon_unit_zero hz]
  simp only [View.ld_unit_zero (S := S1x256) hz, View.ld_unit_zero (S := S2000x256) hz]
  obtain ⟨e0, e1, e2, e3, e4, e5, e6, e7, e8, e9, e10, e11⟩ := idx_facts3 t
  funext j
  show k3_pay1 (iblk3 V c 3 t) (iblk3 V c 4 t) (iblk3 V c 1 t) (iblk3 V c 2 t) (iblk3 V c 0 t) j
    = Cert.Spec.bnWith (V c main_v50) (V c main_v63) (V c main_v64) (V c main_v65) (V c main_v66) (((cfg3.win 5).blk t).view.emb j)
  refine (pay_apply3 (iblk3 V c 3 t) (iblk3 V c 4 t) (iblk3 V c 1 t) (iblk3 V c 2 t) (iblk3 V c 0 t) j).trans ?_
  refine Eq.trans ?_ (bnWith_apply (V c main_v50) (V c main_v63) (V c main_v64) (V c main_v65) (V c main_v66) (((cfg3.win 5).blk t).view.emb j)).symm
  have hj0 : (j 0).val < 2000 := (j 0).isLt
  have hj1 : (j 1).val < 256 := (j 1).isLt
  -- the input block's entry is the array's entry at the output's place
  have h0 : iblk3 V c 0 t j = V c main_v50 (((cfg3.win 5).blk t).view.emb j) := by
    show V c main_v50 (((cfg3.win 0).blk t).view.emb j) = V c main_v50 (((cfg3.win 5).blk t).view.emb j)
    refine congrArg (V c main_v50) (funext fun a => Fin.ext ?_)
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 256 + 1 * (j 1).val = win3_5.index t (1 : Fin 2) * 256 + 1 * (j 1).val; omega
  -- each parameter's block is its whole one-row array, read at the output entry's column
  have h1 : iblk3 V c 1 t (ix2 (0 : Fin 1) (j 1)) = V c main_v63 (ix2 (0 : Fin 1) ((((cfg3.win 5).blk t).view.emb j) 1)) := by
    show V c main_v63 (((cfg3.win 1).blk t).view.emb (ix2 (0 : Fin 1) (j 1))) = V c main_v63 (ix2 (0 : Fin 1) ((((cfg3.win 5).blk t).view.emb j) 1))
    refine congrArg (V c main_v63) (funext fun a => Fin.ext ?_)
    match a with
    | ⟨0, _⟩ => show win3_1.index t (0 : Fin 2) * 1 + 1 * 0 = 0; omega
    | ⟨1, _⟩ => show win3_1.index t (1 : Fin 2) * 256 + 1 * (j 1).val = win3_5.index t (1 : Fin 2) * 256 + 1 * (j 1).val; omega
  have h2 : iblk3 V c 2 t (ix2 (0 : Fin 1) (j 1)) = V c main_v64 (ix2 (0 : Fin 1) ((((cfg3.win 5).blk t).view.emb j) 1)) := by
    show V c main_v64 (((cfg3.win 2).blk t).view.emb (ix2 (0 : Fin 1) (j 1))) = V c main_v64 (ix2 (0 : Fin 1) ((((cfg3.win 5).blk t).view.emb j) 1))
    refine congrArg (V c main_v64) (funext fun a => Fin.ext ?_)
    match a with
    | ⟨0, _⟩ => show win3_2.index t (0 : Fin 2) * 1 + 1 * 0 = 0; omega
    | ⟨1, _⟩ => show win3_2.index t (1 : Fin 2) * 256 + 1 * (j 1).val = win3_5.index t (1 : Fin 2) * 256 + 1 * (j 1).val; omega
  have h3 : iblk3 V c 3 t (ix2 (0 : Fin 1) (j 1)) = V c main_v65 (ix2 (0 : Fin 1) ((((cfg3.win 5).blk t).view.emb j) 1)) := by
    show V c main_v65 (((cfg3.win 3).blk t).view.emb (ix2 (0 : Fin 1) (j 1))) = V c main_v65 (ix2 (0 : Fin 1) ((((cfg3.win 5).blk t).view.emb j) 1))
    refine congrArg (V c main_v65) (funext fun a => Fin.ext ?_)
    match a with
    | ⟨0, _⟩ => show win3_3.index t (0 : Fin 2) * 1 + 1 * 0 = 0; omega
    | ⟨1, _⟩ => show win3_3.index t (1 : Fin 2) * 256 + 1 * (j 1).val = win3_5.index t (1 : Fin 2) * 256 + 1 * (j 1).val; omega
  have h4 : iblk3 V c 4 t (ix2 (0 : Fin 1) (j 1)) = V c main_v66 (ix2 (0 : Fin 1) ((((cfg3.win 5).blk t).view.emb j) 1)) := by
    show V c main_v66 (((cfg3.win 4).blk t).view.emb (ix2 (0 : Fin 1) (j 1))) = V c main_v66 (ix2 (0 : Fin 1) ((((cfg3.win 5).blk t).view.emb j) 1))
    refine congrArg (V c main_v66) (funext fun a => Fin.ext ?_)
    match a with
    | ⟨0, _⟩ => show win3_4.index t (0 : Fin 2) * 1 + 1 * 0 = 0; omega
    | ⟨1, _⟩ => show win3_4.index t (1 : Fin 2) * 256 + 1 * (j 1).val = win3_5.index t (1 : Fin 2) * 256 + 1 * (j 1).val; omega
  exact bnAt_congr h0 h1 h2 h3 h4

/-- An index of the output array is in point t's block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v67).slice (win3_5.rect t)).set ↔ _
  rw [View.set_slice_whole, Rect.mem_set_unit]
  exact Iff.rfl

/-- Every entry of the output array lies in some point's block: row p in the block of point p / 2000. -/
theorem cover3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, by show (i 0).val / 2000 < grid3.N; rw [N_3]; omega⟩, rfl⟩
  obtain ⟨e0, e1, e2, e3, e4, e5, e6, e7, e8, e9, e10, e11⟩ := idx_facts3 t
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- The array call 3 leaves is the specification's matrix of its five operand arrays. -/
theorem arr3 (c : Dev nD) :
    (dat3 (F := Ideal) V c).arrAt 5 cfg3.N
      = Cert.Spec.bnWith (V c main_v50) (V c main_v63) (V c main_v64) (V c main_v65) (V c main_v66) :=
  (dat3 (F := Ideal) V c).arrAt_eq_of_cover 5 (Cert.Spec.bnWith (V c main_v50) (V c main_v63) (V c main_v64) (V c main_v65) (V c main_v66))
    (fun t _ => flushed3_eq V c t) (cover3)

/-! ## Call 5 -/

/-- The index maps of call 5, decided over its 25 points: the input's block moves with the output's, down the rows;
    each parameter's one block stays at the origin; point t handles block t. -/
theorem idx_facts5 : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point t writes back is block t of the specification's matrix of the five operand arrays. -/
theorem flushed5_eq (c : Dev nD) (t : Fin cfg5.N) :
    (dat5 (F := Ideal) V c).flushed 5 t
      = ((cfg5.win 5).blk t).view.read (Elt Ideal) (Cert.Spec.bnWith (V c main_v82) (V c main_v95) (V c main_v96) (V c main_v97) (V c main_v98)) := by
  show (cfg5.win 5).cut (grid5.coords t) ((dat5 V c).after 5 t) = _
  rw [after5_5]
  unfold out5_5
  rw [View.canon_unit_zero hz]
  simp only [View.ld_unit_zero (S := S1x256) hz, View.ld_unit_zero (S := S2000x256) hz]
  obtain ⟨e0, e1, e2, e3, e4, e5, e6, e7, e8, e9, e10, e11⟩ := idx_facts5 t
  funext j
  show k5_pay1 (iblk5 V c 3 t) (iblk5 V c 4 t) (iblk5 V c 1 t) (iblk5 V c 2 t) (iblk5 V c 0 t) j
    = Cert.Spec.bnWith (V c main_v82) (V c main_v95) (V c main_v96) (V c main_v97) (V c main_v98) (((cfg5.win 5).blk t).view.emb j)
  refine (pay_apply5 (iblk5 V c 3 t) (iblk5 V c 4 t) (iblk5 V c 1 t) (iblk5 V c 2 t) (iblk5 V c 0 t) j).trans ?_
  refine Eq.trans ?_ (bnWith_apply (V c main_v82) (V c main_v95) (V c main_v96) (V c main_v97) (V c main_v98) (((cfg5.win 5).blk t).view.emb j)).symm
  have hj0 : (j 0).val < 2000 := (j 0).isLt
  have hj1 : (j 1).val < 256 := (j 1).isLt
  -- the input block's entry is the array's entry at the output's place
  have h0 : iblk5 V c 0 t j = V c main_v82 (((cfg5.win 5).blk t).view.emb j) := by
    show V c main_v82 (((cfg5.win 0).blk t).view.emb j) = V c main_v82 (((cfg5.win 5).blk t).view.emb j)
    refine congrArg (V c main_v82) (funext fun a => Fin.ext ?_)
    match a with
    | ⟨0, _⟩ => show win5_0.index t (0 : Fin 2) * 2000 + 1 * (j 0).val = win5_5.index t (0 : Fin 2) * 2000 + 1 * (j 0).val; omega
    | ⟨1, _⟩ => show win5_0.index t (1 : Fin 2) * 256 + 1 * (j 1).val = win5_5.index t (1 : Fin 2) * 256 + 1 * (j 1).val; omega
  -- each parameter's block is its whole one-row array, read at the output entry's column
  have h1 : iblk5 V c 1 t (ix2 (0 : Fin 1) (j 1)) = V c main_v95 (ix2 (0 : Fin 1) ((((cfg5.win 5).blk t).view.emb j) 1)) := by
    show V c main_v95 (((cfg5.win 1).blk t).view.emb (ix2 (0 : Fin 1) (j 1))) = V c main_v95 (ix2 (0 : Fin 1) ((((cfg5.win 5).blk t).view.emb j) 1))
    refine congrArg (V c main_v95) (funext fun a => Fin.ext ?_)
    match a with
    | ⟨0, _⟩ => show win5_1.index t (0 : Fin 2) * 1 + 1 * 0 = 0; omega
    | ⟨1, _⟩ => show win5_1.index t (1 : Fin 2) * 256 + 1 * (j 1).val = win5_5.index t (1 : Fin 2) * 256 + 1 * (j 1).val; omega
  have h2 : iblk5 V c 2 t (ix2 (0 : Fin 1) (j 1)) = V c main_v96 (ix2 (0 : Fin 1) ((((cfg5.win 5).blk t).view.emb j) 1)) := by
    show V c main_v96 (((cfg5.win 2).blk t).view.emb (ix2 (0 : Fin 1) (j 1))) = V c main_v96 (ix2 (0 : Fin 1) ((((cfg5.win 5).blk t).view.emb j) 1))
    refine congrArg (V c main_v96) (funext fun a => Fin.ext ?_)
    match a with
    | ⟨0, _⟩ => show win5_2.index t (0 : Fin 2) * 1 + 1 * 0 = 0; omega
    | ⟨1, _⟩ => show win5_2.index t (1 : Fin 2) * 256 + 1 * (j 1).val = win5_5.index t (1 : Fin 2) * 256 + 1 * (j 1).val; omega
  have h3 : iblk5 V c 3 t (ix2 (0 : Fin 1) (j 1)) = V c main_v97 (ix2 (0 : Fin 1) ((((cfg5.win 5).blk t).view.emb j) 1)) := by
    show V c main_v97 (((cfg5.win 3).blk t).view.emb (ix2 (0 : Fin 1) (j 1))) = V c main_v97 (ix2 (0 : Fin 1) ((((cfg5.win 5).blk t).view.emb j) 1))
    refine congrArg (V c main_v97) (funext fun a => Fin.ext ?_)
    match a with
    | ⟨0, _⟩ => show win5_3.index t (0 : Fin 2) * 1 + 1 * 0 = 0; omega
    | ⟨1, _⟩ => show win5_3.index t (1 : Fin 2) * 256 + 1 * (j 1).val = win5_5.index t (1 : Fin 2) * 256 + 1 * (j 1).val; omega
  have h4 : iblk5 V c 4 t (ix2 (0 : Fin 1) (j 1)) = V c main_v98 (ix2 (0 : Fin 1) ((((cfg5.win 5).blk t).view.emb j) 1)) := by
    show V c main_v98 (((cfg5.win 4).blk t).view.emb (ix2 (0 : Fin 1) (j 1))) = V c main_v98 (ix2 (0 : Fin 1) ((((cfg5.win 5).blk t).view.emb j) 1))
    refine congrArg (V c main_v98) (funext fun a => Fin.ext ?_)
    match a with
    | ⟨0, _⟩ => show win5_4.index t (0 : Fin 2) * 1 + 1 * 0 = 0; omega
    | ⟨1, _⟩ => show win5_4.index t (1 : Fin 2) * 256 + 1 * (j 1).val = win5_5.index t (1 : Fin 2) * 256 + 1 * (j 1).val; omega
  exact bnAt_congr h0 h1 h2 h3 h4

/-- An index of the output array is in point t's block iff each coordinate is in the block's range on its axis. -/
theorem mem_blk5 (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v99).slice (win5_5.rect t)).set ↔ _
  rw [View.set_slice_whole, Rect.mem_set_unit]
  exact Iff.rfl

/-- Every entry of the output array lies in some point's block: row p in the block of point p / 2000. -/
theorem cover5 (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  obtain ⟨t, ht⟩ : ∃ t : Fin cfg5.N, t.val = (i 0).val / 2000 :=
    ⟨⟨(i 0).val / 2000, by show (i 0).val / 2000 < grid5.N; rw [N_5]; omega⟩, rfl⟩
  obtain ⟨e0, e1, e2, e3, e4, e5, e6, e7, e8, e9, e10, e11⟩ := idx_facts5 t
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 256 ≤ (i 1).val ∧ (i 1).val < win5_5.index t (1 : Fin 2) * 256 + 256; omega

/-- The array call 5 leaves is the specification's matrix of its five operand arrays. -/
theorem arr5 (c : Dev nD) :
    (dat5 (F := Ideal) V c).arrAt 5 cfg5.N
      = Cert.Spec.bnWith (V c main_v82) (V c main_v95) (V c main_v96) (V c main_v97) (V c main_v98) :=
  (dat5 (F := Ideal) V c).arrAt_eq_of_cover 5 (Cert.Spec.bnWith (V c main_v82) (V c main_v95) (V c main_v96) (V c main_v97) (V c main_v98))
    (fun t _ => flushed5_eq V c t) (cover5)

end Cert.KernelIdeal.BnRegion

end
-- ==== Proof.BnAlgebra.lean ====
/-
  Batch normalisation: the kernel call's spelling meets the reference's.

  A kernel call receives the column means and variances as one-row matrices and multiplies in the order
  `(h − μ) · rsqrt(v + ε) · γ`, where the reference multiplies `γ · (h − μ) · rsqrt(σ² + ε)`: the same product,
  because multiplication of extended reals is commutative and associative (no distributivity, so the infinities do no
  harm). The kernel's host code clamps the variance at zero first; a variance is a quotient by 50000 of a sum of
  squares, every square of an extended real is nonnegative, so the clamp changes nothing.
-/
import proofs.«101660_j22883585753798_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

set_option maxRecDepth 16384

noncomputable section

namespace Cert.BnAlgebra

open Cert.ReferenceIdeal Cert.ReferenceIdeal.Facts₀ Cert.ReferenceIdeal.Facts Idealize.ShloMosaic Idealize.ShloMosaic.ValueIdx Cert.Spec

/-- A vector as a one-row matrix, read at an entry. -/
theorem row_apply (v : FVec Ideal S256 .f32) (u : Fin 1) (q : Fin 256) : row v (ix2 u q) = v (ix1 q) := by
  unfold row
  exact broadcastInDim_apply ![1] bcast_S256_S1x256_1 v (ix2 u q) (ix1 q) (fun a => by
    match a with
    | ⟨0, _⟩ => rfl)

/-- Reshaping a vector to one row is laying it along axis 1. -/
theorem reshape_row (v : FVec Ideal S256 .f32) (h : S256.ShapeCasts S1x256) : shapeCast S1x256 v h = row v := by
  funext i
  obtain ⟨u, q, rfl⟩ : ∃ (u : Fin 1) (q : Fin 256), i = ix2 u q := ⟨i 0, i 1, eq_ix2 i⟩
  exact (shapeCast_a_1a_apply v h u q).trans (row_apply v u q).symm

/-- The same for the 32 output columns. -/
theorem reshape_row32 (v : FVec Ideal S32 .f32) (h : S32.ShapeCasts S1x32) : shapeCast S1x32 v h = row32 v := by
  funext i
  obtain ⟨u, q, rfl⟩ : ∃ (u : Fin 1) (q : Fin 32), i = ix2 u q := ⟨i 0, i 1, eq_ix2 i⟩
  refine (shapeCast_a_1a_apply v h u q).trans (Eq.symm ?_)
  unfold row32
  exact broadcastInDim_apply ![1] bcast_S32_S1x32_1 v (ix2 u q) (ix1 q) (fun a => by
    match a with
    | ⟨0, _⟩ => rfl)

/-- A one-row matrix laid down the 50000 rows, read at an entry. -/
theorem rows_apply (b : FVec Ideal S1x256 .f32) (p : Fin 50000) (q : Fin 256) : rows b (ix2 p q) = b (ix2 (0 : Fin 1) q) := by
  unfold rows
  exact broadcastInDim_oneRow_apply _ b p q

/-- The square of an extended real is nonnegative. -/
theorem square_nonneg (x : EReal) : 0 ≤ x * x := by
  induction x using EReal.rec with
  | bot => simp
  | top => simp
  | coe r => rw [← EReal.coe_mul]; exact EReal.coe_nonneg.mpr (_root_.mul_self_nonneg r)

/-- The divisor of the means, 50000, is a positive real. -/
theorem ofBits_50000 : Ideal.ofBits .f32 0x47435000#32 = ((50000 : ℝ) : EReal) := by
  simp [Ideal.ofBits, Ideal.ieee, -EReal.coe_mul]; norm_num

/-- A column variance is nonnegative. -/
theorem var_nonneg (h : FVec Ideal S50000x256 .f32) (j : S256.Idx) : 0 ≤ var h j := by
  have hred : S50000x256.Reduces [0] S256 := by decide
  show 0 ≤ Ideal.div (Ideal.hostReduceAdd reducesTo_S50000x256_S256_d0 (mulf (centered h) (centered h)) (Ideal.ofBits .f32 0x00000000#32) j)
    (broadcastInDim S256 ![] bcast_S_S256 (constant (F := Ideal) S_ .f32 0x47435000#32) j)
  rw [Ideal.hostReduceAdd_single reducesTo_S50000x256_S256_d0 hred, Ideal.ofBits_zero_f32, zero_add,
    broadcastInDim_scalar_apply]
  show 0 ≤ Ideal.div _ (Ideal.ofBits .f32 0x47435000#32)
  rw [ofBits_50000, Ideal.div_coe (by norm_num : (50000 : ℝ) ≠ 0)]
  refine mul_nonneg (Finset.sum_nonneg fun k _ => square_nonneg _) ?_
  exact EReal.coe_nonneg.mpr (by norm_num)

/-- Clamping a variance at zero changes nothing. -/
theorem clamp_var (h : FVec Ideal S50000x256 .f32) :
    maximumf (var h) (broadcastInDim S256 ![] bcast_S_S256 (constant (F := Ideal) S_ .f32 0x00000000#32)) = var h := by
  funext j
  show max (var h j) (broadcastInDim S256 ![] bcast_S_S256 (constant (F := Ideal) S_ .f32 0x00000000#32) j) = var h j
  rw [broadcastInDim_scalar_apply]
  show max (var h j) (Ideal.ofBits .f32 0x00000000#32) = var h j
  rw [Ideal.ofBits_zero_f32]
  exact max_eq_left (var_nonneg h j)

/-- The kernel call's normalisation with the reference's statistics is the reference's normalisation. -/
theorem bnWith_eq (h : FVec Ideal S50000x256 .f32) (g b : FVec Ideal S256 .f32) :
    bnWith h (row g) (row b) (row (mean h)) (row (var h)) = bn h g b := by
  funext i
  obtain ⟨p, q, rfl⟩ : ∃ (p : Fin 50000) (q : Fin 256), i = ix2 p q := ⟨i 0, i 1, eq_ix2 i⟩
  show max ((((h (ix2 p q) - rows (row (mean h)) (ix2 p q)) * rows (Host.rsqrt (addf (row (var h)) (row eps))) (ix2 p q)) * rows (row g) (ix2 p q)) + rows (row b) (ix2 p q)) (zeros (ix2 p q))
    = max (((rows (row g) (ix2 p q) * (h (ix2 p q) - rows (row (mean h)) (ix2 p q))) * rows (row (Host.rsqrt (addf (var h) eps))) (ix2 p q)) + rows (row b) (ix2 p q)) (zeros (ix2 p q))
  have e : rows (Host.rsqrt (addf (row (var h)) (row eps))) (ix2 p q) = rows (row (Host.rsqrt (addf (var h) eps))) (ix2 p q) := by
    rw [rows_apply, rows_apply, row_apply]
    show Ideal.rsqrt (row (var h) (ix2 0 q) + row eps (ix2 0 q)) = Ideal.rsqrt (var h (ix1 q) + eps (ix1 q))
    rw [row_apply, row_apply]
  rw [e, mul_comm (rows (row g) (ix2 p q)) _, mul_right_comm]

end Cert.BnAlgebra

end
-- ==== Proof.HeadRegion.lean ====
/-
  The final region: the head of the network on whole arrays.

  The region's grid has one point and every window's block is its whole array, so the output array after the
  region is the body's payload of the input arrays. The payload is the head spelled with the vector operations:
  four matrix products into zero accumulators, each followed by a bias row laid along the rows, three clamps at
  zero, one concatenation along the columns, and tanh(x)/2 + 1/2. At the exact values each of these is the host
  operation of the same name, so the payload is the reference's head.
-/
import proofs.«101660_j22883585753798_2_alg».proof.Proof.Gen.KernelIdeal.Frame
import proofs.«101660_j22883585753798_2_alg».proof.Proof.Gen.ReferenceIdeal
import proofs.«101660_j22883585753798_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.HeadRegion

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The vector operations as the host operations -/

/-- A one-row matrix laid along each of `a` rows: the vector broadcast of the row is the broadcast in
    dimensions (0, 1) of it. -/
theorem rowBroadcast_eq {a b : ℕ} {α : Type} (v : (⟨2, ![1, b]⟩ : Shape).Idx → α)
    (hs : (⟨2, ![1, b]⟩ : Shape).ShapeCasts ⟨2, ![1, b]⟩)
    (hb : (⟨2, ![1, b]⟩ : Shape).Broadcasts ⟨2, ![a, b]⟩)
    (hd : (⟨2, ![1, b]⟩ : Shape).BroadcastsInDim ⟨2, ![a, b]⟩ ![0, 1]) :
    broadcastTo ⟨2, ![a, b]⟩ (shapeCast ⟨2, ![1, b]⟩ v hs) hb = broadcastInDim ⟨2, ![a, b]⟩ ![0, 1] hd v := by
  rw [shapeCast_self]
  funext j
  rw [eq_ix2 j]
  exact (broadcastTo_1b_ab_apply v hb (j 0) (j 1)).trans (broadcastInDim_oneRow_apply hd v (j 0) (j 1)).symm

/-- A matrix product of the operands cut to 16 bits (no cut at the exact values) into the zero accumulator is the
    host's product of the operands. -/
theorem product_eq {sl sr so : Shape} (d : DotDims sl sr so) (A : FVec Ideal sl .f32) (W : FVec Ideal sr .f32)
    (hA hW : FTy.bf16.bits < FTy.f32.bits) :
    matmul d none (truncf .bf16 A hA) (truncf .bf16 W hW) (constant so .f32 0x00000000#32) = Host.dotGeneral d none A W := by
  refine (matmul_zero_eq_dotGeneral d none _ _).trans ?_
  funext j
  show FloatOps.dotGeneral d none _ (truncf .bf16 A hA) (truncf .bf16 W hW) j = FloatOps.dotGeneral d none _ A W j
  rw [Ideal.dotGeneral_apply, Ideal.dotGeneral_apply]
  rfl

/-- One layer with a clamp: the product, the bias row along the rows, the maximum with zero; the left operand is
    given up to an equation. -/
theorem layer_eq {sl sr s0 : Shape} {m n : ℕ} (d : DotDims sl sr ⟨2, ![m, n]⟩) (A A' : FVec Ideal sl .f32) (hAA : A = A')
    (W : FVec Ideal sr .f32) (b : FVec Ideal ⟨2, ![1, n]⟩ .f32) (hA hW : FTy.bf16.bits < FTy.f32.bits)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1])
    (dims : Fin s0.rank → Fin (⟨2, ![m, n]⟩ : Shape).rank) (hz : s0.BroadcastsInDim ⟨2, ![m, n]⟩ dims) :
    maximumf (addf (matmul d none (truncf .bf16 A hA) (truncf .bf16 W hW) (constant ⟨2, ![m, n]⟩ .f32 0x00000000#32))
        (broadcastTo ⟨2, ![m, n]⟩ (shapeCast ⟨2, ![1, n]⟩ b hs) hb))
      (broadcast ⟨2, ![m, n]⟩ (Scalar.ofBits (F := Ideal) .f32 0x00000000#32))
    = maximumf (addf (Host.dotGeneral d none A' W) (broadcastInDim ⟨2, ![m, n]⟩ ![0, 1] hd b))
        (broadcastInDim ⟨2, ![m, n]⟩ dims hz (constant (F := Ideal) s0 .f32 0x00000000#32)) := by
  subst hAA
  rw [product_eq, rowBroadcast_eq b hs hb hd, broadcastInDim_constant]

/-- The last layer: the product, the bias row, then tanh(x)·c + c with the splat constant c. -/
theorem last_eq {sl sr s0 : Shape} {m n : ℕ} (d : DotDims sl sr ⟨2, ![m, n]⟩) (A A' : FVec Ideal sl .f32) (hAA : A = A')
    (W : FVec Ideal sr .f32) (b : FVec Ideal ⟨2, ![1, n]⟩ .f32) (hA hW : FTy.bf16.bits < FTy.f32.bits)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1])
    (dims : Fin s0.rank → Fin (⟨2, ![m, n]⟩ : Shape).rank) (hz : s0.BroadcastsInDim ⟨2, ![m, n]⟩ dims)
    (k : BitVec FTy.f32.bits) :
    addf (mulf (tanh (addf (matmul d none (truncf .bf16 A hA) (truncf .bf16 W hW) (constant ⟨2, ![m, n]⟩ .f32 0x00000000#32))
        (broadcastTo ⟨2, ![m, n]⟩ (shapeCast ⟨2, ![1, n]⟩ b hs) hb)))
        (broadcast ⟨2, ![m, n]⟩ (Scalar.ofBits (F := Ideal) .f32 k)))
      (broadcast ⟨2, ![m, n]⟩ (Scalar.ofBits (F := Ideal) .f32 k))
    = addf (mulf (Host.tanh (addf (Host.dotGeneral d none A' W) (broadcastInDim ⟨2, ![m, n]⟩ ![0, 1] hd b)))
        (broadcastInDim ⟨2, ![m, n]⟩ dims hz (constant (F := Ideal) s0 .f32 k)))
      (broadcastInDim ⟨2, ![m, n]⟩ dims hz (constant (F := Ideal) s0 .f32 k)) := by
  subst hAA
  rw [product_eq, rowBroadcast_eq b hs hb hd, broadcastInDim_constant]
  rfl

/-- Two pieces side by side, each given up to an equation. -/
theorem concat_eq {α : Type} {t s₁ s₂ : Shape} (a : Fin t.rank) (u u' : s₁.Idx → α) (v v' : s₂.Idx → α)
    (hu : u = u') (hv : v = v') (h h' : Shape.Concatenates [s₁, s₂] t a) :
    concatenate t a [⟨s₁, u⟩, ⟨s₂, v⟩] h = concatenate t a [⟨s₁, u'⟩, ⟨s₂, v'⟩] h' := by
  subst hu hv; rfl

/-! ## The payload on whole arrays is the head -/

/-- The body's payload of the ten whole arrays is the head of them. -/
theorem payload_eq (x0 : Vec Ideal S128x256 .f32) (x1 : Vec Ideal S128x9 .f32) (x2 : Vec Ideal S9x256 .f32) (x3 : Vec Ideal S1x256 .f32)
    (x4 : Vec Ideal S256x256 .f32) (x5 : Vec Ideal S1x256 .f32) (x6 : Vec Ideal S512x256 .f32) (x7 : Vec Ideal S1x256 .f32)
    (x8 : Vec Ideal S256x32 .f32) (x9 : Vec Ideal S1x32 .f32) :
    k6_pay1 (k6_pay2 x1 x2 x3 x4 x5 x0 x6 x7) x8 x9 = Cert.Spec.head x0 x1 x2 x3 x4 x5 x6 x7 x8 x9 := by
  unfold k6_pay1 k6_pay2 Cert.Spec.head
  dsimp only
  refine last_eq _ _ _ ?_ x8 x9 _ _ _ _ _ _ _ _
  refine layer_eq _ _ _ ?_ x6 x7 _ _ _ _ _ _ _
  refine concat_eq _ _ _ _ _ (shapeCast_self x0 _) ?_ _ _
  refine layer_eq _ _ _ ?_ x4 x5 _ _ _ _ _ _ _
  exact layer_eq _ _ _ (shapeCast_self x1 _) x2 x3 _ _ _ _ _ _ _

/-! ## The one grid point: every block is its whole array -/

variable (V : (c : Dev nD) → (b : Ref sig .tc) → Buf (Elt Ideal) ((c : Thread nD τ).loc b))

theorem hz : (![0, 0] : Fin 2 → Nat) = fun _ => 0 := funext fun a => by fin_cases a <;> rfl

/-- Every window's block index is zero on both axes, at every point of the grid. -/
theorem idx_facts : ∀ t : Fin cfg6.N, (∀ a : Fin 2, win6_0.index t a = 0)
    ∧ (∀ a : Fin 2, win6_1.index t a = 0)
    ∧ (∀ a : Fin 2, win6_2.index t a = 0)
    ∧ (∀ a : Fin 2, win6_3.index t a = 0)
    ∧ (∀ a : Fin 2, win6_4.index t a = 0)
    ∧ (∀ a : Fin 2, win6_5.index t a = 0)
    ∧ (∀ a : Fin 2, win6_6.index t a = 0)
    ∧ (∀ a : Fin 2, win6_7.index t a = 0)
    ∧ (∀ a : Fin 2, win6_8.index t a = 0)
    ∧ (∀ a : Fin 2, win6_9.index t a = 0)
    ∧ (∀ a : Fin 2, win6_10.index t a = 0) :=
  (by decide +kernel : ∀ t : Fin grid6.N, _)

/-- Window 0's block is its whole array. -/
theorem block0 (c : Dev nD) (t : Fin cfg6.N) : (iblk6 V c 0 t : Vec Ideal S128x256 .f32) = V c main_v111 := by
  funext j
  show V c main_v111 (((cfg6.win 0).blk t).view.emb j) = V c main_v111 j
  refine congrArg _ (funext fun a => Fin.ext ?_)
  have e := (idx_facts t).1
  match a with
  | ⟨0, _⟩ => show win6_0.index t (0 : Fin 2) * 128 + 1 * (j 0).val = (j 0).val; rw [e 0]; omega
  | ⟨1, _⟩ => show win6_0.index t (1 : Fin 2) * 256 + 1 * (j 1).val = (j 1).val; rw [e 1]; omega

/-- Window 1's block is its whole array. -/
theorem block1 (c : Dev nD) (t : Fin cfg6.N) : (iblk6 V c 1 t : Vec Ideal S128x9 .f32) = V c main_v112 := by
  funext j
  show V c main_v112 (((cfg6.win 1).blk t).view.emb j) = V c main_v112 j
  refine congrArg _ (funext fun a => Fin.ext ?_)
  have e := (idx_facts t).2.1
  match a with
  | ⟨0, _⟩ => show win6_1.index t (0 : Fin 2) * 128 + 1 * (j 0).val = (j 0).val; rw [e 0]; omega
  | ⟨1, _⟩ => show win6_1.index t (1 : Fin 2) * 9 + 1 * (j 1).val = (j 1).val; rw [e 1]; omega

/-- Window 2's block is its whole array. -/
theorem block2 (c : Dev nD) (t : Fin cfg6.N) : (iblk6 V c 2 t : Vec Ideal S9x256 .f32) = V c main_arg22 := by
  funext j
  show V c main_arg22 (((cfg6.win 2).blk t).view.emb j) = V c main_arg22 j
  refine congrArg _ (funext fun a => Fin.ext ?_)
  have e := (idx_facts t).2.2.1
  match a with
  | ⟨0, _⟩ => show win6_2.index t (0 : Fin 2) * 9 + 1 * (j 0).val = (j 0).val; rw [e 0]; omega
  | ⟨1, _⟩ => show win6_2.index t (1 : Fin 2) * 256 + 1 * (j 1).val = (j 1).val; rw [e 1]; omega

/-- Window 3's block is its whole array. -/
theorem block3 (c : Dev nD) (t : Fin cfg6.N) : (iblk6 V c 3 t : Vec Ideal S1x256 .f32) = V c main_v113 := by
  funext j
  show V c main_v113 (((cfg6.win 3).blk t).view.emb j) = V c main_v113 j
  refine congrArg _ (funext fun a => Fin.ext ?_)
  have e := (idx_facts t).2.2.2.1
  match a with
  | ⟨0, _⟩ => show win6_3.index t (0 : Fin 2) * 1 + 1 * (j 0).val = (j 0).val; rw [e 0]; omega
  | ⟨1, _⟩ => show win6_3.index t (1 : Fin 2) * 256 + 1 * (j 1).val = (j 1).val; rw [e 1]; omega

/-- Window 4's block is its whole array. -/
theorem block4 (c : Dev nD) (t : Fin cfg6.N) : (iblk6 V c 4 t : Vec Ideal S256x256 .f32) = V c main_arg24 := by
  funext j
  show V c main_arg24 (((cfg6.win 4).blk t).view.emb j) = V c main_arg24 j
  refine congrArg _ (funext fun a => Fin.ext ?_)
  have e := (idx_facts t).2.2.2.2.1
  match a with
  | ⟨0, _⟩ => show win6_4.index t (0 : Fin 2) * 256 + 1 * (j 0).val = (j 0).val; rw [e 0]; omega
  | ⟨1, _⟩ => show win6_4.index t (1 : Fin 2) * 256 + 1 * (j 1).val = (j 1).val; rw [e 1]; omega

/-- Window 5's block is its whole array. -/
theorem block5 (c : Dev nD) (t : Fin cfg6.N) : (iblk6 V c 5 t : Vec Ideal S1x256 .f32) = V c main_v114 := by
  funext j
  show V c main_v114 (((cfg6.win 5).blk t).view.emb j) = V c main_v114 j
  refine congrArg _ (funext fun a => Fin.ext ?_)
  have e := (idx_facts t).2.2.2.2.2.1
  match a with
  | ⟨0, _⟩ => show win6_5.index t (0 : Fin 2) * 1 + 1 * (j 0).val = (j 0).val; rw [e 0]; omega
  | ⟨1, _⟩ => show win6_5.index t (1 : Fin 2) * 256 + 1 * (j 1).val = (j 1).val; rw [e 1]; omega

/-- Window 6's block is its whole array. -/
theorem block6 (c : Dev nD) (t : Fin cfg6.N) : (iblk6 V c 6 t : Vec Ideal S512x256 .f32) = V c main_arg26 := by
  funext j
  show V c main_arg26 (((cfg6.win 6).blk t).view.emb j) = V c main_arg26 j
  refine congrArg _ (funext fun a => Fin.ext ?_)
  have e := (idx_facts t).2.2.2.2.2.2.1
  match a with
  | ⟨0, _⟩ => show win6_6.index t (0 : Fin 2) * 512 + 1 * (j 0).val = (j 0).val; rw [e 0]; omega
  | ⟨1, _⟩ => show win6_6.index t (1 : Fin 2) * 256 + 1 * (j 1).val = (j 1).val; rw [e 1]; omega

/-- Window 7's block is its whole array. -/
theorem block7 (c : Dev nD) (t : Fin cfg6.N) : (iblk6 V c 7 t : Vec Ideal S1x256 .f32) = V c main_v115 := by
  funext j
  show V c main_v115 (((cfg6.win 7).blk t).view.emb j) = V c main_v115 j
  refine congrArg _ (funext fun a => Fin.ext ?_)
  have e := (idx_facts t).2.2.2.2.2.2.2.1
  match a with
  | ⟨0, _⟩ => show win6_7.index t (0 : Fin 2) * 1 + 1 * (j 0).val = (j 0).val; rw [e 0]; omega
  | ⟨1, _⟩ => show win6_7.index t (1 : Fin 2) * 256 + 1 * (j 1).val = (j 1).val; rw [e 1]; omega

/-- Window 8's block is its whole array. -/
theorem block8 (c : Dev nD) (t : Fin cfg6.N) : (iblk6 V c 8 t : Vec Ideal S256x32 .f32) = V c main_arg28 := by
  funext j
  show V c main_arg28 (((cfg6.win 8).blk t).view.emb j) = V c main_arg28 j
  refine congrArg _ (funext fun a => Fin.ext ?_)
  have e := (idx_facts t).2.2.2.2.2.2.2.2.1
  match a with
  | ⟨0, _⟩ => show win6_8.index t (0 : Fin 2) * 256 + 1 * (j 0).val = (j 0).val; rw [e 0]; omega
  | ⟨1, _⟩ => show win6_8.index t (1 : Fin 2) * 32 + 1 * (j 1).val = (j 1).val; rw [e 1]; omega

/-- Window 9's block is its whole array. -/
theorem block9 (c : Dev nD) (t : Fin cfg6.N) : (iblk6 V c 9 t : Vec Ideal S1x32 .f32) = V c main_v116 := by
  funext j
  show V c main_v116 (((cfg6.win 9).blk t).view.emb j) = V c main_v116 j
  refine congrArg _ (funext fun a => Fin.ext ?_)
  have e := (idx_facts t).2.2.2.2.2.2.2.2.2.1
  match a with
  | ⟨0, _⟩ => show win6_9.index t (0 : Fin 2) * 1 + 1 * (j 0).val = (j 0).val; rw [e 0]; omega
  | ⟨1, _⟩ => show win6_9.index t (1 : Fin 2) * 32 + 1 * (j 1).val = (j 1).val; rw [e 1]; omega

/-- The output window's block is the whole output array: reading an array through it is the array. -/
theorem read_block10 (t : Fin cfg6.N) (G : Vec Ideal S128x32 .f32) :
    (cfg6.win 10).cut (grid6.coords t) G = ((cfg6.win 10).blk t).view.read (Elt Ideal) G := by
  funext j
  show G ((cfg6.win 10).xinj (grid6.coords t) j) = G (((cfg6.win 10).blk t).view.emb j)
  refine congrArg _ (funext fun a => Fin.ext ?_)
  have e := (idx_facts t).2.2.2.2.2.2.2.2.2.2
  match a with
  | ⟨0, _⟩ => show (j 0).val = win6_10.index t (0 : Fin 2) * 128 + 1 * (j 0).val; rw [e 0]; omega
  | ⟨1, _⟩ => show (j 1).val = win6_10.index t (1 : Fin 2) * 32 + 1 * (j 1).val; rw [e 1]; omega

/-! ## The output array after the region -/

/-- What the one point writes back is the head of the arrays the region finds, read through the output's block. -/
theorem flushed_eq (c : Dev nD) (t : Fin cfg6.N) :
    (dat6 V c).flushed 10 t = ((cfg6.win 10).blk t).view.read (Elt Ideal)
      (Cert.Spec.head (V c main_v111) (V c main_v112) (V c main_arg22) (V c main_v113) (V c main_arg24) (V c main_v114)
        (V c main_arg26) (V c main_v115) (V c main_arg28) (V c main_v116)) := by
  show (cfg6.win 10).cut (grid6.coords t) ((dat6 V c).after 10 t) = _
  rw [after6_10]
  unfold out6_10
  rw [View.canon_unit_zero hz]
  simp only [View.ld_unit_zero (S := S128x9) hz, View.ld_unit_zero (S := S9x256) hz, View.ld_unit_zero (S := S1x256) hz,
    View.ld_unit_zero (S := S256x256) hz, View.ld_unit_zero (S := S128x256) hz, View.ld_unit_zero (S := S512x256) hz,
    View.ld_unit_zero (S := S256x32) hz, View.ld_unit_zero (S := S1x32) hz]
  rw [block0 V c t, block1 V c t, block2 V c t, block3 V c t, block4 V c t, block5 V c t, block6 V c t, block7 V c t,
    block8 V c t, block9 V c t, payload_eq]
  exact read_block10 t _

/-- Every index of the output array is in the one point's block. -/
theorem cover (c : Dev nD) (i : ((cfg6.win 10).arr.view.loc (c.tc : Thread nD τ)).2.ty.Idx) :
    ∃ t : Fin cfg6.N, (cfg6.win 10).flush t = true ∧ i ∈ ((cfg6.win 10).blk t).view.set := by
  refine ⟨t6_0, flush6_10 t6_0, ?_⟩
  show i ∈ ((View.whole main_v117).slice (win6_10.rect t6_0)).set
  rw [View.set_slice_whole, Rect.mem_set_unit]
  have e := (idx_facts t6_0).2.2.2.2.2.2.2.2.2.2
  intro a
  match a with
  | ⟨0, _⟩ =>
    show win6_10.index t6_0 (0 : Fin 2) * 128 ≤ (i 0).val ∧ (i 0).val < win6_10.index t6_0 (0 : Fin 2) * 128 + 128
    rw [e 0]; have := (i 0).isLt; have h : (i 0).val < 128 := this; omega
  | ⟨1, _⟩ =>
    show win6_10.index t6_0 (1 : Fin 2) * 32 ≤ (i 1).val ∧ (i 1).val < win6_10.index t6_0 (1 : Fin 2) * 32 + 32
    rw [e 1]; have := (i 1).isLt; have h : (i 1).val < 32 := this; omega

/-- THE OUTPUT ARRAY after the final region is the head of the arrays the region finds. -/
theorem arr6 (c : Dev nD) :
    (dat6 (F := Ideal) V c).arrAt 10 cfg6.N = Cert.Spec.head (V c main_v111) (V c main_v112) (V c main_arg22) (V c main_v113)
      (V c main_arg24) (V c main_v114) (V c main_arg26) (V c main_v115) (V c main_arg28) (V c main_v116) :=
  (dat6 V c).arrAt_eq_of_cover 10 _ (fun t _ => flushed_eq V c t) (cover c)

end Cert.KernelIdeal.HeadRegion

end
-- ==== Proof.MlpRegion.lean ====
/-
  A perceptron call's output array, read whole.

  The call runs over 25 blocks of 2000 rows. At a block the body adds the neighbour sums to the features, multiplies
  by the first weight matrix, adds the first bias row, clamps at zero, multiplies by the second weight matrix and adds
  the second bias row. A matrix product's entry (r, q) is a sum over the contracted axis of left entries of row r
  times right entries of column q, so row r of the block's product is row 2000·t + r of the whole arrays' product:
  the blocks of the output array are the blocks of the perceptron applied to the whole arrays.
-/
import proofs.«101660_j22883585753798_2_alg».proof.Proof.Gen.KernelIdeal.Frame
import proofs.«101660_j22883585753798_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import Idealize.ShloMosaic.Lib.IdealHost

set_option maxRecDepth 16384

noncomputable section

namespace Cert.KernelIdeal.MlpRegion

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-- A kernel product into the zero accumulator and a host product agree at a pair of entries whose contracted
    left and right entries agree one by one. -/
theorem product_entry {sl sl' sr sr' so so' : Shape} (d : DotDims sl sr so) (D : DotDims sl' sr' so')
    (e : d.contr.Idx ≃ D.contr.Idx) {φ₁ φ₂ φ₁' φ₂' : FTy}
    (a : FVec Ideal sl φ₁) (A : FVec Ideal sl' φ₁') (w : FVec Ideal sr φ₂) (W : FVec Ideal sr' φ₂') (j : so.Idx) (J : so'.Idx)
    (hl : ∀ k, (a (d.lhsIdx j k) : EReal) = A (D.lhsIdx J (e k)))
    (hr : ∀ k, (w (d.rhsIdx j k) : EReal) = W (D.rhsIdx J (e k))) :
    (matmul d none a w (constant so .f32 0x00000000#32) j : EReal) = Host.dotGeneral D none A W J := by
  show FloatOps.matmul d none a w (constant so .f32 0x00000000#32) j = FloatOps.dotGeneral D none _ A W J
  rw [Ideal.matmul_constant_zero_apply, Ideal.dotGeneral_apply]
  exact Fintype.sum_equiv e _ _ (fun k => by rw [hl k, hr k])

/-- A bias row laid down the rows of a block, read at an entry. -/
theorem bias_block (b : FVec Ideal S1x256 .f32) (r : Fin 2000) (q : Fin 256) :
    broadcastTo S2000x256 (shapeCast S1x256 b shapeCasts_S1x256_S1x256) broadcasts_S1x256_S2000x256 (ix2 r q) = b (ix2 (0 : Fin 1) q) := by
  rw [shapeCast_self]
  exact broadcastTo_1b_ab_apply b _ r q

/-- A bias row laid down the rows of the whole array, read at an entry. -/
theorem bias_whole (b : FVec Ideal S1x256 .f32) (p : Fin 50000) (q : Fin 256) :
    Cert.Spec.rows b (ix2 p q) = b (ix2 (0 : Fin 1) q) :=
  broadcastInDim_oneRow_apply _ b p q

/-- The zero matrix read at an entry. -/
theorem zeros_apply (i : S50000x256.Idx) : Cert.Spec.zeros i = Ideal.ofBits .f32 0x00000000#32 := by
  unfold Cert.Spec.zeros
  rw [broadcastInDim_scalar_apply]
  rfl

section Rows
variable (ρr : Fin 2000 → Fin 50000)

set_option maxHeartbeats 1000000 in
/-- The first layer of the 128-wide perceptron: the block's clamped product rows are the whole array's rows. -/
theorem hidden128 (x0 x1 : FVec Ideal S2000x128 .f32) (w1 : FVec Ideal S128x256 .f32) (b1 : FVec Ideal S1x256 .f32)
    (X AG : FVec Ideal S50000x128 .f32)
    (hx : ∀ (r : Fin 2000) (l : Fin 128), x0 (ix2 r l) = X (ix2 (ρr r) l))
    (hg : ∀ (r : Fin 2000) (l : Fin 128), x1 (ix2 r l) = AG (ix2 (ρr r) l)) (r : Fin 2000) (k : Fin 256) :
    (maximumf (addf (matmul dot_S2000x128_S128x256_S2000x256_1_0_0_1_n_n none
        (truncf .bf16 (addf x0 (shapeCast S2000x128 x1 shapeCasts_S2000x128_S2000x128)) bitsLt_bf16_f32)
        (truncf .bf16 w1 bitsLt_bf16_f32) (constant S2000x256 .f32 0x00000000#32))
        (broadcastTo S2000x256 (shapeCast S1x256 b1 shapeCasts_S1x256_S1x256) broadcasts_S1x256_S2000x256))
      (broadcast S2000x256 (Scalar.ofBits .f32 0x00000000#32)) : FVec Ideal S2000x256 .f32) (ix2 r k)
    = (maximumf (addf (Host.dotGeneral Cert.ReferenceIdeal.dot_S50000x128_S128x256_S50000x256_1_0_0_1_n_n none (addf X AG) w1)
        (Cert.Spec.rows b1)) Cert.Spec.zeros : FVec Ideal S50000x256 .f32) (ix2 (ρr r) k) := by
  refine ((maximumf_apply _ _ (ix2 r k)).trans ?_).trans (maximumf_apply _ _ (ix2 (ρr r) k)).symm
  refine congrArg₂ max ?_ (zeros_apply _).symm
  refine ((addf_apply _ _ (ix2 r k)).trans ?_).trans (addf_apply _ _ (ix2 (ρr r) k)).symm
  refine congrArg₂ (· + ·) ?_ ?_
  · refine product_entry dot_S2000x128_S128x256_S2000x256_1_0_0_1_n_n Cert.ReferenceIdeal.dot_S50000x128_S128x256_S50000x256_1_0_0_1_n_n
      (Equiv.refl dot_S2000x128_S128x256_S2000x256_1_0_0_1_n_n.contr.Idx) _ _ _ _ (ix2 r k) (ix2 (ρr r) k) (fun kk => ?_) (fun kk => ?_)
    · have e1 : dot_S2000x128_S128x256_S2000x256_1_0_0_1_n_n.lhsIdx (ix2 r k) kk
          = ix2 r (dot_S2000x128_S128x256_S2000x256_1_0_0_1_n_n.lhsIdx (ix2 r k) kk 1) :=
        (eq_ix2 _).trans (congrArg₂ ix2 (Fin.ext rfl) rfl)
      have e2 : Cert.ReferenceIdeal.dot_S50000x128_S128x256_S50000x256_1_0_0_1_n_n.lhsIdx (ix2 (ρr r) k) kk
          = ix2 (ρr r) (dot_S2000x128_S128x256_S2000x256_1_0_0_1_n_n.lhsIdx (ix2 r k) kk 1) :=
        (eq_ix2 _).trans (congrArg₂ ix2 (Fin.ext rfl) (Fin.ext rfl))
      rw [e1]
      show x0 (ix2 r _) + (shapeCast S2000x128 x1 shapeCasts_S2000x128_S2000x128) (ix2 r _) = (addf X AG) _
      rw [shapeCast_self x1 shapeCasts_S2000x128_S2000x128]
      have key : ∀ l : Fin 128, x0 (ix2 r l) + x1 (ix2 r l) = (addf X AG) (ix2 (ρr r) l) := fun l => by
        rw [hx, hg]; rfl
      exact (key _).trans (congrArg (addf X AG) e2).symm
    · exact congrArg w1 (funext fun a => Fin.ext (by match a with | ⟨0, _⟩ => rfl | ⟨1, _⟩ => rfl))
  · exact (bias_block b1 r k).trans (bias_whole b1 (ρr r) k).symm

set_option maxHeartbeats 1000000 in
/-- The perceptron of the first graph layer at an entry of a block: the entry of the whole arrays' perceptron in the
    block's row of the whole arrays. -/
theorem pay0_entry (x0 x1 : FVec Ideal S2000x128 .f32) (w1 : FVec Ideal S128x256 .f32) (b1 : FVec Ideal S1x256 .f32)
    (w2 : FVec Ideal S256x256 .f32) (b2 : FVec Ideal S1x256 .f32) (X AG : FVec Ideal S50000x128 .f32)
    (hx : ∀ (r : Fin 2000) (l : Fin 128), x0 (ix2 r l) = X (ix2 (ρr r) l))
    (hg : ∀ (r : Fin 2000) (l : Fin 128), x1 (ix2 r l) = AG (ix2 (ρr r) l)) (r : Fin 2000) (q : Fin 256) :
    k0_pay1 x0 x1 w1 b1 w2 b2 (ix2 r q) = Cert.Spec.mlp128 X AG w1 b1 w2 b2 (ix2 (ρr r) q) := by
  unfold k0_pay1 Cert.Spec.mlp128
  refine ((addf_apply _ _ (ix2 r q)).trans ?_).trans (addf_apply _ _ (ix2 (ρr r) q)).symm
  refine congrArg₂ (· + ·) ?_ ?_
  · refine product_entry dot_S2000x256_S256x256_S2000x256_1_0_0_1_n_n Cert.ReferenceIdeal.dot_S50000x256_S256x256_S50000x256_1_0_0_1_n_n
      (Equiv.refl dot_S2000x256_S256x256_S2000x256_1_0_0_1_n_n.contr.Idx) _ _ _ _ (ix2 r q) (ix2 (ρr r) q) (fun kk => ?_) (fun kk => ?_)
    · have e1 : dot_S2000x256_S256x256_S2000x256_1_0_0_1_n_n.lhsIdx (ix2 r q) kk
          = ix2 r (dot_S2000x256_S256x256_S2000x256_1_0_0_1_n_n.lhsIdx (ix2 r q) kk 1) :=
        (eq_ix2 _).trans (congrArg₂ ix2 (Fin.ext rfl) rfl)
      have e2 : Cert.ReferenceIdeal.dot_S50000x256_S256x256_S50000x256_1_0_0_1_n_n.lhsIdx (ix2 (ρr r) q) kk
          = ix2 (ρr r) (dot_S2000x256_S256x256_S2000x256_1_0_0_1_n_n.lhsIdx (ix2 r q) kk 1) :=
        (eq_ix2 _).trans (congrArg₂ ix2 (Fin.ext rfl) (Fin.ext rfl))
      rw [e1]
      exact (hidden128 ρr x0 x1 w1 b1 X AG hx hg r (dot_S2000x256_S256x256_S2000x256_1_0_0_1_n_n.lhsIdx (ix2 r q) kk 1)).trans
        (congrArg (maximumf (addf (Host.dotGeneral Cert.ReferenceIdeal.dot_S50000x128_S128x256_S50000x256_1_0_0_1_n_n none (addf X AG) w1)
          (Cert.Spec.rows b1)) Cert.Spec.zeros : FVec Ideal S50000x256 .f32) e2).symm
    · exact congrArg w2 (funext fun a => Fin.ext (by match a with | ⟨0, _⟩ => rfl | ⟨1, _⟩ => rfl))
  · exact (bias_block b2 r q).trans (bias_whole b2 (ρr r) q).symm

end Rows

end Cert.KernelIdeal.MlpRegion

end
-- ==== Proof.Mlp256.lean ====
/-
  The 256-wide perceptron calls, at an entry of a block.

  A call's body, at a block of 2000 rows, adds the neighbour sums to the features, multiplies by the first weight
  matrix, adds the first bias row, clamps at zero, multiplies by the second weight matrix and adds the second bias
  row. Entry (r, q) of a matrix product is the sum over the contracted axis of the left operand's row r times the
  right operand's column q. So when row r of the block's operands is row ρ r of the whole arrays, entry (r, q) of the
  block's result is entry (ρ r, q) of the perceptron of the whole arrays:
  Σ_k max(Σ_l (x + g)(ρ r, l)·w1(l, k) + b1(0, k), 0)·w2(k, q) + b2(0, q).
-/
import proofs.«101660_j22883585753798_2_alg».proof.Proof.Gen.KernelIdeal.Frame
import proofs.«101660_j22883585753798_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import Idealize.ShloMosaic.Lib.IdealHost

set_option maxRecDepth 16384

noncomputable section

namespace Cert.KernelIdeal.Mlp256

open Cert.KernelIdeal Cert.KernelIdeal.Gen
open Idealize.ShloMosaic Idealize.ShloMosaic.TcCoe Idealize.ShloMosaic.ValueIdx
open Idealize.SL.Sem

/-! ## A product's entry -/

/-- A product into the zero accumulator and a host product agree at a pair of entries whose contracted left and
    right entries agree one by one. -/
theorem matmul_entry {sl sl' sr sr' so so' : Shape} (d : DotDims sl sr so) (D : DotDims sl' sr' so')
    (e : d.contr.Idx ≃ D.contr.Idx) {φ₁ φ₂ φ₁' φ₂' : FTy}
    (a : FVec Ideal sl φ₁) (A : FVec Ideal sl' φ₁') (w : FVec Ideal sr φ₂) (W : FVec Ideal sr' φ₂') (j : so.Idx) (J : so'.Idx)
    (hl : ∀ k, (a (d.lhsIdx j k) : EReal) = A (D.lhsIdx J (e k)))
    (hr : ∀ k, (w (d.rhsIdx j k) : EReal) = W (D.rhsIdx J (e k))) :
    (matmul d none a w (constant so .f32 0x00000000#32) j : EReal) = Host.dotGeneral D none A W J := by
  show FloatOps.matmul d none a w (constant so .f32 0x00000000#32) j = FloatOps.dotGeneral D none _ A W J
  rw [Ideal.matmul_constant_zero_apply, Ideal.dotGeneral_apply]
  exact Fintype.sum_equiv e _ _ (fun k => by rw [hl k, hr k])

variable (ρr : Fin 2000 → Fin 50000)

/-- Row r of a block's product is row ρ r of the whole product, when row r of the block's left operand is row ρ r of
    the whole left operand and the right operands agree. -/
theorem product_row {φ₁ φ₁' φ₂ φ₂' : FTy} (a : FVec Ideal S2000x256 φ₁) (A : FVec Ideal S50000x256 φ₁')
    (w : FVec Ideal S256x256 φ₂) (W : FVec Ideal S256x256 φ₂') (hw : ∀ i, (w i : EReal) = W i)
    (h : ∀ (r : Fin 2000) (l : Fin 256), (a (ix2 r l) : EReal) = A (ix2 (ρr r) l)) (r : Fin 2000) (q : Fin 256) :
    (matmul dot_S2000x256_S256x256_S2000x256_1_0_0_1_n_n none a w (constant S2000x256 .f32 0x00000000#32) (ix2 r q) : EReal)
      = Host.dotGeneral Cert.ReferenceIdeal.dot_S50000x256_S256x256_S50000x256_1_0_0_1_n_n none A W (ix2 (ρr r) q) := by
  refine matmul_entry dot_S2000x256_S256x256_S2000x256_1_0_0_1_n_n
    Cert.ReferenceIdeal.dot_S50000x256_S256x256_S50000x256_1_0_0_1_n_n (Equiv.refl _) a A w W _ _ (fun kk => ?_) (fun kk => ?_)
  · have e1 : dot_S2000x256_S256x256_S2000x256_1_0_0_1_n_n.lhsIdx (ix2 r q) kk
        = ix2 r (dot_S2000x256_S256x256_S2000x256_1_0_0_1_n_n.lhsIdx (ix2 r q) kk 1) :=
      (eq_ix2 _).trans (congrArg₂ ix2 (Fin.ext rfl) rfl)
    have e2 : Cert.ReferenceIdeal.dot_S50000x256_S256x256_S50000x256_1_0_0_1_n_n.lhsIdx (ix2 (ρr r) q) kk
        = ix2 (ρr r) (dot_S2000x256_S256x256_S2000x256_1_0_0_1_n_n.lhsIdx (ix2 r q) kk 1) :=
      (eq_ix2 _).trans (congrArg₂ ix2 (Fin.ext rfl) (Fin.ext rfl))
    rw [e1]
    exact (h r _).trans (congrArg A e2).symm
  · refine (hw _).trans (congrArg W (funext fun a => Fin.ext ?_))
    match a with
    | ⟨0, _⟩ => rfl
    | ⟨1, _⟩ => rfl

/-! ## The rows of biases and the zero matrix, at an entry -/

/-- A bias row laid down the rows of a block, read at an entry. -/
theorem biasBlock_apply (b : FVec Ideal S1x256 .f32) (hs : S1x256.ShapeCasts S1x256) (hb : S1x256.Broadcasts S2000x256)
    (r : Fin 2000) (q : Fin 256) :
    broadcastTo S2000x256 (shapeCast S1x256 b hs) hb (ix2 r q) = b (ix2 (0 : Fin 1) q) := by
  rw [shapeCast_self]
  exact broadcastTo_1b_ab_apply b _ r q

/-- A bias row laid down the rows of the whole array, read at an entry. -/
theorem biasRows_apply (b : FVec Ideal S1x256 .f32) (p : Fin 50000) (q : Fin 256) :
    Cert.Spec.rows b (ix2 p q) = b (ix2 (0 : Fin 1) q) :=
  broadcastInDim_oneRow_apply _ b p q

/-- The zero matrix read at an entry. -/
theorem zeros_entry (i : S50000x256.Idx) : Cert.Spec.zeros i = Ideal.ofBits .f32 0x00000000#32 := by
  unfold Cert.Spec.zeros
  rw [broadcastInDim_scalar_apply]
  rfl

/-! ## One layer, at an entry -/

/-- A product with its bias row: entry (r, q) at the block is entry (ρ r, q) at the whole arrays. -/
theorem layer_entry (a : FVec Ideal S2000x256 .f32) (A : FVec Ideal S50000x256 .f32) (w : FVec Ideal S256x256 .f32)
    (b : FVec Ideal S1x256 .f32) (hA hW : FTy.bf16.bits < FTy.f32.bits) (hs : S1x256.ShapeCasts S1x256)
    (hb : S1x256.Broadcasts S2000x256)
    (h : ∀ (r : Fin 2000) (l : Fin 256), a (ix2 r l) = A (ix2 (ρr r) l)) (r : Fin 2000) (q : Fin 256) :
    addf (matmul dot_S2000x256_S256x256_S2000x256_1_0_0_1_n_n none (truncf .bf16 a hA) (truncf .bf16 w hW)
        (constant S2000x256 .f32 0x00000000#32)) (broadcastTo S2000x256 (shapeCast S1x256 b hs) hb) (ix2 r q)
      = addf (Host.dotGeneral Cert.ReferenceIdeal.dot_S50000x256_S256x256_S50000x256_1_0_0_1_n_n none A w)
          (Cert.Spec.rows b) (ix2 (ρr r) q) := by
  refine ((addf_apply _ _ (ix2 r q)).trans ?_).trans (addf_apply _ _ (ix2 (ρr r) q)).symm
  exact congrArg₂ (· + ·) (product_row ρr (truncf .bf16 a hA) A (truncf .bf16 w hW) w (fun _ => rfl) h r q)
    ((biasBlock_apply b hs hb r q).trans (biasRows_apply b (ρr r) q).symm)

/-- The clamp at zero, at an entry. -/
theorem clamp_entry (u : FVec Ideal S2000x256 .f32) (U : FVec Ideal S50000x256 .f32) (r : Fin 2000) (q : Fin 256)
    (h : u (ix2 r q) = U (ix2 (ρr r) q)) :
    maximumf u (broadcast S2000x256 (Scalar.ofBits (F := Ideal) .f32 0x00000000#32)) (ix2 r q)
      = maximumf U Cert.Spec.zeros (ix2 (ρr r) q) := by
  refine ((maximumf_apply _ _ (ix2 r q)).trans ?_).trans (maximumf_apply _ _ (ix2 (ρr r) q)).symm
  exact congrArg₂ max h (zeros_entry _).symm

/-- The features plus the neighbour sums, at an entry. -/
theorem sum_entry (x0 x1 : FVec Ideal S2000x256 .f32) (X AG : FVec Ideal S50000x256 .f32) (hs : S2000x256.ShapeCasts S2000x256)
    (hx : ∀ (r : Fin 2000) (l : Fin 256), x0 (ix2 r l) = X (ix2 (ρr r) l))
    (hg : ∀ (r : Fin 2000) (l : Fin 256), x1 (ix2 r l) = AG (ix2 (ρr r) l)) (r : Fin 2000) (l : Fin 256) :
    addf (shapeCast S2000x256 x0 hs) (shapeCast S2000x256 x1 hs) (ix2 r l) = addf X AG (ix2 (ρr r) l) := by
  rw [shapeCast_self, shapeCast_self]
  exact congrArg₂ (· + ·) (hx r l) (hg r l)

/-! ## The whole body, at an entry -/

/-- The two layers composed: entry (r, q) of the block's result is entry (ρ r, q) of the perceptron of the whole
    arrays. -/
theorem mlp_entry (x0 x1 : FVec Ideal S2000x256 .f32) (w1 : FVec Ideal S256x256 .f32) (b1 : FVec Ideal S1x256 .f32)
    (w2 : FVec Ideal S256x256 .f32) (b2 : FVec Ideal S1x256 .f32) (X AG : FVec Ideal S50000x256 .f32)
    (hlt : FTy.bf16.bits < FTy.f32.bits) (hs0 : S2000x256.ShapeCasts S2000x256) (hs1 : S1x256.ShapeCasts S1x256)
    (hb : S1x256.Broadcasts S2000x256)
    (hx : ∀ (r : Fin 2000) (l : Fin 256), x0 (ix2 r l) = X (ix2 (ρr r) l))
    (hg : ∀ (r : Fin 2000) (l : Fin 256), x1 (ix2 r l) = AG (ix2 (ρr r) l)) (r : Fin 2000) (q : Fin 256) :
    addf (matmul dot_S2000x256_S256x256_S2000x256_1_0_0_1_n_n none
        (truncf .bf16 (maximumf (addf (matmul dot_S2000x256_S256x256_S2000x256_1_0_0_1_n_n none
            (truncf .bf16 (addf (shapeCast S2000x256 x0 hs0) (shapeCast S2000x256 x1 hs0)) hlt) (truncf .bf16 w1 hlt)
            (constant S2000x256 .f32 0x00000000#32)) (broadcastTo S2000x256 (shapeCast S1x256 b1 hs1) hb))
          (broadcast S2000x256 (Scalar.ofBits (F := Ideal) .f32 0x00000000#32))) hlt)
        (truncf .bf16 w2 hlt) (constant S2000x256 .f32 0x00000000#32))
      (broadcastTo S2000x256 (shapeCast S1x256 b2 hs1) hb) (ix2 r q)
      = Cert.Spec.mlp256 X AG w1 b1 w2 b2 (ix2 (ρr r) q) := by
  unfold Cert.Spec.mlp256
  exact layer_entry ρr _ _ w2 b2 hlt hlt hs1 hb
    (fun r k => clamp_entry ρr _ _ r k
      (layer_entry ρr _ _ w1 b1 hlt hlt hs1 hb (sum_entry ρr x0 x1 X AG hs0 hx hg) r k)) r q

/-- The second region's payload at an entry. -/
theorem pay2_entry (x0 x1 : FVec Ideal S2000x256 .f32) (w1 : FVec Ideal S256x256 .f32) (b1 : FVec Ideal S1x256 .f32)
    (w2 : FVec Ideal S256x256 .f32) (b2 : FVec Ideal S1x256 .f32) (X AG : FVec Ideal S50000x256 .f32)
    (hx : ∀ (r : Fin 2000) (l : Fin 256), x0 (ix2 r l) = X (ix2 (ρr r) l))
    (hg : ∀ (r : Fin 2000) (l : Fin 256), x1 (ix2 r l) = AG (ix2 (ρr r) l)) (r : Fin 2000) (q : Fin 256) :
    Gen.k2_pay1 x0 x1 w1 b1 w2 b2 (ix2 r q) = Cert.Spec.mlp256 X AG w1 b1 w2 b2 (ix2 (ρr r) q) :=
  mlp_entry ρr x0 x1 w1 b1 w2 b2 X AG _ _ _ _ hx hg r q

/-- The fourth region's payload at an entry. -/
theorem pay4_entry (x0 x1 : FVec Ideal S2000x256 .f32) (w1 : FVec Ideal S256x256 .f32) (b1 : FVec Ideal S1x256 .f32)
    (w2 : FVec Ideal S256x256 .f32) (b2 : FVec Ideal S1x256 .f32) (X AG : FVec Ideal S50000x256 .f32)
    (hx : ∀ (r : Fin 2000) (l : Fin 256), x0 (ix2 r l) = X (ix2 (ρr r) l))
    (hg : ∀ (r : Fin 2000) (l : Fin 256), x1 (ix2 r l) = AG (ix2 (ρr r) l)) (r : Fin 2000) (q : Fin 256) :
    Gen.k4_pay1 x0 x1 w1 b1 w2 b2 (ix2 r q) = Cert.Spec.mlp256 X AG w1 b1 w2 b2 (ix2 (ρr r) q) :=
  mlp_entry ρr x0 x1 w1 b1 w2 b2 X AG _ _ _ _ hx hg r q

end Cert.KernelIdeal.Mlp256

end
-- ==== Proof.MlpArr.lean ====
/-
  The three perceptron calls, from blocks to arrays. Each call walks the 25 blocks of 2000 rows of its two
  row-blocked operands (the node features and the neighbour sums) with the two weight matrices and the two bias
  rows whole, and writes the block of the perceptron's output for those rows. Given that a block's payload is,
  entry by entry, the specification's perceptron at the row the block's row map names, the array the call leaves
  is the specification's perceptron of the six operand arrays: the row map of point t is r ↦ 2000·t + r, and
  the 25 blocks cover the 50000 rows.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«101660_j22883585753798_2_alg».proof.Proof.Gen.KernelIdeal.Frame
import proofs.«101660_j22883585753798_2_alg».proof.Proof.Spec
import proofs.«101660_j22883585753798_2_alg».proof.Proof.MlpRegion
import proofs.«101660_j22883585753798_2_alg».proof.Proof.Mlp256

set_option maxRecDepth 16384

noncomputable section

namespace Cert.KernelIdeal.MlpArr

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.MlpRegion Cert.KernelIdeal.Mlp256

/-- The zero offsets of a whole-block access. -/
theorem hz : (![0, 0] : Fin 2 → Nat) = fun _ => 0 := funext fun a => by fin_cases a <;> rfl

/-- The row of the 50000 that row r of block k is: 2000·k + r. -/
def rowAt (k : Nat) (hk : k < 25) (r : Fin 2000) : Fin 50000 := ⟨k * 2000 + r.val, by have := r.isLt; omega⟩

variable (V : (c : Dev nD) → (b : Ref sig .tc) → Buf (Elt Ideal) ((c : Thread nD τ).loc b))

/-! ## Call 0 -/

/-- Equal weights and biases, equal payloads. -/
theorem pay0_congr {x0 x1 : Vec Ideal S2000x128 .f32} {w1 w1' : Vec Ideal S128x256 .f32} {b1 b1' : Vec Ideal S1x256 .f32}
    {w2 w2' : Vec Ideal S256x256 .f32} {b2 b2' : Vec Ideal S1x256 .f32} (e1 : w1 = w1') (e2 : b1 = b1') (e3 : w2 = w2') (e4 : b2 = b2') :
    k0_pay1 x0 x1 w1 b1 w2 b2 = k0_pay1 x0 x1 w1' b1' w2' b2' := by
  subst e1 e2 e3 e4; rfl

/-- The index maps of call 0, decided over its 25 points: the two row-blocked operands and the output are at block t
    down the rows at point t; the weights' and biases' one block stays at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the specification's perceptron of the six operand arrays. -/
theorem flushed0_eq (c : Dev nD) (t : Fin cfg0.N) :
    (dat0 (F := Ideal) V c).flushed 6 t
      = ((cfg0.win 6).blk t).view.read (Elt Ideal) (Cert.Spec.mlp128 (V c main_arg0) (V c main_v15) (V c main_arg4) (V c main_v16) (V c main_arg6) (V c main_v17)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x256) hz, View.ld_unit_zero (S := S1x256) hz,
    View.ld_unit_zero (S := S256x256) hz, View.ld_unit_zero (S := S2000x256) hz]
  obtain ⟨e0, e1, e2, e3, e4, e5, e6, e7, e8, e9, e10, e11, e12, e13⟩ := idx_facts0 t
  have ht : t.val < 25 := Nat.lt_of_lt_of_eq t.isLt N_0
  funext j
  show k0_pay1 (iblk0 V c 0 t) (iblk0 V c 1 t) (iblk0 V c 2 t) (iblk0 V c 3 t) (iblk0 V c 4 t) (iblk0 V c 5 t) j
    = Cert.Spec.mlp128 (V c main_arg0) (V c main_v15) (V c main_arg4) (V c main_v16) (V c main_arg6) (V c main_v17) (((cfg0.win 6).blk t).view.emb j)
  -- the weights' and biases' blocks are their whole arrays
  have hw2 : (iblk0 V c 2 t : FVec Ideal S128x256 .f32) = V c main_arg4 := by
    funext y
    show V c main_arg4 (((cfg0.win 2).blk t).view.emb y) = V c main_arg4 y
    refine congrArg (V c main_arg4) (funext fun a => Fin.ext ?_)
    match a with
    | ⟨0, _⟩ => show win0_2.index t (0 : Fin 2) * 128 + 1 * (y 0).val = (y 0).val; omega
    | ⟨1, _⟩ => show win0_2.index t (1 : Fin 2) * 256 + 1 * (y 1).val = (y 1).val; omega
  have hw3 : (iblk0 V c 3 t : FVec Ideal S1x256 .f32) = V c main_v16 := by
    funext y
    show V c main_v16 (((cfg0.win 3).blk t).view.emb y) = V c main_v16 y
    refine congrArg (V c main_v16) (funext fun a => Fin.ext ?_)
    match a with
    | ⟨0, _⟩ => show win0_3.index t (0 : Fin 2) * 1 + 1 * (y 0).val = (y 0).val; omega
    | ⟨1, _⟩ => show win0_3.index t (1 : Fin 2) * 256 + 1 * (y 1).val = (y 1).val; omega
  have hw4 : (iblk0 V c 4 t : FVec Ideal S256x256 .f32) = V c main_arg6 := by
    funext y
    show V c main_arg6 (((cfg0.win 4).blk t).view.emb y) = V c main_arg6 y
    refine congrArg (V c main_arg6) (funext fun a => Fin.ext ?_)
    match a with
    | ⟨0, _⟩ => show win0_4.index t (0 : Fin 2) * 256 + 1 * (y 0).val = (y 0).val; omega
    | ⟨1, _⟩ => show win0_4.index t (1 : Fin 2) * 256 + 1 * (y 1).val = (y 1).val; omega
  have hw5 : (iblk0 V c 5 t : FVec Ideal S1x256 .f32) = V c main_v17 := by
    funext y
    show V c main_v17 (((cfg0.win 5).blk t).view.emb y) = V c main_v17 y
    refine congrArg (V c main_v17) (funext fun a => Fin.ext ?_)
    match a with
    | ⟨0, _⟩ => show win0_5.index t (0 : Fin 2) * 1 + 1 * (y 0).val = (y 0).val; omega
    | ⟨1, _⟩ => show win0_5.index t (1 : Fin 2) * 256 + 1 * (y 1).val = (y 1).val; omega
  -- the row-blocked operands' blocks are the arrays' rows 2000·t + r
  have hx : ∀ (r : Fin 2000) (l : Fin 128), (iblk0 V c 0 t : FVec Ideal S2000x128 .f32) (ix2 r l) = (V c main_arg0 : FVec Ideal S50000x128 .f32) (ix2 (rowAt t.val ht r) l) := by
    intro r l
    show V c main_arg0 (((cfg0.win 0).blk t).view.emb (ix2 r l)) = V c main_arg0 (ix2 (rowAt t.val ht r) l)
    refine congrArg (V c main_arg0) (funext fun a => Fin.ext ?_)
    match a with
    | ⟨0, _⟩ => show win0_0.index t (0 : Fin 2) * 2000 + 1 * r.val = t.val * 2000 + r.val; omega
    | ⟨1, _⟩ => show win0_0.index t (1 : Fin 2) * 128 + 1 * l.val = l.val; omega
  have hg : ∀ (r : Fin 2000) (l : Fin 128), (iblk0 V c 1 t : FVec Ideal S2000x128 .f32) (ix2 r l) = (V c main_v15 : FVec Ideal S50000x128 .f32) (ix2 (rowAt t.val ht r) l) := by
    intro r l
    show V c main_v15 (((cfg0.win 1).blk t).view.emb (ix2 r l)) = V c main_v15 (ix2 (rowAt t.val ht r) l)
    refine congrArg (V c main_v15) (funext fun a => Fin.ext ?_)
    match a with
    | ⟨0, _⟩ => show win0_1.index t (0 : Fin 2) * 2000 + 1 * r.val = t.val * 2000 + r.val; omega
    | ⟨1, _⟩ => show win0_1.index t (1 : Fin 2) * 128 + 1 * l.val = l.val; omega
  -- the block entry (r, q) sits in the output array at (2000·t + r, q)
  have hj : (j : S2000x256.Idx) = ix2 (n0 := 2000) (n1 := 256) (j 0) (j 1) := eq_ix2 j
  have hi : ((cfg0.win 6).blk t).view.emb j = ix2 (n0 := 50000) (n1 := 256) (rowAt t.val ht (j 0)) (j 1) := by
    refine funext fun a => Fin.ext ?_
    match a with
    | ⟨0, _⟩ => show win0_6.index t (0 : Fin 2) * 2000 + 1 * (j 0).val = t.val * 2000 + (j 0).val; omega
    | ⟨1, _⟩ => show win0_6.index t (1 : Fin 2) * 256 + 1 * (j 1).val = (j 1).val; omega
  refine (congrFun (pay0_congr (x0 := iblk0 V c 0 t) (x1 := iblk0 V c 1 t) hw2 hw3 hw4 hw5) j).trans ?_
  refine (congrArg (k0_pay1 (iblk0 V c 0 t) (iblk0 V c 1 t) (V c main_arg4) (V c main_v16) (V c main_arg6) (V c main_v17)) hj).trans ?_
  refine Eq.trans ?_ (congrArg (Cert.Spec.mlp128 (V c main_arg0) (V c main_v15) (V c main_arg4) (V c main_v16) (V c main_arg6) (V c main_v17)) hi).symm
  exact pay0_entry (rowAt t.val ht) (iblk0 V c 0 t) (iblk0 V c 1 t) (V c main_arg4) (V c main_v16) (V c main_arg6) (V c main_v17)
    (V c main_arg0) (V c main_v15) hx hg (j 0) (j 1)

/-- An index of the output array is in point t's block iff each coordinate is in the block's range on its axis. -/
theorem mem_blk0 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v18).slice (win0_6.rect t)).set ↔ _
  rw [View.set_slice_whole, Rect.mem_set_unit]
  exact Iff.rfl

/-- Every entry of the output array lies in some point's block: row p in the block of point p / 2000. -/
theorem cover0 (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨e0, e1, e2, e3, e4, e5, e6, e7, e8, e9, e10, e11, e12, e13⟩ := idx_facts0 t
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- The array call 0 leaves is the specification's perceptron of its six operand arrays. -/
theorem arr0 (c : Dev nD) :
    (dat0 (F := Ideal) V c).arrAt 6 cfg0.N
      = Cert.Spec.mlp128 (V c main_arg0) (V c main_v15) (V c main_arg4) (V c main_v16) (V c main_arg6) (V c main_v17) :=
  (dat0 (F := Ideal) V c).arrAt_eq_of_cover 6 (Cert.Spec.mlp128 (V c main_arg0) (V c main_v15) (V c main_arg4) (V c main_v16) (V c main_arg6) (V c main_v17))
    (fun t _ => flushed0_eq V c t) (cover0)

/-! ## Call 2 -/

/-- Equal weights and biases, equal payloads. -/
theorem pay2_congr {x0 x1 : Vec Ideal S2000x256 .f32} {w1 w1' : Vec Ideal S256x256 .f32} {b1 b1' : Vec Ideal S1x256 .f32}
    {w2 w2' : Vec Ideal S256x256 .f32} {b2 b2' : Vec Ideal S1x256 .f32} (e1 : w1 = w1') (e2 : b1 = b1') (e3 : w2 = w2') (e4 : b2 = b2') :
    k2_pay1 x0 x1 w1 b1 w2 b2 = k2_pay1 x0 x1 w1' b1' w2' b2' := by
  subst e1 e2 e3 e4; rfl

/-- The index maps of call 2, decided over its 25 points: the two row-blocked operands and the output are at block t
    down the rows at point t; the weights' and biases' one block stays at the origin. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the specification's perceptron of the six operand arrays. -/
theorem flushed2_eq (c : Dev nD) (t : Fin cfg2.N) :
    (dat2 (F := Ideal) V c).flushed 6 t
      = ((cfg2.win 6).blk t).view.read (Elt Ideal) (Cert.Spec.mlp256 (V c main_v35) (V c main_v47) (V c main_arg10) (V c main_v48) (V c main_arg12) (V c main_v49)) := by
  show (cfg2.win 6).cut (grid2.coords t) ((dat2 V c).after 6 t) = _
  rw [after2_6]
  unfold out2_6
  rw [View.canon_unit_zero hz]
  simp only [View.ld_unit_zero (S := S2000x256) hz, View.ld_unit_zero (S := S256x256) hz, View.ld_unit_zero (S := S1x256) hz,
    View.ld_unit_zero (S := S256x256) hz, View.ld_unit_zero (S := S2000x256) hz]
  obtain ⟨e0, e1, e2, e3, e4, e5, e6, e7, e8, e9, e10, e11, e12, e13⟩ := idx_facts2 t
  have ht : t.val < 25 := Nat.lt_of_lt_of_eq t.isLt N_2
  funext j
  show k2_pay1 (iblk2 V c 0 t) (iblk2 V c 1 t) (iblk2 V c 2 t) (iblk2 V c 3 t) (iblk2 V c 4 t) (iblk2 V c 5 t) j
    = Cert.Spec.mlp256 (V c main_v35) (V c main_v47) (V c main_arg10) (V c main_v48) (V c main_arg12) (V c main_v49) (((cfg2.win 6).blk t).view.emb j)
  -- the weights' and biases' blocks are their whole arrays
  have hw2 : (iblk2 V c 2 t : FVec Ideal S256x256 .f32) = V c main_arg10 := by
    funext y
    show V c main_arg10 (((cfg2.win 2).blk t).view.emb y) = V c main_arg10 y
    refine congrArg (V c main_arg10) (funext fun a => Fin.ext ?_)
    match a with
    | ⟨0, _⟩ => show win2_2.index t (0 : Fin 2) * 256 + 1 * (y 0).val = (y 0).val; omega
    | ⟨1, _⟩ => show win2_2.index t (1 : Fin 2) * 256 + 1 * (y 1).val = (y 1).val; omega
  have hw3 : (iblk2 V c 3 t : FVec Ideal S1x256 .f32) = V c main_v48 := by
    funext y
    show V c main_v48 (((cfg2.win 3).blk t).view.emb y) = V c main_v48 y
    refine congrArg (V c main_v48) (funext fun a => Fin.ext ?_)
    match a with
    | ⟨0, _⟩ => show win2_3.index t (0 : Fin 2) * 1 + 1 * (y 0).val = (y 0).val; omega
    | ⟨1, _⟩ => show win2_3.index t (1 : Fin 2) * 256 + 1 * (y 1).val = (y 1).val; omega
  have hw4 : (iblk2 V c 4 t : FVec Ideal S256x256 .f32) = V c main_arg12 := by
    funext y
    show V c main_arg12 (((cfg2.win 4).blk t).view.emb y) = V c main_arg12 y
    refine congrArg (V c main_arg12) (funext fun a => Fin.ext ?_)
    match a with
    | ⟨0, _⟩ => show win2_4.index t (0 : Fin 2) * 256 + 1 * (y 0).val = (y 0).val; omega
    | ⟨1, _⟩ => show win2_4.index t (1 : Fin 2) * 256 + 1 * (y 1).val = (y 1).val; omega
  have hw5 : (iblk2 V c 5 t : FVec Ideal S1x256 .f32) = V c main_v49 := by
    funext y
    show V c main_v49 (((cfg2.win 5).blk t).view.emb y) = V c main_v49 y
    refine congrArg (V c main_v49) (funext fun a => Fin.ext ?_)
    match a with
    | ⟨0, _⟩ => show win2_5.index t (0 : Fin 2) * 1 + 1 * (y 0).val = (y 0).val; omega
    | ⟨1, _⟩ => show win2_5.index t (1 : Fin 2) * 256 + 1 * (y 1).val = (y 1).val; omega
  -- the row-blocked operands' blocks are the arrays' rows 2000·t + r
  have hx : ∀ (r : Fin 2000) (l : Fin 256), (iblk2 V c 0 t : FVec Ideal S2000x256 .f32) (ix2 r l) = (V c main_v35 : FVec Ideal S50000x256 .f32) (ix2 (rowAt t.val ht r) l) := by
    intro r l
    show V c main_v35 (((cfg2.win 0).blk t).view.emb (ix2 r l)) = V c main_v35 (ix2 (rowAt t.val ht r) l)
    refine congrArg (V c main_v35) (funext fun a => Fin.ext ?_)
    match a with
    | ⟨0, _⟩ => show win2_0.index t (0 : Fin 2) * 2000 + 1 * r.val = t.val * 2000 + r.val; omega
    | ⟨1, _⟩ => show win2_0.index t (1 : Fin 2) * 256 + 1 * l.val = l.val; omega
  have hg : ∀ (r : Fin 2000) (l : Fin 256), (iblk2 V c 1 t : FVec Ideal S2000x256 .f32) (ix2 r l) = (V c main_v47 : FVec Ideal S50000x256 .f32) (ix2 (rowAt t.val ht r) l) := by
    intro r l
    show V c main_v47 (((cfg2.win 1).blk t).view.emb (ix2 r l)) = V c main_v47 (ix2 (rowAt t.val ht r) l)
    refine congrArg (V c main_v47) (funext fun a => Fin.ext ?_)
    match a with
    | ⟨0, _⟩ => show win2_1.index t (0 : Fin 2) * 2000 + 1 * r.val = t.val * 2000 + r.val; omega
    | ⟨1, _⟩ => show win2_1.index t (1 : Fin 2) * 256 + 1 * l.val = l.val; omega
  -- the block entry (r, q) sits in the output array at (2000·t + r, q)
  have hj : (j : S2000x256.Idx) = ix2 (n0 := 2000) (n1 := 256) (j 0) (j 1) := eq_ix2 j
  have hi : ((cfg2.win 6).blk t).view.emb j = ix2 (n0 := 50000) (n1 := 256) (rowAt t.val ht (j 0)) (j 1) := by
    refine funext fun a => Fin.ext ?_
    match a with
    | ⟨0, _⟩ => show win2_6.index t (0 : Fin 2) * 2000 + 1 * (j 0).val = t.val * 2000 + (j 0).val; omega
    | ⟨1, _⟩ => show win2_6.index t (1 : Fin 2) * 256 + 1 * (j 1).val = (j 1).val; omega
  refine (congrFun (pay2_congr (x0 := iblk2 V c 0 t) (x1 := iblk2 V c 1 t) hw2 hw3 hw4 hw5) j).trans ?_
  refine (congrArg (k2_pay1 (iblk2 V c 0 t) (iblk2 V c 1 t) (V c main_arg10) (V c main_v48) (V c main_arg12) (V c main_v49)) hj).trans ?_
  refine Eq.trans ?_ (congrArg (Cert.Spec.mlp256 (V c main_v35) (V c main_v47) (V c main_arg10) (V c main_v48) (V c main_arg12) (V c main_v49)) hi).symm
  exact pay2_entry (rowAt t.val ht) (iblk2 V c 0 t) (iblk2 V c 1 t) (V c main_arg10) (V c main_v48) (V c main_arg12) (V c main_v49)
    (V c main_v35) (V c main_v47) hx hg (j 0) (j 1)

/-- An index of the output array is in point t's block iff each coordinate is in the block's range on its axis. -/
theorem mem_blk2 (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v50).slice (win2_6.rect t)).set ↔ _
  rw [View.set_slice_whole, Rect.mem_set_unit]
  exact Iff.rfl

/-- Every entry of the output array lies in some point's block: row p in the block of point p / 2000. -/
theorem cover2 (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by show (i 0).val / 2000 < grid2.N; rw [N_2]; omega⟩, rfl⟩
  obtain ⟨e0, e1, e2, e3, e4, e5, e6, e7, e8, e9, e10, e11, e12, e13⟩ := idx_facts2 t
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 256 ≤ (i 1).val ∧ (i 1).val < win2_6.index t (1 : Fin 2) * 256 + 256; omega

/-- The array call 2 leaves is the specification's perceptron of its six operand arrays. -/
theorem arr2 (c : Dev nD) :
    (dat2 (F := Ideal) V c).arrAt 6 cfg2.N
      = Cert.Spec.mlp256 (V c main_v35) (V c main_v47) (V c main_arg10) (V c main_v48) (V c main_arg12) (V c main_v49) :=
  (dat2 (F := Ideal) V c).arrAt_eq_of_cover 6 (Cert.Spec.mlp256 (V c main_v35) (V c main_v47) (V c main_arg10) (V c main_v48) (V c main_arg12) (V c main_v49))
    (fun t _ => flushed2_eq V c t) (cover2)

/-! ## Call 4 -/

/-- Equal weights and biases, equal payloads. -/
theorem pay4_congr {x0 x1 : Vec Ideal S2000x256 .f32} {w1 w1' : Vec Ideal S256x256 .f32} {b1 b1' : Vec Ideal S1x256 .f32}
    {w2 w2' : Vec Ideal S256x256 .f32} {b2 b2' : Vec Ideal S1x256 .f32} (e1 : w1 = w1') (e2 : b1 = b1') (e3 : w2 = w2') (e4 : b2 = b2') :
    k4_pay1 x0 x1 w1 b1 w2 b2 = k4_pay1 x0 x1 w1' b1' w2' b2' := by
  subst e1 e2 e3 e4; rfl

/-- The index maps of call 4, decided over its 25 points: the two row-blocked operands and the output are at block t
    down the rows at point t; the weights' and biases' one block stays at the origin. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- What point t writes back is block t of the specification's perceptron of the six operand arrays. -/
theorem flushed4_eq (c : Dev nD) (t : Fin cfg4.N) :
    (dat4 (F := Ideal) V c).flushed 6 t
      = ((cfg4.win 6).blk t).view.read (Elt Ideal) (Cert.Spec.mlp256 (V c main_v67) (V c main_v79) (V c main_arg16) (V c main_v80) (V c main_arg18) (V c main_v81)) := by
  show (cfg4.win 6).cut (grid4.coords t) ((dat4 V c).after 6 t) = _
  rw [after4_6]
  unfold out4_6
  rw [View.canon_unit_zero hz]
  simp only [View.ld_unit_zero (S := S2000x256) hz, View.ld_unit_zero (S := S256x256) hz, View.ld_unit_zero (S := S1x256) hz,
    View.ld_unit_zero (S := S256x256) hz, View.ld_unit_zero (S := S2000x256) hz]
  obtain ⟨e0, e1, e2, e3, e4, e5, e6, e7, e8, e9, e10, e11, e12, e13⟩ := idx_facts4 t
  have ht : t.val < 25 := Nat.lt_of_lt_of_eq t.isLt N_4
  funext j
  show k4_pay1 (iblk4 V c 0 t) (iblk4 V c 1 t) (iblk4 V c 2 t) (iblk4 V c 3 t) (iblk4 V c 4 t) (iblk4 V c 5 t) j
    = Cert.Spec.mlp256 (V c main_v67) (V c main_v79) (V c main_arg16) (V c main_v80) (V c main_arg18) (V c main_v81) (((cfg4.win 6).blk t).view.emb j)
  -- the weights' and biases' blocks are their whole arrays
  have hw2 : (iblk4 V c 2 t : FVec Ideal S256x256 .f32) = V c main_arg16 := by
    funext y
    show V c main_arg16 (((cfg4.win 2).blk t).view.emb y) = V c main_arg16 y
    refine congrArg (V c main_arg16) (funext fun a => Fin.ext ?_)
    match a with
    | ⟨0, _⟩ => show win4_2.index t (0 : Fin 2) * 256 + 1 * (y 0).val = (y 0).val; omega
    | ⟨1, _⟩ => show win4_2.index t (1 : Fin 2) * 256 + 1 * (y 1).val = (y 1).val; omega
  have hw3 : (iblk4 V c 3 t : FVec Ideal S1x256 .f32) = V c main_v80 := by
    funext y
    show V c main_v80 (((cfg4.win 3).blk t).view.emb y) = V c main_v80 y
    refine congrArg (V c main_v80) (funext fun a => Fin.ext ?_)
    match a with
    | ⟨0, _⟩ => show win4_3.index t (0 : Fin 2) * 1 + 1 * (y 0).val = (y 0).val; omega
    | ⟨1, _⟩ => show win4_3.index t (1 : Fin 2) * 256 + 1 * (y 1).val = (y 1).val; omega
  have hw4 : (iblk4 V c 4 t : FVec Ideal S256x256 .f32) = V c main_arg18 := by
    funext y
    show V c main_arg18 (((cfg4.win 4).blk t).view.emb y) = V c main_arg18 y
    refine congrArg (V c main_arg18) (funext fun a => Fin.ext ?_)
    match a with
    | ⟨0, _⟩ => show win4_4.index t (0 : Fin 2) * 256 + 1 * (y 0).val = (y 0).val; omega
    | ⟨1, _⟩ => show win4_4.index t (1 : Fin 2) * 256 + 1 * (y 1).val = (y 1).val; omega
  have hw5 : (iblk4 V c 5 t : FVec Ideal S1x256 .f32) = V c main_v81 := by
    funext y
    show V c main_v81 (((cfg4.win 5).blk t).view.emb y) = V c main_v81 y
    refine congrArg (V c main_v81) (funext fun a => Fin.ext ?_)
    match a with
    | ⟨0, _⟩ => show win4_5.index t (0 : Fin 2) * 1 + 1 * (y 0).val = (y 0).val; omega
    | ⟨1, _⟩ => show win4_5.index t (1 : Fin 2) * 256 + 1 * (y 1).val = (y 1).val; omega
  -- the row-blocked operands' blocks are the arrays' rows 2000·t + r
  have hx : ∀ (r : Fin 2000) (l : Fin 256), (iblk4 V c 0 t : FVec Ideal S2000x256 .f32) (ix2 r l) = (V c main_v67 : FVec Ideal S50000x256 .f32) (ix2 (rowAt t.val ht r) l) := by
    intro r l
    show V c main_v67 (((cfg4.win 0).blk t).view.emb (ix2 r l)) = V c main_v67 (ix2 (rowAt t.val ht r) l)
    refine congrArg (V c main_v67) (funext fun a => Fin.ext ?_)
    match a with
    | ⟨0, _⟩ => show win4_0.index t (0 : Fin 2) * 2000 + 1 * r.val = t.val * 2000 + r.val; omega
    | ⟨1, _⟩ => show win4_0.index t (1 : Fin 2) * 256 + 1 * l.val = l.val; omega
  have hg : ∀ (r : Fin 2000) (l : Fin 256), (iblk4 V c 1 t : FVec Ideal S2000x256 .f32) (ix2 r l) = (V c main_v79 : FVec Ideal S50000x256 .f32) (ix2 (rowAt t.val ht r) l) := by
    intro r l
    show V c main_v79 (((cfg4.win 1).blk t).view.emb (ix2 r l)) = V c main_v79 (ix2 (rowAt t.val ht r) l)
    refine congrArg (V c main_v79) (funext fun a => Fin.ext ?_)
    match a with
    | ⟨0, _⟩ => show win4_1.index t (0 : Fin 2) * 2000 + 1 * r.val = t.val * 2000 + r.val; omega
    | ⟨1, _⟩ => show win4_1.index t (1 : Fin 2) * 256 + 1 * l.val = l.val; omega
  -- the block entry (r, q) sits in the output array at (2000·t + r, q)
  have hj : (j : S2000x256.Idx) = ix2 (n0 := 2000) (n1 := 256) (j 0) (j 1) := eq_ix2 j
  have hi : ((cfg4.win 6).blk t).view.emb j = ix2 (n0 := 50000) (n1 := 256) (rowAt t.val ht (j 0)) (j 1) := by
    refine funext fun a => Fin.ext ?_
    match a with
    | ⟨0, _⟩ => show win4_6.index t (0 : Fin 2) * 2000 + 1 * (j 0).val = t.val * 2000 + (j 0).val; omega
    | ⟨1, _⟩ => show win4_6.index t (1 : Fin 2) * 256 + 1 * (j 1).val = (j 1).val; omega
  refine (congrFun (pay4_congr (x0 := iblk4 V c 0 t) (x1 := iblk4 V c 1 t) hw2 hw3 hw4 hw5) j).trans ?_
  refine (congrArg (k4_pay1 (iblk4 V c 0 t) (iblk4 V c 1 t) (V c main_arg16) (V c main_v80) (V c main_arg18) (V c main_v81)) hj).trans ?_
  refine Eq.trans ?_ (congrArg (Cert.Spec.mlp256 (V c main_v67) (V c main_v79) (V c main_arg16) (V c main_v80) (V c main_arg18) (V c main_v81)) hi).symm
  exact pay4_entry (rowAt t.val ht) (iblk4 V c 0 t) (iblk4 V c 1 t) (V c main_arg16) (V c main_v80) (V c main_arg18) (V c main_v81)
    (V c main_v67) (V c main_v79) hx hg (j 0) (j 1)

/-- An index of the output array is in point t's block iff each coordinate is in the block's range on its axis. -/
theorem mem_blk4 (t : Fin cfg4.N) (i : S50000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v82).slice (win4_6.rect t)).set ↔ _
  rw [View.set_slice_whole, Rect.mem_set_unit]
  exact Iff.rfl

/-- Every entry of the output array lies in some point's block: row p in the block of point p / 2000. -/
theorem cover4 (i : S50000x256.Idx) :
    ∃ t : Fin cfg4.N, (cfg4.win 6).flush t = true ∧ i ∈ ((cfg4.win 6).blk t).view.set := by
  have hi0 : (i 0).val < 50000 := (i 0).isLt
  have hi1 : (i 1).val < 256 := (i 1).isLt
  obtain ⟨t, ht⟩ : ∃ t : Fin cfg4.N, t.val = (i 0).val / 2000 :=
    ⟨⟨(i 0).val / 2000, by show (i 0).val / 2000 < grid4.N; rw [N_4]; omega⟩, rfl⟩
  obtain ⟨e0, e1, e2, e3, e4, e5, e6, e7, e8, e9, e10, e11, e12, e13⟩ := idx_facts4 t
  refine ⟨t, flush4_6 t, ?_⟩
  rw [mem_blk4]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 256 ≤ (i 1).val ∧ (i 1).val < win4_6.index t (1 : Fin 2) * 256 + 256; omega

/-- The array call 4 leaves is the specification's perceptron of its six operand arrays. -/
theorem arr4 (c : Dev nD) :
    (dat4 (F := Ideal) V c).arrAt 6 cfg4.N
      = Cert.Spec.mlp256 (V c main_v67) (V c main_v79) (V c main_arg16) (V c main_v80) (V c main_arg18) (V c main_v81) :=
  (dat4 (F := Ideal) V c).arrAt_eq_of_cover 6 (Cert.Spec.mlp256 (V c main_v67) (V c main_v79) (V c main_arg16) (V c main_v80) (V c main_arg18) (V c main_v81))
    (fun t _ => flushed4_eq V c t) (cover4)

end Cert.KernelIdeal.MlpArr

end
-- ==== Proof.Chain.lean ====
/-
  The buffer contents at the boundaries of the idealized kernel's @main, as the network's intermediate arrays.

  Going through the fourteen segments in order: after each perceptron call its output array holds the perceptron of the
  layer's input and neighbour sums; after each normalisation call, the layer's output; after the last call, the
  network's result. Each step reads the call's operands where they were last written (an argument at the launch
  memory, an intermediate at the stretch or call that produced it) and applies the call's whole-array lemma.
-/
import proofs.«101660_j22883585753798_2_alg».proof.Proof.Keep
import proofs.«101660_j22883585753798_2_alg».proof.Proof.HostReadsA
import proofs.«101660_j22883585753798_2_alg».proof.Proof.HostReadsB
import proofs.«101660_j22883585753798_2_alg».proof.Proof.BnRegion
import proofs.«101660_j22883585753798_2_alg».proof.Proof.BnAlgebra
import proofs.«101660_j22883585753798_2_alg».proof.Proof.HeadRegion
import proofs.«101660_j22883585753798_2_alg».proof.Proof.MlpArr

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.KernelIdeal.Keep Cert.Spec Cert.BnAlgebra

variable (m : (ℓ : Loc nD τ sig) → Buf (Elt Ideal) ℓ) (ρ : Dev nD → PrngReg)

/-- The argument arrays at launch. -/
def argsOf (c : Dev nD) : Cert.Spec.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29)⟩

/-- The first perceptron's output. -/
def pre1 (a : Args) : FVec Ideal Cert.ReferenceIdeal.S50000x256 .f32 := mlp128 a.a0 (agg128 a.a0 a.a1) a.a4 (row a.a5) a.a6 (row a.a7)
def pre2 (a : Args) : FVec Ideal Cert.ReferenceIdeal.S50000x256 .f32 := mlp256 (h1 a) (agg256 (h1 a) a.a1) a.a10 (row a.a11) a.a12 (row a.a13)
def pre3 (a : Args) : FVec Ideal Cert.ReferenceIdeal.S50000x256 .f32 := mlp256 (h2 a) (agg256 (h2 a) a.a1) a.a16 (row a.a17) a.a18 (row a.a19)

theorem h1_eq (a : Args) : h1 a = bn (pre1 a) a.a8 a.a9 := rfl
theorem h2_eq (a : Args) : h2 a = bn (pre2 a) a.a14 a.a15 := rfl
theorem h3_eq (a : Args) : h3 a = bn (pre3 a) a.a20 a.a21 := rfl

/-- The edges' sources and targets stay where host stretch 0 put them. -/
theorem src_at4 (c : Dev nD) : W4 m ρ c (Proc.devRef .tc main_v1) = src (m ((c : Thread nD τ).loc main_arg1)) :=
  (keepR1 m ρ c main_v1 (by decide)).trans ((keepH1 m ρ c main_v1 (by decide)).trans ((keepR0 m ρ c main_v1 (by decide)).trans (HostReadsA.h0_v1 m ρ c)))
theorem dst_at4 (c : Dev nD) : W4 m ρ c (Proc.devRef .tc main_v3) = dst (m ((c : Thread nD τ).loc main_arg1)) :=
  (keepR1 m ρ c main_v3 (by decide)).trans ((keepH1 m ρ c main_v3 (by decide)).trans ((keepR0 m ρ c main_v3 (by decide)).trans (HostReadsA.h0_v3 m ρ c)))
theorem src_at8 (c : Dev nD) : W8 m ρ c (Proc.devRef .tc main_v1) = src (m ((c : Thread nD τ).loc main_arg1)) :=
  (keepR3 m ρ c main_v1 (by decide)).trans ((keepH3 m ρ c main_v1 (by decide)).trans ((keepR2 m ρ c main_v1 (by decide)).trans ((keepH2 m ρ c main_v1 (by decide)).trans (src_at4 m ρ c))))
theorem dst_at8 (c : Dev nD) : W8 m ρ c (Proc.devRef .tc main_v3) = dst (m ((c : Thread nD τ).loc main_arg1)) :=
  (keepR3 m ρ c main_v3 (by decide)).trans ((keepH3 m ρ c main_v3 (by decide)).trans ((keepR2 m ρ c main_v3 (by decide)).trans ((keepH2 m ρ c main_v3 (by decide)).trans (dst_at4 m ρ c))))

/-- After perceptron call 0. -/
theorem at2 (c : Dev nD) : W2 m ρ c (Proc.devRef .tc main_v18) = pre1 (argsOf m c) := by
  refine (W2_arr m ρ c 6).trans ((MlpArr.arr0 (V1 m ρ) c).trans ?_)
  show mlp128 (W1 m ρ c (Proc.devRef .tc main_arg0)) (W1 m ρ c (Proc.devRef .tc main_v15)) (W1 m ρ c (Proc.devRef .tc main_arg4)) (W1 m ρ c (Proc.devRef .tc main_v16)) (W1 m ρ c (Proc.devRef .tc main_arg6)) (W1 m ρ c (Proc.devRef .tc main_v17)) = _
  rw [launch1 m ρ c main_arg0, HostReadsA.h0_v15 m ρ c, launch1 m ρ c main_arg4, HostReadsA.h0_v16 m ρ c, launch1 m ρ c main_arg6, HostReadsA.h0_v17 m ρ c,
    reshape_row, reshape_row]
  rfl

/-- After normalisation call 1. -/
theorem at4 (c : Dev nD) : W4 m ρ c (Proc.devRef .tc main_v35) = h1 (argsOf m c) := by
  refine (W4_arr m ρ c 5).trans ((BnRegion.arr1 (V3 m ρ) c).trans ?_)
  show bnWith (W3 m ρ c (Proc.devRef .tc main_v18)) (W3 m ρ c (Proc.devRef .tc main_v31)) (W3 m ρ c (Proc.devRef .tc main_v32)) (W3 m ρ c (Proc.devRef .tc main_v33)) (W3 m ρ c (Proc.devRef .tc main_v34)) = _
  rw [keepH1 m ρ c main_v18 (by decide), HostReadsA.h1_v31 m ρ c, HostReadsA.h1_v32 m ρ c, HostReadsA.h1_v33 m ρ c, HostReadsA.h1_v34 m ρ c,
    launch2 m ρ c main_arg8, launch2 m ρ c main_arg9, at2 m ρ c, clamp_var, reshape_row, reshape_row, reshape_row, reshape_row, bnWith_eq]
  rfl

/-- After perceptron call 2. -/
theorem at6 (c : Dev nD) : W6 m ρ c (Proc.devRef .tc main_v50) = pre2 (argsOf m c) := by
  refine (W6_arr m ρ c 6).trans ((MlpArr.arr2 (V5 m ρ) c).trans ?_)
  show mlp256 (W5 m ρ c (Proc.devRef .tc main_v35)) (W5 m ρ c (Proc.devRef .tc main_v47)) (W5 m ρ c (Proc.devRef .tc main_arg10)) (W5 m ρ c (Proc.devRef .tc main_v48)) (W5 m ρ c (Proc.devRef .tc main_arg12)) (W5 m ρ c (Proc.devRef .tc main_v49)) = _
  rw [keepH2 m ρ c main_v35 (by decide), HostReadsA.h2_v47 m ρ c, launch5 m ρ c main_arg10, HostReadsA.h2_v48 m ρ c, launch5 m ρ c main_arg12, HostReadsA.h2_v49 m ρ c,
    src_at4 m ρ c, dst_at4 m ρ c, at4 m ρ c, launch4 m ρ c main_arg11, launch4 m ρ c main_arg13, reshape_row, reshape_row]
  rfl

/-- After normalisation call 3. -/
theorem at8 (c : Dev nD) : W8 m ρ c (Proc.devRef .tc main_v67) = h2 (argsOf m c) := by
  refine (W8_arr m ρ c 5).trans ((BnRegion.arr3 (V7 m ρ) c).trans ?_)
  show bnWith (W7 m ρ c (Proc.devRef .tc main_v50)) (W7 m ρ c (Proc.devRef .tc main_v63)) (W7 m ρ c (Proc.devRef .tc main_v64)) (W7 m ρ c (Proc.devRef .tc main_v65)) (W7 m ρ c (Proc.devRef .tc main_v66)) = _
  rw [keepH3 m ρ c main_v50 (by decide), HostReadsA.h3_v63 m ρ c, HostReadsA.h3_v64 m ρ c, HostReadsA.h3_v65 m ρ c, HostReadsA.h3_v66 m ρ c,
    launch6 m ρ c main_arg14, launch6 m ρ c main_arg15, at6 m ρ c, clamp_var, reshape_row, reshape_row, reshape_row, reshape_row, bnWith_eq]
  rfl

/-- After perceptron call 4. -/
theorem at10 (c : Dev nD) : W10 m ρ c (Proc.devRef .tc main_v82) = pre3 (argsOf m c) := by
  refine (W10_arr m ρ c 6).trans ((MlpArr.arr4 (V9 m ρ) c).trans ?_)
  show mlp256 (W9 m ρ c (Proc.devRef .tc main_v67)) (W9 m ρ c (Proc.devRef .tc main_v79)) (W9 m ρ c (Proc.devRef .tc main_arg16)) (W9 m ρ c (Proc.devRef .tc main_v80)) (W9 m ρ c (Proc.devRef .tc main_arg18)) (W9 m ρ c (Proc.devRef .tc main_v81)) = _
  rw [keepH4 m ρ c main_v67 (by decide), HostReadsB.h4_v79 m ρ c, launch9 m ρ c main_arg16, HostReadsB.h4_v80 m ρ c, launch9 m ρ c main_arg18, HostReadsB.h4_v81 m ρ c,
    src_at8 m ρ c, dst_at8 m ρ c, at8 m ρ c, launch8 m ρ c main_arg17, launch8 m ρ c main_arg19, reshape_row, reshape_row]
  rfl

/-- After normalisation call 5. -/
theorem at12 (c : Dev nD) : W12 m ρ c (Proc.devRef .tc main_v99) = h3 (argsOf m c) := by
  refine (W12_arr m ρ c 5).trans ((BnRegion.arr5 (V11 m ρ) c).trans ?_)
  show bnWith (W11 m ρ c (Proc.devRef .tc main_v82)) (W11 m ρ c (Proc.devRef .tc main_v95)) (W11 m ρ c (Proc.devRef .tc main_v96)) (W11 m ρ c (Proc.devRef .tc main_v97)) (W11 m ρ c (Proc.devRef .tc main_v98)) = _
  rw [keepH5 m ρ c main_v82 (by decide), HostReadsB.h5_v95 m ρ c, HostReadsB.h5_v96 m ρ c, HostReadsB.h5_v97 m ρ c, HostReadsB.h5_v98 m ρ c,
    launch10 m ρ c main_arg20, launch10 m ρ c main_arg21, at10 m ρ c, clamp_var, reshape_row, reshape_row, reshape_row, reshape_row, bnWith_eq]
  rfl

/-- After the last call: the result buffer holds the network of the arguments. -/
theorem at14 (c : Dev nD) : W14 m ρ c (Proc.devRef .tc main_v117) = net (argsOf m c) := by
  refine (W14_arr m ρ c 10).trans ((HeadRegion.arr6 (V13 m ρ) c).trans ?_)
  show head (W13 m ρ c (Proc.devRef .tc main_v111)) (W13 m ρ c (Proc.devRef .tc main_v112)) (W13 m ρ c (Proc.devRef .tc main_arg22)) (W13 m ρ c (Proc.devRef .tc main_v113)) (W13 m ρ c (Proc.devRef .tc main_arg24)) (W13 m ρ c (Proc.devRef .tc main_v114)) (W13 m ρ c (Proc.devRef .tc main_arg26)) (W13 m ρ c (Proc.devRef .tc main_v115)) (W13 m ρ c (Proc.devRef .tc main_arg28)) (W13 m ρ c (Proc.devRef .tc main_v116)) = _
  rw [HostReadsB.h6_v111 m ρ c, HostReadsB.h6_v112 m ρ c, launch13 m ρ c main_arg22, HostReadsB.h6_v113 m ρ c, launch13 m ρ c main_arg24, HostReadsB.h6_v114 m ρ c,
    launch13 m ρ c main_arg26, HostReadsB.h6_v115 m ρ c, launch13 m ρ c main_arg28, HostReadsB.h6_v116 m ρ c, at12 m ρ c,
    launch12 m ρ c main_arg2, launch12 m ρ c main_arg3, launch12 m ρ c main_arg23, launch12 m ρ c main_arg25, launch12 m ρ c main_arg27, launch12 m ρ c main_arg29,
    reshape_row, reshape_row, reshape_row, reshape_row32]
  rfl

end Cert.KernelIdeal.Chain

end
-- ==== Proof.RefSpec.lean ====
/-
  The reference program's result is the network of the specification.

  The reference's run ends with its result buffer at one composed term of the argument arrays: the host operations
  of @main applied in order. Unfolding the specification's functions gives that term, operation for operation.
-/
import proofs.«101660_j22883585753798_2_alg».proof.Proof.Spec
import proofs.«101660_j22883585753798_2_alg».proof.Proof.Gen.ReferenceIdeal.Run

set_option maxRecDepth 16384

noncomputable section

namespace Cert.RefSpec

open Cert.ReferenceIdeal Cert.ReferenceIdeal.Gen Cert.ReferenceIdeal.Value Idealize.ShloMosaic Idealize.ShloMosaic.TcCoe Idealize.SL.Sem Idealize.ShloMosaic.StableHlo

/-- The argument arrays as a valuation holds them. -/
def argsOf (V0 : Valuation τ sig (Elt Ideal)) : Cert.Spec.Args :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15), V0 (Proc.devRef .tc main_arg16), V0 (Proc.devRef .tc main_arg17), V0 (Proc.devRef .tc main_arg18), V0 (Proc.devRef .tc main_arg19), V0 (Proc.devRef .tc main_arg20), V0 (Proc.devRef .tc main_arg21), V0 (Proc.devRef .tc main_arg22), V0 (Proc.devRef .tc main_arg23), V0 (Proc.devRef .tc main_arg24), V0 (Proc.devRef .tc main_arg25), V0 (Proc.devRef .tc main_arg26), V0 (Proc.devRef .tc main_arg27), V0 (Proc.devRef .tc main_arg28), V0 (Proc.devRef .tc main_arg29)⟩

/-- The reference's result term is the network of its arguments. -/
theorem result_eq (V0 : Valuation τ sig (Elt Ideal)) :
    val4 V0 (Proc.devRef .tc main_v188) = Cert.Spec.net (argsOf V0) :=
  (val4_main_v188 V0).trans rfl

end Cert.RefSpec

end
-- ==== Proof.lean ====
/-
  The certificate of a three-layer graph network with a lattice branch: a tiled kernel program against its jnp
  reference.

  The kernel program keeps the irregular parts (the neighbour sums over 800000 edges, the column statistics of batch
  normalisation, the mean pool) as host operations and runs the dense parts as seven pipelined kernel calls: per
  layer a two-layer perceptron over blocks of 2000 rows and a normalise-and-clamp over the same blocks, and one
  whole-array call for the lattice perceptron and the head. At the exact values a change of float format is the
  identity, a product accumulated into zero is the plain product, and a block of rows of a product is the product of
  the block of rows; so every kernel call's output array is the reference's whole-array function of the call's
  operands. The two programs then differ in two places only: the kernel clamps each variance at zero (a variance is a
  quotient of a sum of squares, so nothing changes) and multiplies `(h − μ)·rsqrt(v + ε)·γ` where the reference
  multiplies `γ·(h − μ)·rsqrt(σ² + ε)` (multiplication of extended reals is commutative and associative). No law used
  needs finite inputs, so the precondition is never opened.

  Frames: the two kernel programs' are the generated ones; the reference's is its run with the result dropped.
  The idealization rewrote no operation, so its conjunct is trivial.
-/
import proofs.«101660_j22883585753798_2_alg».proof.Defs
import proofs.«101660_j22883585753798_2_alg».proof.Proof.Gen.Kernel
import proofs.«101660_j22883585753798_2_alg».proof.Proof.Gen.Kernel.Frame
import proofs.«101660_j22883585753798_2_alg».proof.Proof.Gen.KernelIdeal
import proofs.«101660_j22883585753798_2_alg».proof.Proof.Gen.KernelIdeal.Frame
import proofs.«101660_j22883585753798_2_alg».proof.Proof.Gen.ReferenceIdeal
import proofs.«101660_j22883585753798_2_alg».proof.Proof.Gen.Pre_finite_inputs
import proofs.«101660_j22883585753798_2_alg».proof.Proof.Gen.ReferenceIdeal.Run
import proofs.«101660_j22883585753798_2_alg».proof.Proof.KRun
import proofs.«101660_j22883585753798_2_alg».proof.Proof.Chain
import proofs.«101660_j22883585753798_2_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's argument arrays are the kernel's when the two launch memories agree on them. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    Cert.RefSpec.argsOf (launchContents m' c) = Cert.KernelIdeal.Chain.argsOf m c := by
  obtain ⟨e0, e1, e2, e3, e4, e5, e6, e7, e8, e9, e10, e11, e12, e13, e14, e15, e16, e17, e18, e19, e20, e21, e22, e23, e24, e25, e26, e27, e28, e29⟩ := h
  show Cert.Spec.Args.mk (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) = _
  rw [e0, e1, e2, e3, e4, e5, e6, e7, e8, e9, e10, e11, e12, e13, e14, e15, e16, e17, e18, e19, e20, e21, e22, e23, e24, e25, e26, e27, e28, e29]
  rfl

/-- At the exact values both programs end with the network of the argument arrays in their result buffers. -/
theorem algebraic : Cert.algebraic_KernelIdeal_ReferenceIdeal := by
  intro m ρ m' ρ' _ hagree
  refine ⟨fun c => Cert.Spec.net (Cert.KernelIdeal.Chain.argsOf m c), ?_, ?_⟩
  · exact (θ_run Cert.KernelIdeal.defs _ _).mono
      (fun r h c => ⟨(h c).1.trans (Cert.KernelIdeal.Chain.at14 m ρ c), (h c).2⟩) (Cert.KernelIdeal.KRun.run_value (F := Ideal) m ρ)
  · refine (θ_run Cert.ReferenceIdeal.defs _ _).mono (fun r h c => ⟨?_, (h c).2⟩) (Cert.ReferenceIdeal.Value.run (F := Ideal) m' ρ')
    refine (h c).1.trans ?_
    refine (Cert.ReferenceIdeal.Value.val4_main_v188 (launchContents m' c)).symm.trans ?_
    refine (Cert.RefSpec.result_eq (launchContents m' c)).trans ?_
    exact congrArg Cert.Spec.net (args_agree m m' c (hagree c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
